-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v84)) (v2 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_v129) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x300 : Shape := ⟨2, ![50000, 300]⟩
abbrev S2000x128 : Shape := ⟨2, ![2000, 128]⟩
abbrev S1000000 : Shape := ⟨1, ![1000000]⟩
abbrev S500000 : Shape := ⟨1, ![500000]⟩
abbrev S600000 : Shape := ⟨1, ![600000]⟩
abbrev S150000 : Shape := ⟨1, ![150000]⟩
abbrev S100000 : Shape := ⟨1, ![100000]⟩
abbrev S128x300 : Shape := ⟨2, ![128, 300]⟩
abbrev S128 : Shape := ⟨1, ![128]⟩
abbrev S128x128 : Shape := ⟨2, ![128, 128]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S2000x128 : S_.BroadcastsInDim S2000x128 (![] : Fin 0 → Fin S2000x128.rank)
  reducesTo_S2000x128_S_d0_1 : S2000x128.ReducesTo [0, 1] S_
  bcast_S_S1000000 : S_.BroadcastsInDim S1000000 (![] : Fin 0 → Fin S1000000.rank)
  reducesTo_S1000000_S_d0 : S1000000.ReducesTo [0] S_
  bcast_S_S500000 : S_.BroadcastsInDim S500000 (![] : Fin 0 → Fin S500000.rank)
  reducesTo_S500000_S_d0 : S500000.ReducesTo [0] S_
  bcast_S_S600000 : S_.BroadcastsInDim S600000 (![] : Fin 0 → Fin S600000.rank)
  reducesTo_S600000_S_d0 : S600000.ReducesTo [0] S_
  bcast_S_S150000 : S_.BroadcastsInDim S150000 (![] : Fin 0 → Fin S150000.rank)
  reducesTo_S150000_S_d0 : S150000.ReducesTo [0] S_
  bcast_S_S100000 : S_.BroadcastsInDim S100000 (![] : Fin 0 → Fin S100000.rank)
  reducesTo_S100000_S_d0 : S100000.ReducesTo [0] S_
  bcast_S_S128x300 : S_.BroadcastsInDim S128x300 (![] : Fin 0 → Fin S128x300.rank)
  reducesTo_S128x300_S_d0_1 : S128x300.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg24 : FVec F S128 .f32) (main_arg25 : FVec F S128x128 .f32) (main_arg26 : FVec F S128 .f32) (main_v63 : IVec S_ 1) (main_v67 : IVec S_ 1) : IVec S_ 1 :=
  let main_v68 : IVec S_ 1 := andi main_v63 main_v67
  let main_v69 : FVec F S128 .f32 := Host.absf main_arg24
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg25
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg26
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg21 : FVec F S128x300 .f32) (main_arg22 : FVec F S128 .f32) (main_arg23 : FVec F S128x128 .f32) (main_arg24 : FVec F S128 .f32) (main_arg25 : FVec F S128x128 .f32) (main_arg26 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x300 .f32 := Host.absf main_arg21
  let main_cst_20 : FVec F S_ .f32 := constant S_ .f32 0x7F800000#32
  let main_v55 : FVec F S128x300 .f32 := broadcastInDim S128x300 ![] bcast_S_S128x300 main_cst_20
  let main_v56 : IVec S128x300 1 := cmpf .olt main_v54 main_v55
  let main_c_21 : IVec S_ 1 := constantI S_ 1 1#1
  let main_v57 : IVec S_ 1 := (fun x v => Host.reduce IntOp.andi x v reducesTo_S128x300_S_d0_1 h_S_) main_v56 main_c_21
  let main_v58 : IVec S_ 1 := andi main_v53 main_v57
  let main_v59 : FVec F S128 .f32 := Host.absf main_arg22
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg23
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg24 main_arg25 main_arg26 main_v63 main_v67

def fn_part2 {F : FTy → Type} [FloatOps F] (main_arg17 : FVec F S128x300 .f32) (main_arg18 : FVec F S128 .f32) (main_arg19 : FVec F S128x300 .f32) (main_arg20 : FVec F S128 .f32) (main_arg21 : FVec F S128x300 .f32) (main_arg22 : FVec F S128 .f32) (main_arg23 : FVec F S128x128 .f32) (main_arg24 : FVec F S128 .f32) (main_arg25 : FVec F S128x128 .f32) (main_arg26 : FVec F S128 .f32) (main_v33 : IVec S_ 1) : IVec S_ 1 :=
  let main_v34 : FVec F S128x300 .f32 := Host.absf main_arg17
  let main_cst_12 : FVec F S_ .f32 := constant S_ .f32 0x7F800000#32
  let main_v35 : FVec F S128x300 .f32 := broadcastInDim S128x300 ![] bcast_S_S128x300 main_cst_12
  let main_v36 : IVec S128x300 1 := cmpf .olt main_v34 main_v35
  let main_c_13 : IVec S_ 1 := constantI S_ 1 1#1
  let main_v37 : IVec S_ 1 := (fun x v => Host.reduce IntOp.andi x v reducesTo_S128x300_S_d0_1 h_S_) main_v36 main_c_13
  let main_v38 : IVec S_ 1 := andi main_v33 main_v37
  let main_v39 : FVec F S128 .f32 := Host.absf main_arg18
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x300 .f32 := Host.absf main_arg19
  let main_cst_16 : FVec F S_ .f32 := constant S_ .f32 0x7F800000#32
  let main_v45 : FVec F S128x300 .f32 := broadcastInDim S128x300 ![] bcast_S_S128x300 main_cst_16
  let main_v46 : IVec S128x300 1 := cmpf .olt main_v44 main_v45
  let main_c_17 : IVec S_ 1 := constantI S_ 1 1#1
  let main_v47 : IVec S_ 1 := (fun x v => Host.reduce IntOp.andi x v reducesTo_S128x300_S_d0_1 h_S_) main_v46 main_c_17
  let main_v48 : IVec S_ 1 := andi main_v43 main_v47
  let main_v49 : FVec F S128 .f32 := Host.absf main_arg20
  let main_cst_18 : FVec F S_ .f32 := constant S_ .f32 0x7F800000#32
  let main_v50 : FVec F S128 .f32 := broadcastInDim S128 ![] bcast_S_S128 main_cst_18
  fn_part3 (F := F) main_arg21 main_arg22 main_arg23 main_arg24 main_arg25 main_arg26 main_v48 main_v49 main_v50

def fn_part1 {F : FTy → Type} [FloatOps F] (main_arg14 : FVec F S600000 .f32) (main_arg15 : FVec F S150000 .f32) (main_arg16 : FVec F S100000 .f32) (main_arg17 : FVec F S128x300 .f32) (main_arg18 : FVec F S128 .f32) (main_arg19 : FVec F S128x300 .f32) (main_arg20 : FVec F S128 .f32) (main_arg21 : FVec F S128x300 .f32) (main_arg22 : FVec F S128 .f32) (main_arg23 : FVec F S128x128 .f32) (main_arg24 : FVec F S128 .f32) (main_arg25 : FVec F S128x128 .f32) (main_arg26 : FVec F S128 .f32) (main_v13 : IVec S_ 1) (main_v16 : IVec S500000 1) : IVec S_ 1 :=
  let main_c_5 : IVec S_ 1 := constantI S_ 1 1#1
  let main_v17 : IVec S_ 1 := (fun x v => Host.reduce IntOp.andi x v reducesTo_S500000_S_d0 h_S_) main_v16 main_c_5
  let main_v18 : IVec S_ 1 := andi main_v13 main_v17
  let main_v19 : FVec F S600000 .f32 := Host.absf main_arg14
  let main_cst_6 : FVec F S_ .f32 := constant S_ .f32 0x7F800000#32
  let main_v20 : FVec F S600000 .f32 := broadcastInDim S600000 ![] bcast_S_S600000 main_cst_6
  let main_v21 : IVec S600000 1 := cmpf .olt main_v19 main_v20
  let main_c_7 : IVec S_ 1 := constantI S_ 1 1#1
  let main_v22 : IVec S_ 1 := (fun x v => Host.reduce IntOp.andi x v reducesTo_S600000_S_d0 h_S_) main_v21 main_c_7
  let main_v23 : IVec S_ 1 := andi main_v18 main_v22
  let main_v24 : FVec F S150000 .f32 := Host.absf main_arg15
  let main_cst_8 : FVec F S_ .f32 := constant S_ .f32 0x7F800000#32
  let main_v25 : FVec F S150000 .f32 := broadcastInDim S150000 ![] bcast_S_S150000 main_cst_8
  let main_v26 : IVec S150000 1 := cmpf .olt main_v24 main_v25
  let main_c_9 : IVec S_ 1 := constantI S_ 1 1#1
  let main_v27 : IVec S_ 1 := (fun x v => Host.reduce IntOp.andi x v reducesTo_S150000_S_d0 h_S_) main_v26 main_c_9
  let main_v28 : IVec S_ 1 := andi main_v23 main_v27
  let main_v29 : FVec F S100000 .f32 := Host.absf main_arg16
  let main_cst_10 : FVec F S_ .f32 := constant S_ .f32 0x7F800000#32
  let main_v30 : FVec F S100000 .f32 := broadcastInDim S100000 ![] bcast_S_S100000 main_cst_10
  let main_v31 : IVec S100000 1 := cmpf .olt main_v29 main_v30
  let main_c_11 : IVec S_ 1 := constantI S_ 1 1#1
  let main_v32 : IVec S_ 1 := (fun x v => Host.reduce IntOp.andi x v reducesTo_S100000_S_d0 h_S_) main_v31 main_c_11
  let main_v33 : IVec S_ 1 := andi main_v28 main_v32
  fn_part2 (F := F) main_arg17 main_arg18 main_arg19 main_arg20 main_arg21 main_arg22 main_arg23 main_arg24 main_arg25 main_arg26 main_v33

def fn {F : FTy → Type} [FloatOps F] (main_arg0 : FVec F S50000x300 .f32) (main_arg1 : FVec F S2000x128 .f32) (main_arg2 : IVec S1000000 32) (main_arg3 : IVec S1000000 32) (main_arg4 : IVec S500000 32) (main_arg5 : IVec S500000 32) (main_arg6 : IVec S600000 32) (main_arg7 : IVec S600000 32) (main_arg8 : IVec S150000 32) (main_arg9 : IVec S150000 32) (main_arg10 : IVec S100000 32) (main_arg11 : IVec S100000 32) (main_arg12 : FVec F S1000000 .f32) (main_arg13 : FVec F S500000 .f32) (main_arg14 : FVec F S600000 .f32) (main_arg15 : FVec F S150000 .f32) (main_arg16 : FVec F S100000 .f32) (main_arg17 : FVec F S128x300 .f32) (main_arg18 : FVec F S128 .f32) (main_arg19 : FVec F S128x300 .f32) (main_arg20 : FVec F S128 .f32) (main_arg21 : FVec F S128x300 .f32) (main_arg22 : FVec F S128 .f32) (main_arg23 : FVec F S128x128 .f32) (main_arg24 : FVec F S128 .f32) (main_arg25 : FVec F S128x128 .f32) (main_arg26 : FVec F S128 .f32) : IVec S_ 1 :=
  let main_v0 : FVec F S50000x300 .f32 := Host.absf main_arg0
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S2000x128 .f32 := Host.absf main_arg1
  let main_cst_0 : FVec F S_ .f32 := constant S_ .f32 0x7F800000#32
  let main_v5 : FVec F S2000x128 .f32 := broadcastInDim S2000x128 ![] bcast_S_S2000x128 main_cst_0
  let main_v6 : IVec S2000x128 1 := cmpf .olt main_v4 main_v5
  let main_c_1 : IVec S_ 1 := constantI S_ 1 1#1
  let main_v7 : IVec S_ 1 := (fun x v => Host.reduce IntOp.andi x v reducesTo_S2000x128_S_d0_1 h_S_) main_v6 main_c_1
  let main_v8 : IVec S_ 1 := andi main_v3 main_v7
  let main_v9 : FVec F S1000000 .f32 := Host.absf main_arg12
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S500000 .f32 := Host.absf main_arg13
  let main_cst_4 : FVec F S_ .f32 := constant S_ .f32 0x7F800000#32
  let main_v15 : FVec F S500000 .f32 := broadcastInDim S500000 ![] bcast_S_S500000 main_cst_4
  let main_v16 : IVec S500000 1 := cmpf .olt main_v14 main_v15
  fn_part1 (F := F) main_arg14 main_arg15 main_arg16 main_arg17 main_arg18 main_arg19 main_arg20 main_arg21 main_arg22 main_arg23 main_arg24 main_arg25 main_arg26 main_v13 main_v16
-- ==== Kernel.lean ====
abbrev S50000x300 : Shape := ⟨2, ![50000, 300]⟩
abbrev S2000x128 : Shape := ⟨2, ![2000, 128]⟩
abbrev S1000000 : Shape := ⟨1, ![1000000]⟩
abbrev S500000 : Shape := ⟨1, ![500000]⟩
abbrev S600000 : Shape := ⟨1, ![600000]⟩
abbrev S150000 : Shape := ⟨1, ![150000]⟩
abbrev S100000 : Shape := ⟨1, ![100000]⟩
abbrev S128x300 : Shape := ⟨2, ![128, 300]⟩
abbrev S128 : Shape := ⟨1, ![128]⟩
abbrev S128x128 : Shape := ⟨2, ![128, 128]⟩
abbrev S300x128 : Shape := ⟨2, ![300, 128]⟩
abbrev S300x384 : Shape := ⟨2, ![300, 384]⟩
abbrev S384 : Shape := ⟨1, ![384]⟩
abbrev S128x256 : Shape := ⟨2, ![128, 256]⟩
abbrev S256 : Shape := ⟨1, ![256]⟩
abbrev S1x384 : Shape := ⟨2, ![1, 384]⟩
abbrev S50000x384 : Shape := ⟨2, ![50000, 384]⟩
abbrev S2000x300 : Shape := ⟨2, ![2000, 300]⟩
abbrev S2000x384 : Shape := ⟨2, ![2000, 384]⟩
abbrev S1x256 : Shape := ⟨2, ![1, 256]⟩
abbrev S2000x256 : Shape := ⟨2, ![2000, 256]⟩
abbrev S50000x128 : Shape := ⟨2, ![50000, 128]⟩
abbrev S_ : Shape := ⟨0, ![]⟩
abbrev S1000000x1 : Shape := ⟨2, ![1000000, 1]⟩
abbrev S1000000x128 : Shape := ⟨2, ![1000000, 128]⟩
abbrev S50000 : Shape := ⟨1, ![50000]⟩
abbrev S50000x1 : Shape := ⟨2, ![50000, 1]⟩
abbrev S500000x1 : Shape := ⟨2, ![500000, 1]⟩
abbrev S500000x128 : Shape := ⟨2, ![500000, 128]⟩
abbrev S2000 : Shape := ⟨1, ![2000]⟩
abbrev S2000x1 : Shape := ⟨2, ![2000, 1]⟩
abbrev S100000x1 : Shape := ⟨2, ![100000, 1]⟩
abbrev S100000x128 : Shape := ⟨2, ![100000, 128]⟩
abbrev S600000x1 : Shape := ⟨2, ![600000, 1]⟩
abbrev S600000x128 : Shape := ⟨2, ![600000, 128]⟩
abbrev S20000x128 : Shape := ⟨2, ![20000, 128]⟩
abbrev S20000 : Shape := ⟨1, ![20000]⟩
abbrev S20000x1 : Shape := ⟨2, ![20000, 1]⟩
abbrev S150000x1 : Shape := ⟨2, ![150000, 1]⟩
abbrev S150000x128 : Shape := ⟨2, ![150000, 128]⟩

abbrev nBuf : Space → Nat
  | .hbm => 187
  | .vmem => 10
  | .smem => 0
  | _ => 0

abbrev hbmTy0_0 (i : Nat) : BufTy := match i % 128 with
  | 0 => ⟨S50000x300, .f32⟩
  | 1 => ⟨S2000x128, .f32⟩
  | 2 => ⟨S1000000, .i32⟩
  | 3 => ⟨S1000000, .i32⟩
  | 4 => ⟨S500000, .i32⟩
  | 5 => ⟨S500000, .i32⟩
  | 6 => ⟨S600000, .i32⟩
  | 7 => ⟨S600000, .i32⟩
  | 8 => ⟨S150000, .i32⟩
  | 9 => ⟨S150000, .i32⟩
  | 10 => ⟨S100000, .i32⟩
  | 11 => ⟨S100000, .i32⟩
  | 12 => ⟨S1000000, .f32⟩
  | 13 => ⟨S500000, .f32⟩
  | 14 => ⟨S600000, .f32⟩
  | 15 => ⟨S150000, .f32⟩
  | 16 => ⟨S100000, .f32⟩
  | 17 => ⟨S128x300, .f32⟩
  | 18 => ⟨S128, .f32⟩
  | 19 => ⟨S128x300, .f32⟩
  | 20 => ⟨S128, .f32⟩
  | 21 => ⟨S128x300, .f32⟩
  | 22 => ⟨S128, .f32⟩
  | 23 => ⟨S128x128, .f32⟩
  | 24 => ⟨S128, .f32⟩
  | 25 => ⟨S128x128, .f32⟩
  | 26 => ⟨S128, .f32⟩
  | 27 => ⟨S300x128, .f32⟩
  | 28 => ⟨S300x128, .f32⟩
  | 29 => ⟨S300x128, .f32⟩
  | 30 => ⟨S300x384, .f32⟩
  | 31 => ⟨S384, .f32⟩
  | 32 => ⟨S128x128, .f32⟩
  | 33 => ⟨S128x128, .f32⟩
  | 34 => ⟨S128x256, .f32⟩
  | 35 => ⟨S256, .f32⟩
  | 36 => ⟨S1x384, .f32⟩
  | 37 => ⟨S50000x384, .f32⟩
  | 38 => ⟨S1x256, .f32⟩
  | 39 => ⟨S2000x256, .f32⟩
  | 40 => ⟨S50000x128, .f32⟩
  | 41 => ⟨S50000x128, .f32⟩
  | 42 => ⟨S50000x128, .f32⟩
  | 43 => ⟨S2000x128, .f32⟩
  | 44 => ⟨S2000x128, .f32⟩
  | 45 => ⟨S_, .i32⟩
  | 46 => ⟨S1000000, .i32⟩
  | 47 => ⟨S1000000, .i1⟩
  | 48 => ⟨S_, .i32⟩
  | 49 => ⟨S1000000, .i32⟩
  | 50 => ⟨S1000000, .i32⟩
  | 51 => ⟨S1000000, .i32⟩
  | 52 => ⟨S1000000x1, .i32⟩
  | 53 => ⟨S1000000x128, .f32⟩
  | 54 => ⟨S1000000x1, .f32⟩
  | 55 => ⟨S1000000x128, .f32⟩
  | 56 => ⟨S1000000x128, .f32⟩
  | 57 => ⟨S_, .f32⟩
  | 58 => ⟨S50000x128, .f32⟩
  | 59 => ⟨S1000000x1, .i32⟩
  | 60 => ⟨S50000x128, .f32⟩
  | 61 => ⟨S_, .f32⟩
  | 62 => ⟨S1000000, .f32⟩
  | 63 => ⟨S_, .f32⟩
  | 64 => ⟨S50000, .f32⟩
  | 65 => ⟨S1000000x1, .i32⟩
  | 66 => ⟨S50000, .f32⟩
  | 67 => ⟨S_, .f32⟩
  | 68 => ⟨S50000, .f32⟩
  | 69 => ⟨S50000, .f32⟩
  | 70 => ⟨S50000x1, .f32⟩
  | 71 => ⟨S50000x128, .f32⟩
  | 72 => ⟨S50000x128, .f32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S500000x128, .f32⟩
  | 82 => ⟨S500000x1, .f32⟩
  | 83 => ⟨S500000x128, .f32⟩
  | 84 => ⟨S500000x128, .f32⟩
  | 85 => ⟨S_, .f32⟩
  | 86 => ⟨S2000x128, .f32⟩
  | 87 => ⟨S500000x1, .i32⟩
  | 88 => ⟨S2000x128, .f32⟩
  | 89 => ⟨S_, .f32⟩
  | 90 => ⟨S500000, .f32⟩
  | 91 => ⟨S_, .f32⟩
  | 92 => ⟨S2000, .f32⟩
  | 93 => ⟨S500000x1, .i32⟩
  | 94 => ⟨S2000, .f32⟩
  | 95 => ⟨S_, .f32⟩
  | 96 => ⟨S2000, .f32⟩
  | 97 => ⟨S2000, .f32⟩
  | 98 => ⟨S2000x1, .f32⟩
  | 99 => ⟨S2000x128, .f32⟩
  | 100 => ⟨S2000x128, .f32⟩
  | 101 => ⟨S_, .i32⟩
  | 102 => ⟨S100000, .i32⟩
  | 103 => ⟨S100000, .i1⟩
  | 104 => ⟨S_, .i32⟩
  | 105 => ⟨S100000, .i32⟩
  | 106 => ⟨S100000, .i32⟩
  | 107 => ⟨S100000, .i32⟩
  | 108 => ⟨S100000x1, .i32⟩
  | 109 => ⟨S100000x128, .f32⟩
  | 110 => ⟨S100000x1, .f32⟩
  | 111 => ⟨S100000x128, .f32⟩
  | 112 => ⟨S100000x128, .f32⟩
  | 113 => ⟨S_, .f32⟩
  | 114 => ⟨S2000x128, .f32⟩
  | 115 => ⟨S100000x1, .i32⟩
  | 116 => ⟨S2000x128, .f32⟩
  | 117 => ⟨S_, .f32⟩
  | 118 => ⟨S100000, .f32⟩
  | 119 => ⟨S_, .f32⟩
  | 120 => ⟨S2000, .f32⟩
  | 121 => ⟨S100000x1, .i32⟩
  | 122 => ⟨S2000, .f32⟩
  | 123 => ⟨S_, .f32⟩
  | 124 => ⟨S2000, .f32⟩
  | 125 => ⟨S2000, .f32⟩
  | 126 => ⟨S2000x1, .f32⟩
  | 127 => ⟨S2000x128, .f32⟩
  | _ => ⟨S50000x300, .f32⟩

abbrev hbmTy0_1 (i : Nat) : BufTy := match i % 128 with
  | 0 => ⟨S2000x128, .f32⟩
  | 1 => ⟨S2000x128, .f32⟩
  | 2 => ⟨S_, .i32⟩
  | 3 => ⟨S600000, .i32⟩
  | 4 => ⟨S600000, .i1⟩
  | 5 => ⟨S_, .i32⟩
  | 6 => ⟨S600000, .i32⟩
  | 7 => ⟨S600000, .i32⟩
  | 8 => ⟨S600000, .i32⟩
  | 9 => ⟨S600000x1, .i32⟩
  | 10 => ⟨S600000x128, .f32⟩
  | 11 => ⟨S600000x1, .f32⟩
  | 12 => ⟨S600000x128, .f32⟩
  | 13 => ⟨S600000x128, .f32⟩
  | 14 => ⟨S_, .f32⟩
  | 15 => ⟨S20000x128, .f32⟩
  | 16 => ⟨S600000x1, .i32⟩
  | 17 => ⟨S20000x128, .f32⟩
  | 18 => ⟨S_, .f32⟩
  | 19 => ⟨S600000, .f32⟩
  | 20 => ⟨S_, .f32⟩
  | 21 => ⟨S20000, .f32⟩
  | 22 => ⟨S600000x1, .i32⟩
  | 23 => ⟨S20000, .f32⟩
  | 24 => ⟨S_, .f32⟩
  | 25 => ⟨S20000, .f32⟩
  | 26 => ⟨S20000, .f32⟩
  | 27 => ⟨S20000x1, .f32⟩
  | 28 => ⟨S20000x128, .f32⟩
  | 29 => ⟨S20000x128, .f32⟩
  | 30 => ⟨S_, .i32⟩
  | 31 => ⟨S150000, .i32⟩
  | 32 => ⟨S150000, .i1⟩
  | 33 => ⟨S_, .i32⟩
  | 34 => ⟨S150000, .i32⟩
  | 35 => ⟨S150000, .i32⟩
  | 36 => ⟨S150000, .i32⟩
  | 37 => ⟨S150000x1, .i32⟩
  | 38 => ⟨S150000x128, .f32⟩
  | 39 => ⟨S150000x1, .f32⟩
  | 40 => ⟨S150000x128, .f32⟩
  | 41 => ⟨S150000x128, .f32⟩
  | 42 => ⟨S_, .f32⟩
  | 43 => ⟨S20000x128, .f32⟩
  | 44 => ⟨S150000x1, .i32⟩
  | 45 => ⟨S20000x128, .f32⟩
  | 46 => ⟨S_, .f32⟩
  | 47 => ⟨S150000, .f32⟩
  | 48 => ⟨S_, .f32⟩
  | 49 => ⟨S20000, .f32⟩
  | 50 => ⟨S150000x1, .i32⟩
  | 51 => ⟨S20000, .f32⟩
  | 52 => ⟨S_, .f32⟩
  | 53 => ⟨S20000, .f32⟩
  | 54 => ⟨S20000, .f32⟩
  | 55 => ⟨S20000x1, .f32⟩
  | 56 => ⟨S20000x128, .f32⟩
  | 57 => ⟨S20000x128, .f32⟩
  | 58 => ⟨S20000x128, .f32⟩
  | _ => ⟨S50000x300, .f32⟩

abbrev hbmTy (i : Nat) : BufTy := match i / 128 with
  | 0 => hbmTy0_0 i
  | 1 => hbmTy0_1 i
  | _ => ⟨S50000x300, .f32⟩

abbrev bufTy : (tb : Table) → Fin (tcTables nBuf tb) → BufTy
  | .hbm, ⟨i, _⟩ => hbmTy i
  | .local _ .vmem, ⟨0, _⟩ => ⟨S2000x300, .f32⟩
  | .local _ .vmem, ⟨1, _⟩ => ⟨S2000x300, .f32⟩
  | .local _ .vmem, ⟨2, _⟩ => ⟨S300x384, .f32⟩
  | .local _ .vmem, ⟨3, _⟩ => ⟨S1x384, .f32⟩
  | .local _ .vmem, ⟨4, _⟩ => ⟨S2000x384, .f32⟩
  | .local _ .vmem, ⟨5, _⟩ => ⟨S2000x384, .f32⟩
  | .local _ .vmem, ⟨6, _⟩ => ⟨S2000x128, .f32⟩
  | .local _ .vmem, ⟨7, _⟩ => ⟨S128x256, .f32⟩
  | .local _ .vmem, ⟨8, _⟩ => ⟨S1x256, .f32⟩
  | .local _ .vmem, ⟨9, _⟩ => ⟨S2000x256, .f32⟩
  | _, _ => ⟨S50000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c : Ref sig .tc := ⟨.hbm, 45, rfl⟩
abbrev main_v18 : Ref sig .tc := ⟨.hbm, 46, rfl⟩
abbrev main_v19 : Ref sig .tc := ⟨.hbm, 47, rfl⟩
abbrev main_c_0 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_1 : Ref sig .tc := ⟨.hbm, 61, rfl⟩
abbrev main_v31 : Ref sig .tc := ⟨.hbm, 62, rfl⟩
abbrev main_cst_2 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_3 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_4 : Ref sig .tc := ⟨.hbm, 73, rfl⟩
abbrev main_v40 : Ref sig .tc := ⟨.hbm, 74, rfl⟩
abbrev main_v41 : Ref sig .tc := ⟨.hbm, 75, rfl⟩
abbrev main_c_5 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_6 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_7 : Ref sig .tc := ⟨.hbm, 89, rfl⟩
abbrev main_v53 : Ref sig .tc := ⟨.hbm, 90, rfl⟩
abbrev main_cst_8 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_9 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c_10 : Ref sig .tc := ⟨.hbm, 101, rfl⟩
abbrev main_v62 : Ref sig .tc := ⟨.hbm, 102, rfl⟩
abbrev main_v63 : Ref sig .tc := ⟨.hbm, 103, rfl⟩
abbrev main_c_11 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_12 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_13 : Ref sig .tc := ⟨.hbm, 117, rfl⟩
abbrev main_v75 : Ref sig .tc := ⟨.hbm, 118, rfl⟩
abbrev main_cst_14 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_15 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_c_16 : Ref sig .tc := ⟨.hbm, 130, rfl⟩
abbrev main_v85 : Ref sig .tc := ⟨.hbm, 131, rfl⟩
abbrev main_v86 : Ref sig .tc := ⟨.hbm, 132, rfl⟩
abbrev main_c_17 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_18 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_19 : Ref sig .tc := ⟨.hbm, 146, rfl⟩
abbrev main_v98 : Ref sig .tc := ⟨.hbm, 147, rfl⟩
abbrev main_cst_20 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_21 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_c_22 : Ref sig .tc := ⟨.hbm, 158, rfl⟩
abbrev main_v107 : Ref sig .tc := ⟨.hbm, 159, rfl⟩
abbrev main_v108 : Ref sig .tc := ⟨.hbm, 160, rfl⟩
abbrev main_c_23 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_24 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_cst_25 : Ref sig .tc := ⟨.hbm, 174, rfl⟩
abbrev main_v120 : Ref sig .tc := ⟨.hbm, 175, rfl⟩
abbrev main_cst_26 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_cst_27 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2000x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

class Facts₀ : Prop where
  transposes_S128x300_S300x128_1_0 : S128x300.Transposes [1, 0] S300x128
  concatenates_S300x128_S300x128_S300x128_S300x384_d1 : Shape.Concatenates [S300x128, S300x128, S300x128] S300x384 1
  concatenates_S128_S128_S128_S384_d0 : Shape.Concatenates [S128, S128, S128] S384 0
  transposes_S128x128_S128x128_1_0 : S128x128.Transposes [1, 0] S128x128
  concatenates_S128x128_S128x128_S128x256_d1 : Shape.Concatenates [S128x128, S128x128] S128x256 1
  concatenates_S128_S128_S256_d0 : Shape.Concatenates [S128, S128] S256 0
  shapeCasts_S384_S1x384 : S384.ShapeCasts S1x384
  inb_S2000x300_S2000x300_0_0 : ∀ a, (![0, 0] : Fin 2 → Nat) a + S2000x300.size a ≤ S2000x300.size a
  h_S2000x300 : 0 < S2000x300.numel
  bitsLt_bf16_f32 : FTy.bits .bf16 < FTy.bits .f32
  inb_S300x384_S300x384_0_0 : ∀ a, (![0, 0] : Fin 2 → Nat) a + S300x384.size a ≤ S300x384.size a
  h_S300x384 : 0 < S300x384.numel
  shapeCasts_S300x384_S300x384 : S300x384.ShapeCasts S300x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  slices_S2000x256_S2000x128_0_0 : S2000x256.Slices ![0, 0] S2000x128
  slices_S2000x256_S2000x128_0_128 : S2000x256.Slices ![0, 128] S2000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S2000x128 : S_.BroadcastsInDim S2000x128 (![] : Fin 0 → Fin S2000x128.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x128_0_1 : S150000x1.BroadcastsInDim S150000x128 (![0, 1] : Fin 2 → Fin S150000x128.rank)
  dot_S2000x300_S300x384_S2000x384_1_0_0_1_n_n_wf : DotDims.WF S2000x300 S300x384 S2000x384 [1] [0] [0] [1] [] []
  dot_S2000x128_S128x256_S2000x256_1_0_0_1_n_n_wf : DotDims.WF S2000x128 S128x256 S2000x256 [1] [0] [0] [1] [] []
  gather_S50000x128_S1000000x1_S1000000x128_1_0_n_n_0_1_1128_wf : GatherDims.WF S50000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  gather_S50000x128_S500000x1_S500000x128_1_0_n_n_0_1_1128_wf : GatherDims.WF S50000x128 S500000x1 S500000x128 [1] [0] [] [0] [] 1 ![1, 128]
  scatter_S2000x128_S500000x1_S500000x128_1_0_0_1_wf : ScatterDims.WF S2000x128 S500000x1 S500000x128 [1] [0] [0] 1
  scatter_S2000_S500000x1_S500000_n_0_0_1_wf : ScatterDims.WF S2000 S500000x1 S500000 [] [0] [0] 1
  gather_S2000x128_S100000x1_S100000x128_1_0_n_n_0_1_1128_wf : GatherDims.WF S2000x128 S100000x1 S100000x128 [1] [0] [] [0] [] 1 ![1, 128]
  scatter_S2000x128_S100000x1_S100000x128_1_0_0_1_wf : ScatterDims.WF S2000x128 S100000x1 S100000x128 [1] [0] [0] 1
  scatter_S2000_S100000x1_S100000_n_0_0_1_wf : ScatterDims.WF S2000 S100000x1 S100000 [] [0] [0] 1
  gather_S50000x128_S600000x1_S600000x128_1_0_n_n_0_1_1128_wf : GatherDims.WF S50000x128 S600000x1 S600000x128 [1] [0] [] [0] [] 1 ![1, 128]
  scatter_S20000x128_S600000x1_S600000x128_1_0_0_1_wf : ScatterDims.WF S20000x128 S600000x1 S600000x128 [1] [0] [0] 1
  scatter_S20000_S600000x1_S600000_n_0_0_1_wf : ScatterDims.WF S20000 S600000x1 S600000 [] [0] [0] 1
  gather_S2000x128_S150000x1_S150000x128_1_0_n_n_0_1_1128_wf : GatherDims.WF S2000x128 S150000x1 S150000x128 [1] [0] [] [0] [] 1 ![1, 128]
  scatter_S20000x128_S150000x1_S150000x128_1_0_0_1_wf : ScatterDims.WF S20000x128 S150000x1 S150000x128 [1] [0] [0] 1
  scatter_S20000_S150000x1_S150000_n_0_0_1_wf : ScatterDims.WF S20000 S150000x1 S150000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x300.size a ≤ S50000x300.size a
  hwx0_0 : ∀ i : grid0.Coords, EltTy.bits .f32 = 32 ∨ (Rect.block (s := S50000x300) S2000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x384.size a ≤ S300x384.size a
  hwx0_1 : ∀ i : grid0.Coords, EltTy.bits .f32 = 32 ∨ (Rect.block (s := S300x384) S300x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x384.size a ≤ S50000x384.size a
  hwx0_3 : ∀ i : grid0.Coords, EltTy.bits .f32 = 32 ∨ (Rect.block (s := S50000x384) S2000x384.size (cc0_transform_3 i) (hinb0_3 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S2000x128.size a
  hwx1_0 : ∀ i : grid1.Coords, EltTy.bits .f32 = 32 ∨ (Rect.block (s := S2000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S2000x256.size a
  hwx1_3 : ∀ i : grid1.Coords, EltTy.bits .f32 = 32 ∨ (Rect.block (s := S2000x256) S2000x256.size (cc1_transform_3 i) (hinb1_3 i)).WholeWords (EltTy.packing .f32)

variable [Facts₀]

def dot_S2000x300_S300x384_S2000x384_1_0_0_1_n_n : DotDims S2000x300 S300x384 S2000x384 where
  lhsContracting := [1]
  rhsContracting := [0]
  lhsNonContracting := [0]
  rhsNonContracting := [1]
  lhsBatch := []
  rhsBatch := []
  wf := dot_S2000x300_S300x384_S2000x384_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S2000x128_S500000x1_S500000x128_1_0_0_1 : ScatterDims S2000x128 S500000x1 S500000x128 where
  updateWindowDims := [1]
  insertedWindowDims := [0]
  scatterDimsToOperandDims := [0]
  indexVectorDim := 1
  wf := scatter_S2000x128_S500000x1_S500000x128_1_0_0_1_wf
def scatter_S2000_S500000x1_S500000_n_0_0_1 : ScatterDims S2000 S500000x1 S500000 where
  updateWindowDims := []
  insertedWindowDims := [0]
  scatterDimsToOperandDims := [0]
  indexVectorDim := 1
  wf := scatter_S2000_S500000x1_S500000_n_0_0_1_wf
def gather_S2000x128_S100000x1_S100000x128_1_0_n_n_0_1_1128 : GatherDims S2000x128 S100000x1 S100000x128 where
  offsetDims := [1]
  collapsedSliceDims := [0]
  operandBatchingDims := []
  startIndicesBatchingDims := []
  startIndexMap := [0]
  indexVectorDim := 1
  sliceSizes := ![1, 128]
  wf := gather_S2000x128_S100000x1_S100000x128_1_0_n_n_0_1_1128_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def scatter_S20000_S600000x1_S600000_n_0_0_1 : ScatterDims S20000 S600000x1 S600000 where
  updateWindowDims := []
  insertedWindowDims := [0]
  scatterDimsToOperandDims := [0]
  indexVectorDim := 1
  wf := scatter_S20000_S600000x1_S600000_n_0_0_1_wf
def gather_S2000x128_S150000x1_S150000x128_1_0_n_n_0_1_1128 : GatherDims S2000x128 S150000x1 S150000x128 where
  offsetDims := [1]
  collapsedSliceDims := [0]
  operandBatchingDims := []
  startIndicesBatchingDims := []
  startIndexMap := [0]
  indexVectorDim := 1
  sliceSizes := ![1, 128]
  wf := gather_S2000x128_S150000x1_S150000x128_1_0_n_n_0_1_1128_wf
def scatter_S20000x128_S150000x1_S150000x128_1_0_0_1 : ScatterDims S20000x128 S150000x1 S150000x128 where
  updateWindowDims := [1]
  insertedWindowDims := [0]
  scatterDimsToOperandDims := [0]
  indexVectorDim := 1
  wf := scatter_S20000x128_S150000x1_S150000x128_1_0_0_1_wf
def scatter_S20000_S150000x1_S150000_n_0_0_1 : ScatterDims S20000 S150000x1 S150000 where
  updateWindowDims := []
  insertedWindowDims := [0]
  scatterDimsToOperandDims := [0]
  indexVectorDim := 1
  wf := scatter_S20000_S150000x1_S150000_n_0_0_1_wf

abbrev win0_0 : Pipeline.Window sig grid0 :=
  Pipeline.Window.ofSpec (Memref.whole main_arg0) S2000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S300x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x128.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S2000x256.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x300 : Shape := ⟨2, ![50000, 300]⟩
abbrev S2000x128 : Shape := ⟨2, ![2000, 128]⟩
abbrev S1000000 : Shape := ⟨1, ![1000000]⟩
abbrev S500000 : Shape := ⟨1, ![500000]⟩
abbrev S600000 : Shape := ⟨1, ![600000]⟩
abbrev S150000 : Shape := ⟨1, ![150000]⟩
abbrev S100000 : Shape := ⟨1, ![100000]⟩
abbrev S128x300 : Shape := ⟨2, ![128, 300]⟩
abbrev S128 : Shape := ⟨1, ![128]⟩
abbrev S128x128 : Shape := ⟨2, ![128, 128]⟩
abbrev S300x128 : Shape := ⟨2, ![300, 128]⟩
abbrev S50000x128 : Shape := ⟨2, ![50000, 128]⟩
abbrev S1x128 : Shape := ⟨2, ![1, 128]⟩
abbrev S_ : Shape := ⟨0, ![]⟩
abbrev S1000000x1 : Shape := ⟨2, ![1000000, 1]⟩
abbrev S1000000x128 : Shape := ⟨2, ![1000000, 128]⟩
abbrev S50000 : Shape := ⟨1, ![50000]⟩
abbrev S50000x1 : Shape := ⟨2, ![50000, 1]⟩
abbrev S500000x1 : Shape := ⟨2, ![500000, 1]⟩
abbrev S500000x128 : Shape := ⟨2, ![500000, 128]⟩
abbrev S2000 : Shape := ⟨1, ![2000]⟩
abbrev S2000x1 : Shape := ⟨2, ![2000, 1]⟩
abbrev S100000x1 : Shape := ⟨2, ![100000, 1]⟩
abbrev S100000x128 : Shape := ⟨2, ![100000, 128]⟩
abbrev S600000x1 : Shape := ⟨2, ![600000, 1]⟩
abbrev S600000x128 : Shape := ⟨2, ![600000, 128]⟩
abbrev S20000x128 : Shape := ⟨2, ![20000, 128]⟩
abbrev S20000 : Shape := ⟨1, ![20000]⟩
abbrev S20000x1 : Shape := ⟨2, ![20000, 1]⟩
abbrev S150000x1 : Shape := ⟨2, ![150000, 1]⟩
abbrev S150000x128 : Shape := ⟨2, ![150000, 128]⟩

abbrev nBuf : Space → Nat
  | .hbm => 194
  | .vmem => 0
  | .smem => 0
  | _ => 0

abbrev hbmTy0_0 (i : Nat) : BufTy := match i % 128 with
  | 0 => ⟨S50000x300, .f32⟩
  | 1 => ⟨S2000x128, .f32⟩
  | 2 => ⟨S1000000, .i32⟩
  | 3 => ⟨S1000000, .i32⟩
  | 4 => ⟨S500000, .i32⟩
  | 5 => ⟨S500000, .i32⟩
  | 6 => ⟨S600000, .i32⟩
  | 7 => ⟨S600000, .i32⟩
  | 8 => ⟨S150000, .i32⟩
  | 9 => ⟨S150000, .i32⟩
  | 10 => ⟨S100000, .i32⟩
  | 11 => ⟨S100000, .i32⟩
  | 12 => ⟨S1000000, .f32⟩
  | 13 => ⟨S500000, .f32⟩
  | 14 => ⟨S600000, .f32⟩
  | 15 => ⟨S150000, .f32⟩
  | 16 => ⟨S100000, .f32⟩
  | 17 => ⟨S128x300, .f32⟩
  | 18 => ⟨S128, .f32⟩
  | 19 => ⟨S128x300, .f32⟩
  | 20 => ⟨S128, .f32⟩
  | 21 => ⟨S128x300, .f32⟩
  | 22 => ⟨S128, .f32⟩
  | 23 => ⟨S128x128, .f32⟩
  | 24 => ⟨S128, .f32⟩
  | 25 => ⟨S128x128, .f32⟩
  | 26 => ⟨S128, .f32⟩
  | 27 => ⟨S300x128, .f32⟩
  | 28 => ⟨S50000x128, .f32⟩
  | 29 => ⟨S1x128, .f32⟩
  | 30 => ⟨S50000x128, .f32⟩
  | 31 => ⟨S50000x128, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x128, .f32⟩
  | 41 => ⟨S1000000x1, .f32⟩
  | 42 => ⟨S1000000x128, .f32⟩
  | 43 => ⟨S1000000x128, .f32⟩
  | 44 => ⟨S_, .f32⟩
  | 45 => ⟨S50000x128, .f32⟩
  | 46 => ⟨S1000000x1, .i32⟩
  | 47 => ⟨S50000x128, .f32⟩
  | 48 => ⟨S_, .f32⟩
  | 49 => ⟨S1000000, .f32⟩
  | 50 => ⟨S_, .f32⟩
  | 51 => ⟨S50000, .f32⟩
  | 52 => ⟨S1000000x1, .i32⟩
  | 53 => ⟨S50000, .f32⟩
  | 54 => ⟨S_, .f32⟩
  | 55 => ⟨S50000, .f32⟩
  | 56 => ⟨S50000, .f32⟩
  | 57 => ⟨S50000x1, .f32⟩
  | 58 => ⟨S50000x128, .f32⟩
  | 59 => ⟨S50000x128, .f32⟩
  | 60 => ⟨S300x128, .f32⟩
  | 61 => ⟨S50000x128, .f32⟩
  | 62 => ⟨S1x128, .f32⟩
  | 63 => ⟨S50000x128, .f32⟩
  | 64 => ⟨S50000x128, .f32⟩
  | 65 => ⟨S_, .i32⟩
  | 66 => ⟨S500000, .i32⟩
  | 67 => ⟨S500000, .i1⟩
  | 68 => ⟨S_, .i32⟩
  | 69 => ⟨S500000, .i32⟩
  | 70 => ⟨S500000, .i32⟩
  | 71 => ⟨S500000, .i32⟩
  | 72 => ⟨S500000x1, .i32⟩
  | 73 => ⟨S500000x128, .f32⟩
  | 74 => ⟨S500000x1, .f32⟩
  | 75 => ⟨S500000x128, .f32⟩
  | 76 => ⟨S500000x128, .f32⟩
  | 77 => ⟨S_, .f32⟩
  | 78 => ⟨S2000x128, .f32⟩
  | 79 => ⟨S500000x1, .i32⟩
  | 80 => ⟨S2000x128, .f32⟩
  | 81 => ⟨S_, .f32⟩
  | 82 => ⟨S500000, .f32⟩
  | 83 => ⟨S_, .f32⟩
  | 84 => ⟨S2000, .f32⟩
  | 85 => ⟨S500000x1, .i32⟩
  | 86 => ⟨S2000, .f32⟩
  | 87 => ⟨S_, .f32⟩
  | 88 => ⟨S2000, .f32⟩
  | 89 => ⟨S2000, .f32⟩
  | 90 => ⟨S2000x1, .f32⟩
  | 91 => ⟨S2000x128, .f32⟩
  | 92 => ⟨S2000x128, .f32⟩
  | 93 => ⟨S128x128, .f32⟩
  | 94 => ⟨S2000x128, .f32⟩
  | 95 => ⟨S1x128, .f32⟩
  | 96 => ⟨S2000x128, .f32⟩
  | 97 => ⟨S2000x128, .f32⟩
  | 98 => ⟨S_, .i32⟩
  | 99 => ⟨S100000, .i32⟩
  | 100 => ⟨S100000, .i1⟩
  | 101 => ⟨S_, .i32⟩
  | 102 => ⟨S100000, .i32⟩
  | 103 => ⟨S100000, .i32⟩
  | 104 => ⟨S100000, .i32⟩
  | 105 => ⟨S100000x1, .i32⟩
  | 106 => ⟨S100000x128, .f32⟩
  | 107 => ⟨S100000x1, .f32⟩
  | 108 => ⟨S100000x128, .f32⟩
  | 109 => ⟨S100000x128, .f32⟩
  | 110 => ⟨S_, .f32⟩
  | 111 => ⟨S2000x128, .f32⟩
  | 112 => ⟨S100000x1, .i32⟩
  | 113 => ⟨S2000x128, .f32⟩
  | 114 => ⟨S_, .f32⟩
  | 115 => ⟨S100000, .f32⟩
  | 116 => ⟨S_, .f32⟩
  | 117 => ⟨S2000, .f32⟩
  | 118 => ⟨S100000x1, .i32⟩
  | 119 => ⟨S2000, .f32⟩
  | 120 => ⟨S_, .f32⟩
  | 121 => ⟨S2000, .f32⟩
  | 122 => ⟨S2000, .f32⟩
  | 123 => ⟨S2000x1, .f32⟩
  | 124 => ⟨S2000x128, .f32⟩
  | 125 => ⟨S2000x128, .f32⟩
  | 126 => ⟨S2000x128, .f32⟩
  | 127 => ⟨S300x128, .f32⟩
  | _ => ⟨S50000x300, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .i32⟩
  | 5 => ⟨S600000, .i32⟩
  | 6 => ⟨S600000, .i1⟩
  | 7 => ⟨S_, .i32⟩
  | 8 => ⟨S600000, .i32⟩
  | 9 => ⟨S600000, .i32⟩
  | 10 => ⟨S600000, .i32⟩
  | 11 => ⟨S600000x1, .i32⟩
  | 12 => ⟨S600000x128, .f32⟩
  | 13 => ⟨S600000x1, .f32⟩
  | 14 => ⟨S600000x128, .f32⟩
  | 15 => ⟨S600000x128, .f32⟩
  | 16 => ⟨S_, .f32⟩
  | 17 => ⟨S20000x128, .f32⟩
  | 18 => ⟨S600000x1, .i32⟩
  | 19 => ⟨S20000x128, .f32⟩
  | 20 => ⟨S_, .f32⟩
  | 21 => ⟨S600000, .f32⟩
  | 22 => ⟨S_, .f32⟩
  | 23 => ⟨S20000, .f32⟩
  | 24 => ⟨S600000x1, .i32⟩
  | 25 => ⟨S20000, .f32⟩
  | 26 => ⟨S_, .f32⟩
  | 27 => ⟨S20000, .f32⟩
  | 28 => ⟨S20000, .f32⟩
  | 29 => ⟨S20000x1, .f32⟩
  | 30 => ⟨S20000x128, .f32⟩
  | 31 => ⟨S20000x128, .f32⟩
  | 32 => ⟨S128x128, .f32⟩
  | 33 => ⟨S2000x128, .f32⟩
  | 34 => ⟨S1x128, .f32⟩
  | 35 => ⟨S2000x128, .f32⟩
  | 36 => ⟨S2000x128, .f32⟩
  | 37 => ⟨S_, .i32⟩
  | 38 => ⟨S150000, .i32⟩
  | 39 => ⟨S150000, .i1⟩
  | 40 => ⟨S_, .i32⟩
  | 41 => ⟨S150000, .i32⟩
  | 42 => ⟨S150000, .i32⟩
  | 43 => ⟨S150000, .i32⟩
  | 44 => ⟨S150000x1, .i32⟩
  | 45 => ⟨S150000x128, .f32⟩
  | 46 => ⟨S150000x1, .f32⟩
  | 47 => ⟨S150000x128, .f32⟩
  | 48 => ⟨S150000x128, .f32⟩
  | 49 => ⟨S_, .f32⟩
  | 50 => ⟨S20000x128, .f32⟩
  | 51 => ⟨S150000x1, .i32⟩
  | 52 => ⟨S20000x128, .f32⟩
  | 53 => ⟨S_, .f32⟩
  | 54 => ⟨S150000, .f32⟩
  | 55 => ⟨S_, .f32⟩
  | 56 => ⟨S20000, .f32⟩
  | 57 => ⟨S150000x1, .i32⟩
  | 58 => ⟨S20000, .f32⟩
  | 59 => ⟨S_, .f32⟩
  | 60 => ⟨S20000, .f32⟩
  | 61 => ⟨S20000, .f32⟩
  | 62 => ⟨S20000x1, .f32⟩
  | 63 => ⟨S20000x128, .f32⟩
  | 64 => ⟨S20000x128, .f32⟩
  | 65 => ⟨S20000x128, .f32⟩
  | _ => ⟨S50000x300, .f32⟩

abbrev hbmTy (i : Nat) : BufTy := match i / 128 with
  | 0 => hbmTy0_0 i
  | 1 => hbmTy0_1 i
  | _ => ⟨S50000x300, .f32⟩

abbrev bufTy : (tb : Table) → Fin (tcTables nBuf tb) → BufTy
  | .hbm, ⟨i, _⟩ => hbmTy i
  | _, _ => ⟨S50000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_c : Ref sig .tc := ⟨.hbm, 32, rfl⟩
abbrev main_v5 : Ref sig .tc := ⟨.hbm, 33, rfl⟩
abbrev main_v6 : Ref sig .tc := ⟨.hbm, 34, rfl⟩
abbrev main_c_0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_1 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_4 : Ref sig .tc := ⟨.hbm, 65, rfl⟩
abbrev main_v32 : Ref sig .tc := ⟨.hbm, 66, rfl⟩
abbrev main_v33 : Ref sig .tc := ⟨.hbm, 67, rfl⟩
abbrev main_c_5 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_6 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_7 : Ref sig .tc := ⟨.hbm, 81, rfl⟩
abbrev main_v45 : Ref sig .tc := ⟨.hbm, 82, rfl⟩
abbrev main_cst_8 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_9 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_c_10 : Ref sig .tc := ⟨.hbm, 98, rfl⟩
abbrev main_v59 : Ref sig .tc := ⟨.hbm, 99, rfl⟩
abbrev main_v60 : Ref sig .tc := ⟨.hbm, 100, rfl⟩
abbrev main_c_11 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_12 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_13 : Ref sig .tc := ⟨.hbm, 114, rfl⟩
abbrev main_v72 : Ref sig .tc := ⟨.hbm, 115, rfl⟩
abbrev main_cst_14 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_15 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_16 : Ref sig .tc := ⟨.hbm, 132, rfl⟩
abbrev main_v87 : Ref sig .tc := ⟨.hbm, 133, rfl⟩
abbrev main_v88 : Ref sig .tc := ⟨.hbm, 134, rfl⟩
abbrev main_c_17 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_18 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_19 : Ref sig .tc := ⟨.hbm, 148, rfl⟩
abbrev main_v100 : Ref sig .tc := ⟨.hbm, 149, rfl⟩
abbrev main_cst_20 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_cst_21 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_c_22 : Ref sig .tc := ⟨.hbm, 165, rfl⟩
abbrev main_v114 : Ref sig .tc := ⟨.hbm, 166, rfl⟩
abbrev main_v115 : Ref sig .tc := ⟨.hbm, 167, rfl⟩
abbrev main_c_23 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_24 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_25 : Ref sig .tc := ⟨.hbm, 181, rfl⟩
abbrev main_v127 : Ref sig .tc := ⟨.hbm, 182, rfl⟩
abbrev main_cst_26 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_cst_27 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩

abbrev nD : Nat := 1
abbrev τ : Topo := Topo.v7x

variable {F : FTy → Type} [FloatOps F]

class Facts₀ : Prop where
  transposes_S128x300_S300x128_1_0 : S128x300.Transposes [1, 0] S300x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S2000x128 : S_.BroadcastsInDim S2000x128 (![] : Fin 0 → Fin S2000x128.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  transposes_S128x128_S128x128_1_0 : S128x128.Transposes [1, 0] S128x128
  bcast_S1x128_S2000x128_0_1 : S1x128.BroadcastsInDim S2000x128 (![0, 1] : Fin 2 → Fin S2000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x128_0_1 : S150000x1.BroadcastsInDim S150000x128 (![0, 1] : Fin 2 → Fin S150000x128.rank)
  dot_S50000x300_S300x128_S50000x128_1_0_0_1_n_n_wf : DotDims.WF S50000x300 S300x128 S50000x128 [1] [0] [0] [1] [] []
  gather_S50000x128_S1000000x1_S1000000x128_1_0_n_n_0_1_1128_wf : GatherDims.WF S50000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  gather_S50000x128_S500000x1_S500000x128_1_0_n_n_0_1_1128_wf : GatherDims.WF S50000x128 S500000x1 S500000x128 [1] [0] [] [0] [] 1 ![1, 128]
  scatter_S2000x128_S500000x1_S500000x128_1_0_0_1_wf : ScatterDims.WF S2000x128 S500000x1 S500000x128 [1] [0] [0] 1
  scatter_S2000_S500000x1_S500000_n_0_0_1_wf : ScatterDims.WF S2000 S500000x1 S500000 [] [0] [0] 1
  dot_S2000x128_S128x128_S2000x128_1_0_0_1_n_n_wf : DotDims.WF S2000x128 S128x128 S2000x128 [1] [0] [0] [1] [] []
  gather_S2000x128_S100000x1_S100000x128_1_0_n_n_0_1_1128_wf : GatherDims.WF S2000x128 S100000x1 S100000x128 [1] [0] [] [0] [] 1 ![1, 128]
  scatter_S2000x128_S100000x1_S100000x128_1_0_0_1_wf : ScatterDims.WF S2000x128 S100000x1 S100000x128 [1] [0] [0] 1
  scatter_S2000_S100000x1_S100000_n_0_0_1_wf : ScatterDims.WF S2000 S100000x1 S100000 [] [0] [0] 1
  gather_S50000x128_S600000x1_S600000x128_1_0_n_n_0_1_1128_wf : GatherDims.WF S50000x128 S600000x1 S600000x128 [1] [0] [] [0] [] 1 ![1, 128]
  scatter_S20000x128_S600000x1_S600000x128_1_0_0_1_wf : ScatterDims.WF S20000x128 S600000x1 S600000x128 [1] [0] [0] 1
  scatter_S20000_S600000x1_S600000_n_0_0_1_wf : ScatterDims.WF S20000 S600000x1 S600000 [] [0] [0] 1
  gather_S2000x128_S150000x1_S150000x128_1_0_n_n_0_1_1128_wf : GatherDims.WF S2000x128 S150000x1 S150000x128 [1] [0] [] [0] [] 1 ![1, 128]
  scatter_S20000x128_S150000x1_S150000x128_1_0_0_1_wf : ScatterDims.WF S20000x128 S150000x1 S150000x128 [1] [0] [0] 1
  scatter_S20000_S150000x1_S150000_n_0_0_1_wf : ScatterDims.WF S20000 S150000x1 S150000 [] [0] [0] 1

variable [Facts₀]

def dot_S50000x300_S300x128_S50000x128_1_0_0_1_n_n : DotDims S50000x300 S300x128 S50000x128 where
  lhsContracting := [1]
  rhsContracting := [0]
  lhsNonContracting := [0]
  rhsNonContracting := [1]
  lhsBatch := []
  rhsBatch := []
  wf := dot_S50000x300_S300x128_S50000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S2000x128_S500000x1_S500000x128_1_0_0_1 : ScatterDims S2000x128 S500000x1 S500000x128 where
  updateWindowDims := [1]
  insertedWindowDims := [0]
  scatterDimsToOperandDims := [0]
  indexVectorDim := 1
  wf := scatter_S2000x128_S500000x1_S500000x128_1_0_0_1_wf
def scatter_S2000_S500000x1_S500000_n_0_0_1 : ScatterDims S2000 S500000x1 S500000 where
  updateWindowDims := []
  insertedWindowDims := [0]
  scatterDimsToOperandDims := [0]
  indexVectorDim := 1
  wf := scatter_S2000_S500000x1_S500000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S2000x128_S100000x1_S100000x128_1_0_n_n_0_1_1128 : GatherDims S2000x128 S100000x1 S100000x128 where
  offsetDims := [1]
  collapsedSliceDims := [0]
  operandBatchingDims := []
  startIndicesBatchingDims := []
  startIndexMap := [0]
  indexVectorDim := 1
  sliceSizes := ![1, 128]
  wf := gather_S2000x128_S100000x1_S100000x128_1_0_n_n_0_1_1128_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def scatter_S20000_S600000x1_S600000_n_0_0_1 : ScatterDims S20000 S600000x1 S600000 where
  updateWindowDims := []
  insertedWindowDims := [0]
  scatterDimsToOperandDims := [0]
  indexVectorDim := 1
  wf := scatter_S20000_S600000x1_S600000_n_0_0_1_wf
def gather_S2000x128_S150000x1_S150000x128_1_0_n_n_0_1_1128 : GatherDims S2000x128 S150000x1 S150000x128 where
  offsetDims := [1]
  collapsedSliceDims := [0]
  operandBatchingDims := []
  startIndicesBatchingDims := []
  startIndexMap := [0]
  indexVectorDim := 1
  sliceSizes := ![1, 128]
  wf := gather_S2000x128_S150000x1_S150000x128_1_0_n_n_0_1_1128_wf
def scatter_S20000x128_S150000x1_S150000x128_1_0_0_1 : ScatterDims S20000x128 S150000x1 S150000x128 where
  updateWindowDims := [1]
  insertedWindowDims := [0]
  scatterDimsToOperandDims := [0]
  indexVectorDim := 1
  wf := scatter_S20000x128_S150000x1_S150000x128_1_0_0_1_wf
def scatter_S20000_S150000x1_S150000_n_0_0_1 : ScatterDims S20000 S150000x1 S150000 where
  updateWindowDims := []
  insertedWindowDims := [0]
  scatterDimsToOperandDims := [0]
  indexVectorDim := 1
  wf := scatter_S20000_S150000x1_S150000_n_0_0_1_wf

class Facts : Prop extends Facts₀ where

variable [Facts]
-- ==== Proof.KBody.lean ====
/-
  The two projection kernels of this program, each at the contents `V` its region is entered with.
  Each kernel reads a block of 2000 rows of the feature table, the whole (concatenated, transposed) weight matrix and
  the whole bias row, and writes the block `x0 · x1 + x2` of 2000 rows of the wide projection. Stated here, for any
  float instance: the block each window holds at a grid point, what the body leaves in the output block, the body's
  triple, the pipeline's proof data and the body obligation at every grid point.
-/
import proofs.«168681_j51058571214897_1_alg».proof.Proof.Gen.Kernel.Launch
import proofs.«168681_j51058571214897_1_alg».proof.Proof.Gen.Kernel.Skeleton
import proofs.«168681_j51058571214897_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the projection kernel of pipeline 0, at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not it was fetched there: an
    unfetched window's block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether or not it was fetched there: an
    unfetched window's block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether or not it was fetched there: an
    unfetched window's block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body reads each input block whole and writes the output block whole. -/
abbrev r0_0 : Rect S2000x300 := Rect.unit (s := S2000x300) ![0, 0] S2000x300.size inb_S2000x300_S2000x300_0_0
abbrev r0_1 : Rect S300x384 := Rect.unit (s := S300x384) ![0, 0] S300x384.size inb_S300x384_S300x384_0_0
abbrev r0_2 : Rect S1x384 := Rect.unit (s := S1x384) ![0, 0] S1x384.size inb_S1x384_S1x384_0_0
abbrev r0_3 : Rect S2000x384 := Rect.unit (s := S2000x384) ![0, 0] S2000x384.size inb_S2000x384_S2000x384_0_0

/-- What the body leaves in the output block: its one whole-block store of `x0 · x1 + x2` (rows of `x0` against
    columns of `x1`, the bias row `x2` added to every row). -/
def out0_3 (x0 : Vec F S2000x300 .f32) (x1 : Vec F S300x384 .f32) (x2 : Vec F S1x384 .f32) : Vec F S2000x384 .f32 :=
  View.canon [⟨r0_3, k0_pay1 (View.ld x0 r0_0) (View.ld x1 r0_1) (View.ld x2 r0_2)⟩]

/-- The one store covers the block. -/
theorem cover0_3 (p0 : Vec F S2000x384 .f32) (y : S2000x384.Idx) :
    ∃ pc ∈ ([⟨r0_3, p0⟩] : List (View.Piece (Elt F) S2000x384 .f32)), y ∈ pc.1.set :=
  View.cover_of_tiled [⟨r0_3, p0⟩] S2000x384.size (by rfl) y

set_option maxHeartbeats 1000000 in
/-- The body on whole staging buffers, the inputs at `x0 x1 x2` and the output at anything, ends with the inputs as
    they were and the output at `out0_3 x0 x1 x2`. -/
theorem sound_kernel0 (c : Dev nD) (E : Set ℕ) (i : grid0.Coords) (arg1 : Memref sig .tc .vmem S2000x300 .f32) (harg1 : arg1.IsWhole) (arg2 : Memref sig .tc .vmem S300x384 .f32) (harg2 : arg2.IsWhole) (arg3 : Memref sig .tc .vmem S1x384 .f32) (harg3 : arg3.IsWhole) (arg4 : Memref sig .tc .vmem S2000x384 .f32) (harg4 : arg4.IsWhole)
    (x0 : Vec F S2000x300 .f32) (x1 : Vec F S300x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t`
    each input's buffer still at its block and the output's at `out0_3` of the three input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and the
    core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the projection kernel of pipeline 1, at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not it was fetched there: an
    unfetched window's block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether or not it was fetched there: an
    unfetched window's block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether or not it was fetched there: an
    unfetched window's block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body reads each input block whole and writes the output block whole. -/
abbrev r1_0 : Rect S2000x128 := Rect.unit (s := S2000x128) ![0, 0] S2000x128.size inb_S2000x128_S2000x128_0_0
abbrev r1_1 : Rect S128x256 := Rect.unit (s := S128x256) ![0, 0] S128x256.size inb_S128x256_S128x256_0_0
abbrev r1_2 : Rect S1x256 := Rect.unit (s := S1x256) ![0, 0] S1x256.size inb_S1x256_S1x256_0_0
abbrev r1_3 : Rect S2000x256 := Rect.unit (s := S2000x256) ![0, 0] S2000x256.size inb_S2000x256_S2000x256_0_0

/-- What the body leaves in the output block: its one whole-block store of `x0 · x1 + x2` (rows of `x0` against
    columns of `x1`, the bias row `x2` added to every row). -/
def out1_3 (x0 : Vec F S2000x128 .f32) (x1 : Vec F S128x256 .f32) (x2 : Vec F S1x256 .f32) : Vec F S2000x256 .f32 :=
  View.canon [⟨r1_3, k1_pay1 (View.ld x0 r1_0) (View.ld x1 r1_1) (View.ld x2 r1_2)⟩]

/-- The one store covers the block. -/
theorem cover1_3 (p0 : Vec F S2000x256 .f32) (y : S2000x256.Idx) :
    ∃ pc ∈ ([⟨r1_3, p0⟩] : List (View.Piece (Elt F) S2000x256 .f32)), y ∈ pc.1.set :=
  View.cover_of_tiled [⟨r1_3, p0⟩] S2000x256.size (by rfl) y

set_option maxHeartbeats 1000000 in
/-- The body on whole staging buffers, the inputs at `x0 x1 x2` and the output at anything, ends with the inputs as
    they were and the output at `out1_3 x0 x1 x2`. -/
theorem sound_kernel1 (c : Dev nD) (E : Set ℕ) (i : grid1.Coords) (arg1 : Memref sig .tc .vmem S2000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S2000x256 .f32) (harg4 : arg4.IsWhole)
    (x0 : Vec F S2000x128 .f32) (x1 : Vec F S128x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t`
    each input's buffer still at its block and the output's at `out1_3` of the three input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and the
    core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The run of @main from the launch to the return: ten host operations (the transposed weight matrices concatenated,
  the bias vectors concatenated and laid out as a row), the word-table projection kernel on a grid of 25 row blocks,
  one host operation, the topic-table projection kernel on one block, and 147 host operations (the slices, gathers,
  edge-weight products, segment sums and divisions).  The contents of every buffer at each of the six boundaries are a
  fold from the launch memory: a stretch of host operations applies them in order; a kernel region replaces its
  windows' arrays by what its write-backs leave and keeps every other buffer.  Stated for any float instance: every
  weakly fair execution terminates, nothing faults, and every unscoped buffer ends at the last fold; no argument array
  is written by any host operation or output window, so each ends as launched.
-/
import proofs.«168681_j51058571214897_1_alg».proof.Proof.KBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first ten host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its windows' arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the one host operation between the regions (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last 147 host operations (the return). -/
abbrev W5 : Dev nD → Valuation τ sig (Elt F) := fun c => StableHlo.after hostOps2 (W4 m ρ c)

/-! ## What the host stretches write: each operation its own result buffer -/

abbrev hostOps0_W : List (Ref sig .tc) := [main_v0, main_v1, main_v2, main_v3, main_v4, main_v5, main_v6, main_v7, main_v8, main_v9]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
abbrev hostOps1_W : List (Ref sig .tc) := [main_v11]
theorem hostOps1_writes : (hostOps1 : List (HloOp τ sig (Elt F))).Forall fun op => op.writes ⊆ (hostOps1_W.map (Proc.devRef (τ := τ) .tc)).toFinset := by
  simp only [List.Forall, StableHlo.reshape_writes, Finset.singleton_subset_iff, List.mem_toFinset]; exact List.mem_map_of_mem (by decide)
abbrev hostOps2_W : List (Ref sig .tc) := [main_v13, main_v14, main_v15, main_v16, main_v17, main_c, main_v18, main_v19, main_c_0, main_v20, main_v21, main_v22, main_v23, main_v24, main_v25, main_v26, main_v27, main_cst, main_v28, main_v29, main_v30, main_cst_1, main_v31, main_cst_2, main_v32, main_v33, main_v34, main_cst_3, main_v35, main_v36, main_v37, main_v38, main_v39, main_c_4, main_v40, main_v41, main_c_5, main_v42, main_v43, main_v44, main_v45, main_v46, main_v47, main_v48, main_v49, main_cst_6, main_v50, main_v51, main_v52, main_cst_7, main_v53, main_cst_8, main_v54, main_v55, main_v56, main_cst_9, main_v57, main_v58, main_v59, main_v60, main_v61, main_c_10, main_v62, main_v63, main_c_11, main_v64, main_v65, main_v66, main_v67, main_v68, main_v69, main_v70, main_v71, main_cst_12, main_v72, main_v73, main_v74, main_cst_13, main_v75, main_cst_14, main_v76, main_v77, main_v78, main_cst_15, main_v79, main_v80, main_v81, main_v82, main_v83, main_v84, main_c_16, main_v85, main_v86, main_c_17, main_v87, main_v88, main_v89, main_v90, main_v91, main_v92, main_v93, main_v94, main_cst_18, main_v95, main_v96, main_v97, main_cst_19, main_v98, main_cst_20, main_v99, main_v100, main_v101, main_cst_21, main_v102, main_v103, main_v104, main_v105, main_v106, main_c_22, main_v107, main_v108, main_c_23, main_v109, main_v110, main_v111, main_v112, main_v113, main_v114, main_v115, main_v116, main_cst_24, main_v117, main_v118, main_v119, main_cst_25, main_v120, main_cst_26, main_v121, main_v122, main_v123, main_cst_27, main_v124, main_v125, main_v126, main_v127, main_v128, main_v129]
set_option maxHeartbeats 4000000 in
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-! ## The argument arrays end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W5_main_arg0 (c : Dev nD) : W5 m ρ c (Proc.devRef .tc main_arg0) = m ((c : Thread nD τ).loc main_arg0) :=
  (StableHlo.after_of_writes_sub hostOps2 _ hostOps2_writes (by decide)).trans (W4_main_arg0 m ρ c)
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg1 (c : Dev nD) : W5 m ρ c (Proc.devRef .tc main_arg1) = m ((c : Thread nD τ).loc main_arg1) :=
  (StableHlo.after_of_writes_sub hostOps2 _ hostOps2_writes (by decide)).trans (W4_main_arg1 m ρ c)
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg2 (c : Dev nD) : W5 m ρ c (Proc.devRef .tc main_arg2) = m ((c : Thread nD τ).loc main_arg2) :=
  (StableHlo.after_of_writes_sub hostOps2 _ hostOps2_writes (by decide)).trans (W4_main_arg2 m ρ c)
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W5_main_arg3 (c : Dev nD) : W5 m ρ c (Proc.devRef .tc main_arg3) = m ((c : Thread nD τ).loc main_arg3) :=
  (StableHlo.after_of_writes_sub hostOps2 _ hostOps2_writes (by decide)).trans (W4_main_arg3 m ρ c)
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg4 (c : Dev nD) : W5 m ρ c (Proc.devRef .tc main_arg4) = m ((c : Thread nD τ).loc main_arg4) :=
  (StableHlo.after_of_writes_sub hostOps2 _ hostOps2_writes (by decide)).trans (W4_main_arg4 m ρ c)
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W5_main_arg5 (c : Dev nD) : W5 m ρ c (Proc.devRef .tc main_arg5) = m ((c : Thread nD τ).loc main_arg5) :=
  (StableHlo.after_of_writes_sub hostOps2 _ hostOps2_writes (by decide)).trans (W4_main_arg5 m ρ c)
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W5_main_arg6 (c : Dev nD) : W5 m ρ c (Proc.devRef .tc main_arg6) = m ((c : Thread nD τ).loc main_arg6) :=
  (StableHlo.after_of_writes_sub hostOps2 _ hostOps2_writes (by decide)).trans (W4_main_arg6 m ρ c)
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W5_main_arg7 (c : Dev nD) : W5 m ρ c (Proc.devRef .tc main_arg7) = m ((c : Thread nD τ).loc main_arg7) :=
  (StableHlo.after_of_writes_sub hostOps2 _ hostOps2_writes (by decide)).trans (W4_main_arg7 m ρ c)
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W5_main_arg8 (c : Dev nD) : W5 m ρ c (Proc.devRef .tc main_arg8) = m ((c : Thread nD τ).loc main_arg8) :=
  (StableHlo.after_of_writes_sub hostOps2 _ hostOps2_writes (by decide)).trans (W4_main_arg8 m ρ c)
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W5_main_arg9 (c : Dev nD) : W5 m ρ c (Proc.devRef .tc main_arg9) = m ((c : Thread nD τ).loc main_arg9) :=
  (StableHlo.after_of_writes_sub hostOps2 _ hostOps2_writes (by decide)).trans (W4_main_arg9 m ρ c)
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W5_main_arg10 (c : Dev nD) : W5 m ρ c (Proc.devRef .tc main_arg10) = m ((c : Thread nD τ).loc main_arg10) :=
  (StableHlo.after_of_writes_sub hostOps2 _ hostOps2_writes (by decide)).trans (W4_main_arg10 m ρ c)
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W5_main_arg11 (c : Dev nD) : W5 m ρ c (Proc.devRef .tc main_arg11) = m ((c : Thread nD τ).loc main_arg11) :=
  (StableHlo.after_of_writes_sub hostOps2 _ hostOps2_writes (by decide)).trans (W4_main_arg11 m ρ c)
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl
theorem W5_main_arg12 (c : Dev nD) : W5 m ρ c (Proc.devRef .tc main_arg12) = m ((c : Thread nD τ).loc main_arg12) :=
  (StableHlo.after_of_writes_sub hostOps2 _ hostOps2_writes (by decide)).trans (W4_main_arg12 m ρ c)
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl
theorem W5_main_arg13 (c : Dev nD) : W5 m ρ c (Proc.devRef .tc main_arg13) = m ((c : Thread nD τ).loc main_arg13) :=
  (StableHlo.after_of_writes_sub hostOps2 _ hostOps2_writes (by decide)).trans (W4_main_arg13 m ρ c)
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl
theorem W5_main_arg14 (c : Dev nD) : W5 m ρ c (Proc.devRef .tc main_arg14) = m ((c : Thread nD τ).loc main_arg14) :=
  (StableHlo.after_of_writes_sub hostOps2 _ hostOps2_writes (by decide)).trans (W4_main_arg14 m ρ c)
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl
theorem W5_main_arg15 (c : Dev nD) : W5 m ρ c (Proc.devRef .tc main_arg15) = m ((c : Thread nD τ).loc main_arg15) :=
  (StableHlo.after_of_writes_sub hostOps2 _ hostOps2_writes (by decide)).trans (W4_main_arg15 m ρ c)
theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := StableHlo.after_of_writes_sub hostOps1 _ hostOps1_writes (by decide)
    _ = W1 m ρ c (Proc.devRef .tc main_arg16) := W2_of_ne m ρ c main_arg16 (by decide)
    _ = W0 m ρ c (Proc.devRef .tc main_arg16) := StableHlo.after_of_writes_sub hostOps0 _ hostOps0_writes (by decide)
    _ = m ((c : Thread nD τ).loc main_arg16) := rfl
theorem W5_main_arg16 (c : Dev nD) : W5 m ρ c (Proc.devRef .tc main_arg16) = m ((c : Thread nD τ).loc main_arg16) :=
  (StableHlo.after_of_writes_sub hostOps2 _ hostOps2_writes (by decide)).trans (W4_main_arg16 m ρ c)
theorem W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := StableHlo.after_of_writes_sub hostOps1 _ hostOps1_writes (by decide)
    _ = W1 m ρ c (Proc.devRef .tc main_arg17) := W2_of_ne m ρ c main_arg17 (by decide)
    _ = W0 m ρ c (Proc.devRef .tc main_arg17) := StableHlo.after_of_writes_sub hostOps0 _ hostOps0_writes (by decide)
    _ = m ((c : Thread nD τ).loc main_arg17) := rfl
theorem W5_main_arg17 (c : Dev nD) : W5 m ρ c (Proc.devRef .tc main_arg17) = m ((c : Thread nD τ).loc main_arg17) :=
  (StableHlo.after_of_writes_sub hostOps2 _ hostOps2_writes (by decide)).trans (W4_main_arg17 m ρ c)
theorem W4_main_arg18 (c : Dev nD) : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := StableHlo.after_of_writes_sub hostOps1 _ hostOps1_writes (by decide)
    _ = W1 m ρ c (Proc.devRef .tc main_arg18) := W2_of_ne m ρ c main_arg18 (by decide)
    _ = W0 m ρ c (Proc.devRef .tc main_arg18) := StableHlo.after_of_writes_sub hostOps0 _ hostOps0_writes (by decide)
    _ = m ((c : Thread nD τ).loc main_arg18) := rfl
theorem W5_main_arg18 (c : Dev nD) : W5 m ρ c (Proc.devRef .tc main_arg18) = m ((c : Thread nD τ).loc main_arg18) :=
  (StableHlo.after_of_writes_sub hostOps2 _ hostOps2_writes (by decide)).trans (W4_main_arg18 m ρ c)
theorem W4_main_arg19 (c : Dev nD) : W4 m ρ c (Proc.devRef .tc main_arg19) = m ((c : Thread nD τ).loc main_arg19) :=
  calc W4 m ρ c (Proc.devRef .tc main_arg19)
    _ = W3 m ρ c (Proc.devRef .tc main_arg19) := W4_of_ne m ρ c main_arg19 (by decide)
    _ = W2 m ρ c (Proc.devRef .tc main_arg19) := StableHlo.after_of_writes_sub hostOps1 _ hostOps1_writes (by decide)
    _ = W1 m ρ c (Proc.devRef .tc main_arg19) := W2_of_ne m ρ c main_arg19 (by decide)
    _ = W0 m ρ c (Proc.devRef .tc main_arg19) := StableHlo.after_of_writes_sub hostOps0 _ hostOps0_writes (by decide)
    _ = m ((c : Thread nD τ).loc main_arg19) := rfl
theorem W5_main_arg19 (c : Dev nD) : W5 m ρ c (Proc.devRef .tc main_arg19) = m ((c : Thread nD τ).loc main_arg19) :=
  (StableHlo.after_of_writes_sub hostOps2 _ hostOps2_writes (by decide)).trans (W4_main_arg19 m ρ c)
theorem W4_main_arg20 (c : Dev nD) : W4 m ρ c (Proc.devRef .tc main_arg20) = m ((c : Thread nD τ).loc main_arg20) :=
  calc W4 m ρ c (Proc.devRef .tc main_arg20)
    _ = W3 m ρ c (Proc.devRef .tc main_arg20) := W4_of_ne m ρ c main_arg20 (by decide)
    _ = W2 m ρ c (Proc.devRef .tc main_arg20) := StableHlo.after_of_writes_sub hostOps1 _ hostOps1_writes (by decide)
    _ = W1 m ρ c (Proc.devRef .tc main_arg20) := W2_of_ne m ρ c main_arg20 (by decide)
    _ = W0 m ρ c (Proc.devRef .tc main_arg20) := StableHlo.after_of_writes_sub hostOps0 _ hostOps0_writes (by decide)
    _ = m ((c : Thread nD τ).loc main_arg20) := rfl
theorem W5_main_arg20 (c : Dev nD) : W5 m ρ c (Proc.devRef .tc main_arg20) = m ((c : Thread nD τ).loc main_arg20) :=
  (StableHlo.after_of_writes_sub hostOps2 _ hostOps2_writes (by decide)).trans (W4_main_arg20 m ρ c)
theorem W4_main_arg21 (c : Dev nD) : W4 m ρ c (Proc.devRef .tc main_arg21) = m ((c : Thread nD τ).loc main_arg21) :=
  calc W4 m ρ c (Proc.devRef .tc main_arg21)
    _ = W3 m ρ c (Proc.devRef .tc main_arg21) := W4_of_ne m ρ c main_arg21 (by decide)
    _ = W2 m ρ c (Proc.devRef .tc main_arg21) := StableHlo.after_of_writes_sub hostOps1 _ hostOps1_writes (by decide)
    _ = W1 m ρ c (Proc.devRef .tc main_arg21) := W2_of_ne m ρ c main_arg21 (by decide)
    _ = W0 m ρ c (Proc.devRef .tc main_arg21) := StableHlo.after_of_writes_sub hostOps0 _ hostOps0_writes (by decide)
    _ = m ((c : Thread nD τ).loc main_arg21) := rfl
theorem W5_main_arg21 (c : Dev nD) : W5 m ρ c (Proc.devRef .tc main_arg21) = m ((c : Thread nD τ).loc main_arg21) :=
  (StableHlo.after_of_writes_sub hostOps2 _ hostOps2_writes (by decide)).trans (W4_main_arg21 m ρ c)
theorem W4_main_arg22 (c : Dev nD) : W4 m ρ c (Proc.devRef .tc main_arg22) = m ((c : Thread nD τ).loc main_arg22) :=
  calc W4 m ρ c (Proc.devRef .tc main_arg22)
    _ = W3 m ρ c (Proc.devRef .tc main_arg22) := W4_of_ne m ρ c main_arg22 (by decide)
    _ = W2 m ρ c (Proc.devRef .tc main_arg22) := StableHlo.after_of_writes_sub hostOps1 _ hostOps1_writes (by decide)
    _ = W1 m ρ c (Proc.devRef .tc main_arg22) := W2_of_ne m ρ c main_arg22 (by decide)
    _ = W0 m ρ c (Proc.devRef .tc main_arg22) := StableHlo.after_of_writes_sub hostOps0 _ hostOps0_writes (by decide)
    _ = m ((c : Thread nD τ).loc main_arg22) := rfl
theorem W5_main_arg22 (c : Dev nD) : W5 m ρ c (Proc.devRef .tc main_arg22) = m ((c : Thread nD τ).loc main_arg22) :=
  (StableHlo.after_of_writes_sub hostOps2 _ hostOps2_writes (by decide)).trans (W4_main_arg22 m ρ c)
theorem W4_main_arg23 (c : Dev nD) : W4 m ρ c (Proc.devRef .tc main_arg23) = m ((c : Thread nD τ).loc main_arg23) :=
  calc W4 m ρ c (Proc.devRef .tc main_arg23)
    _ = W3 m ρ c (Proc.devRef .tc main_arg23) := W4_of_ne m ρ c main_arg23 (by decide)
    _ = W2 m ρ c (Proc.devRef .tc main_arg23) := StableHlo.after_of_writes_sub hostOps1 _ hostOps1_writes (by decide)
    _ = W1 m ρ c (Proc.devRef .tc main_arg23) := W2_of_ne m ρ c main_arg23 (by decide)
    _ = W0 m ρ c (Proc.devRef .tc main_arg23) := StableHlo.after_of_writes_sub hostOps0 _ hostOps0_writes (by decide)
    _ = m ((c : Thread nD τ).loc main_arg23) := rfl
theorem W5_main_arg23 (c : Dev nD) : W5 m ρ c (Proc.devRef .tc main_arg23) = m ((c : Thread nD τ).loc main_arg23) :=
  (StableHlo.after_of_writes_sub hostOps2 _ hostOps2_writes (by decide)).trans (W4_main_arg23 m ρ c)
theorem W4_main_arg24 (c : Dev nD) : W4 m ρ c (Proc.devRef .tc main_arg24) = m ((c : Thread nD τ).loc main_arg24) :=
  calc W4 m ρ c (Proc.devRef .tc main_arg24)
    _ = W3 m ρ c (Proc.devRef .tc main_arg24) := W4_of_ne m ρ c main_arg24 (by decide)
    _ = W2 m ρ c (Proc.devRef .tc main_arg24) := StableHlo.after_of_writes_sub hostOps1 _ hostOps1_writes (by decide)
    _ = W1 m ρ c (Proc.devRef .tc main_arg24) := W2_of_ne m ρ c main_arg24 (by decide)
    _ = W0 m ρ c (Proc.devRef .tc main_arg24) := StableHlo.after_of_writes_sub hostOps0 _ hostOps0_writes (by decide)
    _ = m ((c : Thread nD τ).loc main_arg24) := rfl
theorem W5_main_arg24 (c : Dev nD) : W5 m ρ c (Proc.devRef .tc main_arg24) = m ((c : Thread nD τ).loc main_arg24) :=
  (StableHlo.after_of_writes_sub hostOps2 _ hostOps2_writes (by decide)).trans (W4_main_arg24 m ρ c)
theorem W4_main_arg25 (c : Dev nD) : W4 m ρ c (Proc.devRef .tc main_arg25) = m ((c : Thread nD τ).loc main_arg25) :=
  calc W4 m ρ c (Proc.devRef .tc main_arg25)
    _ = W3 m ρ c (Proc.devRef .tc main_arg25) := W4_of_ne m ρ c main_arg25 (by decide)
    _ = W2 m ρ c (Proc.devRef .tc main_arg25) := StableHlo.after_of_writes_sub hostOps1 _ hostOps1_writes (by decide)
    _ = W1 m ρ c (Proc.devRef .tc main_arg25) := W2_of_ne m ρ c main_arg25 (by decide)
    _ = W0 m ρ c (Proc.devRef .tc main_arg25) := StableHlo.after_of_writes_sub hostOps0 _ hostOps0_writes (by decide)
    _ = m ((c : Thread nD τ).loc main_arg25) := rfl
theorem W5_main_arg25 (c : Dev nD) : W5 m ρ c (Proc.devRef .tc main_arg25) = m ((c : Thread nD τ).loc main_arg25) :=
  (StableHlo.after_of_writes_sub hostOps2 _ hostOps2_writes (by decide)).trans (W4_main_arg25 m ρ c)
theorem W4_main_arg26 (c : Dev nD) : W4 m ρ c (Proc.devRef .tc main_arg26) = m ((c : Thread nD τ).loc main_arg26) :=
  calc W4 m ρ c (Proc.devRef .tc main_arg26)
    _ = W3 m ρ c (Proc.devRef .tc main_arg26) := W4_of_ne m ρ c main_arg26 (by decide)
    _ = W2 m ρ c (Proc.devRef .tc main_arg26) := StableHlo.after_of_writes_sub hostOps1 _ hostOps1_writes (by decide)
    _ = W1 m ρ c (Proc.devRef .tc main_arg26) := W2_of_ne m ρ c main_arg26 (by decide)
    _ = W0 m ρ c (Proc.devRef .tc main_arg26) := StableHlo.after_of_writes_sub hostOps0 _ hostOps0_writes (by decide)
    _ = m ((c : Thread nD τ).loc main_arg26) := rfl
theorem W5_main_arg26 (c : Dev nD) : W5 m ρ c (Proc.devRef .tc main_arg26) = m ((c : Thread nD τ).loc main_arg26) :=
  (StableHlo.after_of_writes_sub hostOps2 _ hostOps2_writes (by decide)).trans (W4_main_arg26 m ρ c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
set_option maxHeartbeats 4000000 in
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last fold, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered with every unscoped buffer at `W1`, left with them at `W2`. Its windows'
    arrays are split out of the unscoped buffers at entry and put back at the exit contents; the generator register goes
    into the kernel's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its windows'
    arrays are split out of the unscoped buffers at entry and put back at the exit contents; the generator register goes
    into the kernel's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

set_option maxHeartbeats 4000000 in
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer of every core ends at the last fold `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c),
    (h c _ (mem_uc main_arg12 (by decide))).trans (W5_main_arg12 m ρ c),
    (h c _ (mem_uc main_arg13 (by decide))).trans (W5_main_arg13 m ρ c),
    (h c _ (mem_uc main_arg14 (by decide))).trans (W5_main_arg14 m ρ c),
    (h c _ (mem_uc main_arg15 (by decide))).trans (W5_main_arg15 m ρ c),
    (h c _ (mem_uc main_arg16 (by decide))).trans (W5_main_arg16 m ρ c),
    (h c _ (mem_uc main_arg17 (by decide))).trans (W5_main_arg17 m ρ c),
    (h c _ (mem_uc main_arg18 (by decide))).trans (W5_main_arg18 m ρ c),
    (h c _ (mem_uc main_arg19 (by decide))).trans (W5_main_arg19 m ρ c),
    (h c _ (mem_uc main_arg20 (by decide))).trans (W5_main_arg20 m ρ c),
    (h c _ (mem_uc main_arg21 (by decide))).trans (W5_main_arg21 m ρ c),
    (h c _ (mem_uc main_arg22 (by decide))).trans (W5_main_arg22 m ρ c),
    (h c _ (mem_uc main_arg23 (by decide))).trans (W5_main_arg23 m ρ c),
    (h c _ (mem_uc main_arg24 (by decide))).trans (W5_main_arg24 m ρ c),
    (h c _ (mem_uc main_arg25 (by decide))).trans (W5_main_arg25 m ρ c),
    (h c _ (mem_uc main_arg26 (by decide))).trans (W5_main_arg26 m ρ c)⟩) (run_main m ρ)

end Cert.Kernel.Hand

end
-- ==== Proof.KIBody.lean ====
/-
  The two projection kernels of this program, each at the contents `V` its region is entered with.
  Each kernel reads a block of 2000 rows of the feature table, the whole (concatenated, transposed) weight matrix and
  the whole bias row, and writes the block `x0 · x1 + x2` of 2000 rows of the wide projection. Stated here, for any
  float instance: the block each window holds at a grid point, what the body leaves in the output block, the body's
  triple, the pipeline's proof data and the body obligation at every grid point.
-/
import proofs.«168681_j51058571214897_1_alg».proof.Proof.Gen.KernelIdeal.Launch
import proofs.«168681_j51058571214897_1_alg».proof.Proof.Gen.KernelIdeal.Skeleton
import proofs.«168681_j51058571214897_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the projection kernel of pipeline 0, at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not it was fetched there: an
    unfetched window's block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether or not it was fetched there: an
    unfetched window's block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether or not it was fetched there: an
    unfetched window's block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body reads each input block whole and writes the output block whole. -/
abbrev r0_0 : Rect S2000x300 := Rect.unit (s := S2000x300) ![0, 0] S2000x300.size inb_S2000x300_S2000x300_0_0
abbrev r0_1 : Rect S300x384 := Rect.unit (s := S300x384) ![0, 0] S300x384.size inb_S300x384_S300x384_0_0
abbrev r0_2 : Rect S1x384 := Rect.unit (s := S1x384) ![0, 0] S1x384.size inb_S1x384_S1x384_0_0
abbrev r0_3 : Rect S2000x384 := Rect.unit (s := S2000x384) ![0, 0] S2000x384.size inb_S2000x384_S2000x384_0_0

/-- What the body leaves in the output block: its one whole-block store of `x0 · x1 + x2` (rows of `x0` against
    columns of `x1`, the bias row `x2` added to every row). -/
def out0_3 (x0 : Vec F S2000x300 .f32) (x1 : Vec F S300x384 .f32) (x2 : Vec F S1x384 .f32) : Vec F S2000x384 .f32 :=
  View.canon [⟨r0_3, k0_pay1 (View.ld x0 r0_0) (View.ld x1 r0_1) (View.ld x2 r0_2)⟩]

/-- The one store covers the block. -/
theorem cover0_3 (p0 : Vec F S2000x384 .f32) (y : S2000x384.Idx) :
    ∃ pc ∈ ([⟨r0_3, p0⟩] : List (View.Piece (Elt F) S2000x384 .f32)), y ∈ pc.1.set :=
  View.cover_of_tiled [⟨r0_3, p0⟩] S2000x384.size (by rfl) y

set_option maxHeartbeats 1000000 in
/-- The body on whole staging buffers, the inputs at `x0 x1 x2` and the output at anything, ends with the inputs as
    they were and the output at `out0_3 x0 x1 x2`. -/
theorem sound_kernel0 (c : Dev nD) (E : Set ℕ) (i : grid0.Coords) (arg1 : Memref sig .tc .vmem S2000x300 .f32) (harg1 : arg1.IsWhole) (arg2 : Memref sig .tc .vmem S300x384 .f32) (harg2 : arg2.IsWhole) (arg3 : Memref sig .tc .vmem S1x384 .f32) (harg3 : arg3.IsWhole) (arg4 : Memref sig .tc .vmem S2000x384 .f32) (harg4 : arg4.IsWhole)
    (x0 : Vec F S2000x300 .f32) (x1 : Vec F S300x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t`
    each input's buffer still at its block and the output's at `out0_3` of the three input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and the
    core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the projection kernel of pipeline 1, at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not it was fetched there: an
    unfetched window's block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether or not it was fetched there: an
    unfetched window's block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether or not it was fetched there: an
    unfetched window's block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body reads each input block whole and writes the output block whole. -/
abbrev r1_0 : Rect S2000x128 := Rect.unit (s := S2000x128) ![0, 0] S2000x128.size inb_S2000x128_S2000x128_0_0
abbrev r1_1 : Rect S128x256 := Rect.unit (s := S128x256) ![0, 0] S128x256.size inb_S128x256_S128x256_0_0
abbrev r1_2 : Rect S1x256 := Rect.unit (s := S1x256) ![0, 0] S1x256.size inb_S1x256_S1x256_0_0
abbrev r1_3 : Rect S2000x256 := Rect.unit (s := S2000x256) ![0, 0] S2000x256.size inb_S2000x256_S2000x256_0_0

/-- What the body leaves in the output block: its one whole-block store of `x0 · x1 + x2` (rows of `x0` against
    columns of `x1`, the bias row `x2` added to every row). -/
def out1_3 (x0 : Vec F S2000x128 .f32) (x1 : Vec F S128x256 .f32) (x2 : Vec F S1x256 .f32) : Vec F S2000x256 .f32 :=
  View.canon [⟨r1_3, k1_pay1 (View.ld x0 r1_0) (View.ld x1 r1_1) (View.ld x2 r1_2)⟩]

/-- The one store covers the block. -/
theorem cover1_3 (p0 : Vec F S2000x256 .f32) (y : S2000x256.Idx) :
    ∃ pc ∈ ([⟨r1_3, p0⟩] : List (View.Piece (Elt F) S2000x256 .f32)), y ∈ pc.1.set :=
  View.cover_of_tiled [⟨r1_3, p0⟩] S2000x256.size (by rfl) y

set_option maxHeartbeats 1000000 in
/-- The body on whole staging buffers, the inputs at `x0 x1 x2` and the output at anything, ends with the inputs as
    they were and the output at `out1_3 x0 x1 x2`. -/
theorem sound_kernel1 (c : Dev nD) (E : Set ℕ) (i : grid1.Coords) (arg1 : Memref sig .tc .vmem S2000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S2000x256 .f32) (harg4 : arg4.IsWhole)
    (x0 : Vec F S2000x128 .f32) (x1 : Vec F S128x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t`
    each input's buffer still at its block and the output's at `out1_3` of the three input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and the
    core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The run of @main from the launch to the return: ten host operations (the transposed weight matrices concatenated,
  the bias vectors concatenated and laid out as a row), the word-table projection kernel on a grid of 25 row blocks,
  one host operation, the topic-table projection kernel on one block, and 147 host operations (the slices, gathers,
  edge-weight products, segment sums and divisions).  The contents of every buffer at each of the six boundaries are a
  fold from the launch memory: a stretch of host operations applies them in order; a kernel region replaces its
  windows' arrays by what its write-backs leave and keeps every other buffer.  Stated for any float instance: every
  weakly fair execution terminates, nothing faults, and every unscoped buffer ends at the last fold; no argument array
  is written by any host operation or output window, so each ends as launched.
-/
import proofs.«168681_j51058571214897_1_alg».proof.Proof.KIBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first ten host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its windows' arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the one host operation between the regions (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last 147 host operations (the return). -/
abbrev W5 : Dev nD → Valuation τ sig (Elt F) := fun c => StableHlo.after hostOps2 (W4 m ρ c)

/-! ## What the host stretches write: each operation its own result buffer -/

abbrev hostOps0_W : List (Ref sig .tc) := [main_v0, main_v1, main_v2, main_v3, main_v4, main_v5, main_v6, main_v7, main_v8, main_v9]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
abbrev hostOps1_W : List (Ref sig .tc) := [main_v11]
theorem hostOps1_writes : (hostOps1 : List (HloOp τ sig (Elt F))).Forall fun op => op.writes ⊆ (hostOps1_W.map (Proc.devRef (τ := τ) .tc)).toFinset := by
  simp only [List.Forall, StableHlo.reshape_writes, Finset.singleton_subset_iff, List.mem_toFinset]; exact List.mem_map_of_mem (by decide)
abbrev hostOps2_W : List (Ref sig .tc) := [main_v13, main_v14, main_v15, main_v16, main_v17, main_c, main_v18, main_v19, main_c_0, main_v20, main_v21, main_v22, main_v23, main_v24, main_v25, main_v26, main_v27, main_cst, main_v28, main_v29, main_v30, main_cst_1, main_v31, main_cst_2, main_v32, main_v33, main_v34, main_cst_3, main_v35, main_v36, main_v37, main_v38, main_v39, main_c_4, main_v40, main_v41, main_c_5, main_v42, main_v43, main_v44, main_v45, main_v46, main_v47, main_v48, main_v49, main_cst_6, main_v50, main_v51, main_v52, main_cst_7, main_v53, main_cst_8, main_v54, main_v55, main_v56, main_cst_9, main_v57, main_v58, main_v59, main_v60, main_v61, main_c_10, main_v62, main_v63, main_c_11, main_v64, main_v65, main_v66, main_v67, main_v68, main_v69, main_v70, main_v71, main_cst_12, main_v72, main_v73, main_v74, main_cst_13, main_v75, main_cst_14, main_v76, main_v77, main_v78, main_cst_15, main_v79, main_v80, main_v81, main_v82, main_v83, main_v84, main_c_16, main_v85, main_v86, main_c_17, main_v87, main_v88, main_v89, main_v90, main_v91, main_v92, main_v93, main_v94, main_cst_18, main_v95, main_v96, main_v97, main_cst_19, main_v98, main_cst_20, main_v99, main_v100, main_v101, main_cst_21, main_v102, main_v103, main_v104, main_v105, main_v106, main_c_22, main_v107, main_v108, main_c_23, main_v109, main_v110, main_v111, main_v112, main_v113, main_v114, main_v115, main_v116, main_cst_24, main_v117, main_v118, main_v119, main_cst_25, main_v120, main_cst_26, main_v121, main_v122, main_v123, main_cst_27, main_v124, main_v125, main_v126, main_v127, main_v128, main_v129]
set_option maxHeartbeats 4000000 in
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-! ## The argument arrays end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W5_main_arg0 (c : Dev nD) : W5 m ρ c (Proc.devRef .tc main_arg0) = m ((c : Thread nD τ).loc main_arg0) :=
  (StableHlo.after_of_writes_sub hostOps2 _ hostOps2_writes (by decide)).trans (W4_main_arg0 m ρ c)
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg1 (c : Dev nD) : W5 m ρ c (Proc.devRef .tc main_arg1) = m ((c : Thread nD τ).loc main_arg1) :=
  (StableHlo.after_of_writes_sub hostOps2 _ hostOps2_writes (by decide)).trans (W4_main_arg1 m ρ c)
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg2 (c : Dev nD) : W5 m ρ c (Proc.devRef .tc main_arg2) = m ((c : Thread nD τ).loc main_arg2) :=
  (StableHlo.after_of_writes_sub hostOps2 _ hostOps2_writes (by decide)).trans (W4_main_arg2 m ρ c)
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W5_main_arg3 (c : Dev nD) : W5 m ρ c (Proc.devRef .tc main_arg3) = m ((c : Thread nD τ).loc main_arg3) :=
  (StableHlo.after_of_writes_sub hostOps2 _ hostOps2_writes (by decide)).trans (W4_main_arg3 m ρ c)
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg4 (c : Dev nD) : W5 m ρ c (Proc.devRef .tc main_arg4) = m ((c : Thread nD τ).loc main_arg4) :=
  (StableHlo.after_of_writes_sub hostOps2 _ hostOps2_writes (by decide)).trans (W4_main_arg4 m ρ c)
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W5_main_arg5 (c : Dev nD) : W5 m ρ c (Proc.devRef .tc main_arg5) = m ((c : Thread nD τ).loc main_arg5) :=
  (StableHlo.after_of_writes_sub hostOps2 _ hostOps2_writes (by decide)).trans (W4_main_arg5 m ρ c)
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W5_main_arg6 (c : Dev nD) : W5 m ρ c (Proc.devRef .tc main_arg6) = m ((c : Thread nD τ).loc main_arg6) :=
  (StableHlo.after_of_writes_sub hostOps2 _ hostOps2_writes (by decide)).trans (W4_main_arg6 m ρ c)
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W5_main_arg7 (c : Dev nD) : W5 m ρ c (Proc.devRef .tc main_arg7) = m ((c : Thread nD τ).loc main_arg7) :=
  (StableHlo.after_of_writes_sub hostOps2 _ hostOps2_writes (by decide)).trans (W4_main_arg7 m ρ c)
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W5_main_arg8 (c : Dev nD) : W5 m ρ c (Proc.devRef .tc main_arg8) = m ((c : Thread nD τ).loc main_arg8) :=
  (StableHlo.after_of_writes_sub hostOps2 _ hostOps2_writes (by decide)).trans (W4_main_arg8 m ρ c)
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W5_main_arg9 (c : Dev nD) : W5 m ρ c (Proc.devRef .tc main_arg9) = m ((c : Thread nD τ).loc main_arg9) :=
  (StableHlo.after_of_writes_sub hostOps2 _ hostOps2_writes (by decide)).trans (W4_main_arg9 m ρ c)
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W5_main_arg10 (c : Dev nD) : W5 m ρ c (Proc.devRef .tc main_arg10) = m ((c : Thread nD τ).loc main_arg10) :=
  (StableHlo.after_of_writes_sub hostOps2 _ hostOps2_writes (by decide)).trans (W4_main_arg10 m ρ c)
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W5_main_arg11 (c : Dev nD) : W5 m ρ c (Proc.devRef .tc main_arg11) = m ((c : Thread nD τ).loc main_arg11) :=
  (StableHlo.after_of_writes_sub hostOps2 _ hostOps2_writes (by decide)).trans (W4_main_arg11 m ρ c)
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl
theorem W5_main_arg12 (c : Dev nD) : W5 m ρ c (Proc.devRef .tc main_arg12) = m ((c : Thread nD τ).loc main_arg12) :=
  (StableHlo.after_of_writes_sub hostOps2 _ hostOps2_writes (by decide)).trans (W4_main_arg12 m ρ c)
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl
theorem W5_main_arg13 (c : Dev nD) : W5 m ρ c (Proc.devRef .tc main_arg13) = m ((c : Thread nD τ).loc main_arg13) :=
  (StableHlo.after_of_writes_sub hostOps2 _ hostOps2_writes (by decide)).trans (W4_main_arg13 m ρ c)
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl
theorem W5_main_arg14 (c : Dev nD) : W5 m ρ c (Proc.devRef .tc main_arg14) = m ((c : Thread nD τ).loc main_arg14) :=
  (StableHlo.after_of_writes_sub hostOps2 _ hostOps2_writes (by decide)).trans (W4_main_arg14 m ρ c)
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl
theorem W5_main_arg15 (c : Dev nD) : W5 m ρ c (Proc.devRef .tc main_arg15) = m ((c : Thread nD τ).loc main_arg15) :=
  (StableHlo.after_of_writes_sub hostOps2 _ hostOps2_writes (by decide)).trans (W4_main_arg15 m ρ c)
theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := StableHlo.after_of_writes_sub hostOps1 _ hostOps1_writes (by decide)
    _ = W1 m ρ c (Proc.devRef .tc main_arg16) := W2_of_ne m ρ c main_arg16 (by decide)
    _ = W0 m ρ c (Proc.devRef .tc main_arg16) := StableHlo.after_of_writes_sub hostOps0 _ hostOps0_writes (by decide)
    _ = m ((c : Thread nD τ).loc main_arg16) := rfl
theorem W5_main_arg16 (c : Dev nD) : W5 m ρ c (Proc.devRef .tc main_arg16) = m ((c : Thread nD τ).loc main_arg16) :=
  (StableHlo.after_of_writes_sub hostOps2 _ hostOps2_writes (by decide)).trans (W4_main_arg16 m ρ c)
theorem W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := StableHlo.after_of_writes_sub hostOps1 _ hostOps1_writes (by decide)
    _ = W1 m ρ c (Proc.devRef .tc main_arg17) := W2_of_ne m ρ c main_arg17 (by decide)
    _ = W0 m ρ c (Proc.devRef .tc main_arg17) := StableHlo.after_of_writes_sub hostOps0 _ hostOps0_writes (by decide)
    _ = m ((c : Thread nD τ).loc main_arg17) := rfl
theorem W5_main_arg17 (c : Dev nD) : W5 m ρ c (Proc.devRef .tc main_arg17) = m ((c : Thread nD τ).loc main_arg17) :=
  (StableHlo.after_of_writes_sub hostOps2 _ hostOps2_writes (by decide)).trans (W4_main_arg17 m ρ c)
theorem W4_main_arg18 (c : Dev nD) : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := StableHlo.after_of_writes_sub hostOps1 _ hostOps1_writes (by decide)
    _ = W1 m ρ c (Proc.devRef .tc main_arg18) := W2_of_ne m ρ c main_arg18 (by decide)
    _ = W0 m ρ c (Proc.devRef .tc main_arg18) := StableHlo.after_of_writes_sub hostOps0 _ hostOps0_writes (by decide)
    _ = m ((c : Thread nD τ).loc main_arg18) := rfl
theorem W5_main_arg18 (c : Dev nD) : W5 m ρ c (Proc.devRef .tc main_arg18) = m ((c : Thread nD τ).loc main_arg18) :=
  (StableHlo.after_of_writes_sub hostOps2 _ hostOps2_writes (by decide)).trans (W4_main_arg18 m ρ c)
theorem W4_main_arg19 (c : Dev nD) : W4 m ρ c (Proc.devRef .tc main_arg19) = m ((c : Thread nD τ).loc main_arg19) :=
  calc W4 m ρ c (Proc.devRef .tc main_arg19)
    _ = W3 m ρ c (Proc.devRef .tc main_arg19) := W4_of_ne m ρ c main_arg19 (by decide)
    _ = W2 m ρ c (Proc.devRef .tc main_arg19) := StableHlo.after_of_writes_sub hostOps1 _ hostOps1_writes (by decide)
    _ = W1 m ρ c (Proc.devRef .tc main_arg19) := W2_of_ne m ρ c main_arg19 (by decide)
    _ = W0 m ρ c (Proc.devRef .tc main_arg19) := StableHlo.after_of_writes_sub hostOps0 _ hostOps0_writes (by decide)
    _ = m ((c : Thread nD τ).loc main_arg19) := rfl
theorem W5_main_arg19 (c : Dev nD) : W5 m ρ c (Proc.devRef .tc main_arg19) = m ((c : Thread nD τ).loc main_arg19) :=
  (StableHlo.after_of_writes_sub hostOps2 _ hostOps2_writes (by decide)).trans (W4_main_arg19 m ρ c)
theorem W4_main_arg20 (c : Dev nD) : W4 m ρ c (Proc.devRef .tc main_arg20) = m ((c : Thread nD τ).loc main_arg20) :=
  calc W4 m ρ c (Proc.devRef .tc main_arg20)
    _ = W3 m ρ c (Proc.devRef .tc main_arg20) := W4_of_ne m ρ c main_arg20 (by decide)
    _ = W2 m ρ c (Proc.devRef .tc main_arg20) := StableHlo.after_of_writes_sub hostOps1 _ hostOps1_writes (by decide)
    _ = W1 m ρ c (Proc.devRef .tc main_arg20) := W2_of_ne m ρ c main_arg20 (by decide)
    _ = W0 m ρ c (Proc.devRef .tc main_arg20) := StableHlo.after_of_writes_sub hostOps0 _ hostOps0_writes (by decide)
    _ = m ((c : Thread nD τ).loc main_arg20) := rfl
theorem W5_main_arg20 (c : Dev nD) : W5 m ρ c (Proc.devRef .tc main_arg20) = m ((c : Thread nD τ).loc main_arg20) :=
  (StableHlo.after_of_writes_sub hostOps2 _ hostOps2_writes (by decide)).trans (W4_main_arg20 m ρ c)
theorem W4_main_arg21 (c : Dev nD) : W4 m ρ c (Proc.devRef .tc main_arg21) = m ((c : Thread nD τ).loc main_arg21) :=
  calc W4 m ρ c (Proc.devRef .tc main_arg21)
    _ = W3 m ρ c (Proc.devRef .tc main_arg21) := W4_of_ne m ρ c main_arg21 (by decide)
    _ = W2 m ρ c (Proc.devRef .tc main_arg21) := StableHlo.after_of_writes_sub hostOps1 _ hostOps1_writes (by decide)
    _ = W1 m ρ c (Proc.devRef .tc main_arg21) := W2_of_ne m ρ c main_arg21 (by decide)
    _ = W0 m ρ c (Proc.devRef .tc main_arg21) := StableHlo.after_of_writes_sub hostOps0 _ hostOps0_writes (by decide)
    _ = m ((c : Thread nD τ).loc main_arg21) := rfl
theorem W5_main_arg21 (c : Dev nD) : W5 m ρ c (Proc.devRef .tc main_arg21) = m ((c : Thread nD τ).loc main_arg21) :=
  (StableHlo.after_of_writes_sub hostOps2 _ hostOps2_writes (by decide)).trans (W4_main_arg21 m ρ c)
theorem W4_main_arg22 (c : Dev nD) : W4 m ρ c (Proc.devRef .tc main_arg22) = m ((c : Thread nD τ).loc main_arg22) :=
  calc W4 m ρ c (Proc.devRef .tc main_arg22)
    _ = W3 m ρ c (Proc.devRef .tc main_arg22) := W4_of_ne m ρ c main_arg22 (by decide)
    _ = W2 m ρ c (Proc.devRef .tc main_arg22) := StableHlo.after_of_writes_sub hostOps1 _ hostOps1_writes (by decide)
    _ = W1 m ρ c (Proc.devRef .tc main_arg22) := W2_of_ne m ρ c main_arg22 (by decide)
    _ = W0 m ρ c (Proc.devRef .tc main_arg22) := StableHlo.after_of_writes_sub hostOps0 _ hostOps0_writes (by decide)
    _ = m ((c : Thread nD τ).loc main_arg22) := rfl
theorem W5_main_arg22 (c : Dev nD) : W5 m ρ c (Proc.devRef .tc main_arg22) = m ((c : Thread nD τ).loc main_arg22) :=
  (StableHlo.after_of_writes_sub hostOps2 _ hostOps2_writes (by decide)).trans (W4_main_arg22 m ρ c)
theorem W4_main_arg23 (c : Dev nD) : W4 m ρ c (Proc.devRef .tc main_arg23) = m ((c : Thread nD τ).loc main_arg23) :=
  calc W4 m ρ c (Proc.devRef .tc main_arg23)
    _ = W3 m ρ c (Proc.devRef .tc main_arg23) := W4_of_ne m ρ c main_arg23 (by decide)
    _ = W2 m ρ c (Proc.devRef .tc main_arg23) := StableHlo.after_of_writes_sub hostOps1 _ hostOps1_writes (by decide)
    _ = W1 m ρ c (Proc.devRef .tc main_arg23) := W2_of_ne m ρ c main_arg23 (by decide)
    _ = W0 m ρ c (Proc.devRef .tc main_arg23) := StableHlo.after_of_writes_sub hostOps0 _ hostOps0_writes (by decide)
    _ = m ((c : Thread nD τ).loc main_arg23) := rfl
theorem W5_main_arg23 (c : Dev nD) : W5 m ρ c (Proc.devRef .tc main_arg23) = m ((c : Thread nD τ).loc main_arg23) :=
  (StableHlo.after_of_writes_sub hostOps2 _ hostOps2_writes (by decide)).trans (W4_main_arg23 m ρ c)
theorem W4_main_arg24 (c : Dev nD) : W4 m ρ c (Proc.devRef .tc main_arg24) = m ((c : Thread nD τ).loc main_arg24) :=
  calc W4 m ρ c (Proc.devRef .tc main_arg24)
    _ = W3 m ρ c (Proc.devRef .tc main_arg24) := W4_of_ne m ρ c main_arg24 (by decide)
    _ = W2 m ρ c (Proc.devRef .tc main_arg24) := StableHlo.after_of_writes_sub hostOps1 _ hostOps1_writes (by decide)
    _ = W1 m ρ c (Proc.devRef .tc main_arg24) := W2_of_ne m ρ c main_arg24 (by decide)
    _ = W0 m ρ c (Proc.devRef .tc main_arg24) := StableHlo.after_of_writes_sub hostOps0 _ hostOps0_writes (by decide)
    _ = m ((c : Thread nD τ).loc main_arg24) := rfl
theorem W5_main_arg24 (c : Dev nD) : W5 m ρ c (Proc.devRef .tc main_arg24) = m ((c : Thread nD τ).loc main_arg24) :=
  (StableHlo.after_of_writes_sub hostOps2 _ hostOps2_writes (by decide)).trans (W4_main_arg24 m ρ c)
theorem W4_main_arg25 (c : Dev nD) : W4 m ρ c (Proc.devRef .tc main_arg25) = m ((c : Thread nD τ).loc main_arg25) :=
  calc W4 m ρ c (Proc.devRef .tc main_arg25)
    _ = W3 m ρ c (Proc.devRef .tc main_arg25) := W4_of_ne m ρ c main_arg25 (by decide)
    _ = W2 m ρ c (Proc.devRef .tc main_arg25) := StableHlo.after_of_writes_sub hostOps1 _ hostOps1_writes (by decide)
    _ = W1 m ρ c (Proc.devRef .tc main_arg25) := W2_of_ne m ρ c main_arg25 (by decide)
    _ = W0 m ρ c (Proc.devRef .tc main_arg25) := StableHlo.after_of_writes_sub hostOps0 _ hostOps0_writes (by decide)
    _ = m ((c : Thread nD τ).loc main_arg25) := rfl
theorem W5_main_arg25 (c : Dev nD) : W5 m ρ c (Proc.devRef .tc main_arg25) = m ((c : Thread nD τ).loc main_arg25) :=
  (StableHlo.after_of_writes_sub hostOps2 _ hostOps2_writes (by decide)).trans (W4_main_arg25 m ρ c)
theorem W4_main_arg26 (c : Dev nD) : W4 m ρ c (Proc.devRef .tc main_arg26) = m ((c : Thread nD τ).loc main_arg26) :=
  calc W4 m ρ c (Proc.devRef .tc main_arg26)
    _ = W3 m ρ c (Proc.devRef .tc main_arg26) := W4_of_ne m ρ c main_arg26 (by decide)
    _ = W2 m ρ c (Proc.devRef .tc main_arg26) := StableHlo.after_of_writes_sub hostOps1 _ hostOps1_writes (by decide)
    _ = W1 m ρ c (Proc.devRef .tc main_arg26) := W2_of_ne m ρ c main_arg26 (by decide)
    _ = W0 m ρ c (Proc.devRef .tc main_arg26) := StableHlo.after_of_writes_sub hostOps0 _ hostOps0_writes (by decide)
    _ = m ((c : Thread nD τ).loc main_arg26) := rfl
theorem W5_main_arg26 (c : Dev nD) : W5 m ρ c (Proc.devRef .tc main_arg26) = m ((c : Thread nD τ).loc main_arg26) :=
  (StableHlo.after_of_writes_sub hostOps2 _ hostOps2_writes (by decide)).trans (W4_main_arg26 m ρ c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
set_option maxHeartbeats 4000000 in
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last fold, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered with every unscoped buffer at `W1`, left with them at `W2`. Its windows'
    arrays are split out of the unscoped buffers at entry and put back at the exit contents; the generator register goes
    into the kernel's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its windows'
    arrays are split out of the unscoped buffers at entry and put back at the exit contents; the generator register goes
    into the kernel's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

set_option maxHeartbeats 4000000 in
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer of every core ends at the last fold `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c),
    (h c _ (mem_uc main_arg12 (by decide))).trans (W5_main_arg12 m ρ c),
    (h c _ (mem_uc main_arg13 (by decide))).trans (W5_main_arg13 m ρ c),
    (h c _ (mem_uc main_arg14 (by decide))).trans (W5_main_arg14 m ρ c),
    (h c _ (mem_uc main_arg15 (by decide))).trans (W5_main_arg15 m ρ c),
    (h c _ (mem_uc main_arg16 (by decide))).trans (W5_main_arg16 m ρ c),
    (h c _ (mem_uc main_arg17 (by decide))).trans (W5_main_arg17 m ρ c),
    (h c _ (mem_uc main_arg18 (by decide))).trans (W5_main_arg18 m ρ c),
    (h c _ (mem_uc main_arg19 (by decide))).trans (W5_main_arg19 m ρ c),
    (h c _ (mem_uc main_arg20 (by decide))).trans (W5_main_arg20 m ρ c),
    (h c _ (mem_uc main_arg21 (by decide))).trans (W5_main_arg21 m ρ c),
    (h c _ (mem_uc main_arg22 (by decide))).trans (W5_main_arg22 m ρ c),
    (h c _ (mem_uc main_arg23 (by decide))).trans (W5_main_arg23 m ρ c),
    (h c _ (mem_uc main_arg24 (by decide))).trans (W5_main_arg24 m ρ c),
    (h c _ (mem_uc main_arg25 (by decide))).trans (W5_main_arg25 m ρ c),
    (h c _ (mem_uc main_arg26 (by decide))).trans (W5_main_arg26 m ρ c)⟩) (run_main m ρ)

end Cert.KernelIdeal.Hand

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.SpecPayload.lean ====
/-
  The kernel bodies' arithmetic read at an index, at the ideal values.

  Each body multiplies a block of rows by the whole stacked weight matrix, into a zero accumulator, and adds the stacked
  bias row to every row of the product. The changes of float format on the way in are the identity on extended reals and
  the shape casts are between equal shapes, so at row `p` and column `q` the stored value is the sum over the shared axis
  of the products, plus the bias at column `q`.
-/
import proofs.«168681_j51058571214897_1_alg».proof.Proof.Gen.KernelIdeal.Skeleton
import proofs.«168681_j51058571214897_1_alg».proof.Proof.LibMatmulSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Spec

open Cert.KernelIdeal Idealize.ShloMosaic Idealize.ShloMosaic.ValueIdx

/-- The first body (word table): a [2000, 300] block times the [300, 384] stacked weights plus the [1, 384] bias row. -/
theorem k0_pay1_apply (x0 : Vec Ideal S2000x300 .f32) (x1 : Vec Ideal S300x384 .f32) (x2 : Vec Ideal S1x384 .f32)
    (p : Fin 2000) (q : Fin 384) :
    Cert.KernelIdeal.Gen.k0_pay1 (F := Ideal) x0 x1 x2 (ix2 p q)
      = (∑ k : Fin 300, x0 (ix2 p k) * x1 (ix2 k q)) + x2 (ix2 (0 : Fin 1) q) := by
  unfold Cert.KernelIdeal.Gen.k0_pay1
  simp only [shapeCast_self]
  refine (addf_apply _ _ _).trans ?_
  refine congrArg₂ (· + ·) ?_ ?_
  · exact MatmulSum.matmul_zero_apply dot_S2000x300_S300x384_S2000x384_1_0_0_1_n_n rfl rfl rfl rfl rfl rfl none _ _ (ix2 p q)
  · exact broadcastTo_1b_ab_apply x2 _ p q

/-- The second body (topic table): a [2000, 128] block times the [128, 256] stacked weights plus the [1, 256] bias row. -/
theorem k1_pay1_apply (x0 : Vec Ideal S2000x128 .f32) (x1 : Vec Ideal S128x256 .f32) (x2 : Vec Ideal S1x256 .f32)
    (p : Fin 2000) (q : Fin 256) :
    Cert.KernelIdeal.Gen.k1_pay1 (F := Ideal) x0 x1 x2 (ix2 p q)
      = (∑ k : Fin 128, x0 (ix2 p k) * x1 (ix2 k q)) + x2 (ix2 (0 : Fin 1) q) := by
  unfold Cert.KernelIdeal.Gen.k1_pay1
  simp only [shapeCast_self]
  refine (addf_apply _ _ _).trans ?_
  refine congrArg₂ (· + ·) ?_ ?_
  · exact MatmulSum.matmul_zero_apply dot_S2000x128_S128x256_S2000x256_1_0_0_1_n_n rfl rfl rfl rfl rfl rfl none _ _ (ix2 p q)
  · exact broadcastTo_1b_ab_apply x2 _ p q

end Cert.KernelIdeal.Spec

end
-- ==== Proof.KIValue.lean ====
/-
  What the two projection kernels leave in their output arrays, at the exact instance (floats are extended reals).
  At a grid point the body stores `x0 · x1 + x2` over its blocks; entry (p, q) of that is the sum over k of
  x0(p, k) · x1(k, q) plus x2(0, q).  The feature block at point t is rows 2000·t … 2000·t + 1999 of the table, the
  weights and the bias row are whole, and the output block is the same rows of the output, so what point t writes back is
  block t of ONE function of the arrays: G(i) = Σ_k feat(i₀, k) · W(k, i₁) + b(0, i₁).  The blocks tile the output array
  (row r belongs to point r / 2000), so the array ends holding G.
-/
import proofs.«168681_j51058571214897_1_alg».proof.Proof.KIBody
import proofs.«168681_j51058571214897_1_alg».proof.Proof.SpecPayload
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

/-! ## Region 0 -/

/-- The wide projection: row `i 0` of the feature table against column `i 1` of the stacked weights, plus entry `i 1` of
    the stacked bias row. -/
def G0 (feat : S50000x300.Idx → Elt Ideal .f32) (W : S300x384.Idx → Elt Ideal .f32) (b : S1x384.Idx → Elt Ideal .f32) : S50000x384.Idx → Elt Ideal .f32 :=
  fun i => (∑ k : Fin 300, feat (ix2 (n0 := 50000) (n1 := 300) (i 0) k) * W (ix2 (n0 := 300) (n1 := 384) k (i 1))) + b (ix2 (n0 := 1) (n1 := 384) (0 : Fin 1) (i 1))

/-- The index maps over the grid: the feature block and the output block move together along the rows; the weights and
    the bias row are always block (0, 0). -/
theorem idx_facts0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point `t` writes back is block `t` of the wide projection of the arrays as the region finds them. -/
theorem flushed0_eq (c : Dev nD) (t : Fin cfg0.N) :
    (dat0 V c).flushed 3 t = ((cfg0.win 3).blk t).view.read (Elt Ideal) (G0 (V c main_arg0) (V c main_v3) (V c main_v9)) := by
  show (cfg0.win 3).cut (grid0.coords t) ((dat0 V c).after 3 t) = _
  rw [after0_3]
  unfold out0_3
  rw [View.canon_unit_zero hz2]
  simp only [View.ld_unit_zero (S := S2000x300) hz2, View.ld_unit_zero (S := S300x384) hz2, View.ld_unit_zero (S := S1x384) hz2]
  obtain ⟨e0, e1, e2, e3, e4, e5, e6, e7⟩ := idx_facts0 t
  funext j
  obtain ⟨p, q, rfl⟩ : ∃ (p : Fin 2000) (q : Fin 384), j = ix2 p q := ⟨j 0, j 1, eq_ix2 j⟩
  refine (Cert.KernelIdeal.Spec.k0_pay1_apply _ _ _ p q).trans ?_
  have h0 : ∀ k : Fin 300, ((cfg0.win 0).blk t).view.emb (ix2 p k) = ix2 (n0 := 50000) (n1 := 300) ((((cfg0.win 3).blk t).view.emb (ix2 p q)) 0) k := fun k => by
    funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 300 + 1 * k.val = k.val; omega
  have h1 : ∀ k : Fin 300, ((cfg0.win 1).blk t).view.emb (ix2 k q) = ix2 (n0 := 300) (n1 := 384) k ((((cfg0.win 3).blk t).view.emb (ix2 p q)) 1) := fun k => by
    funext a; apply Fin.ext
    match a with
    | ⟨0, _⟩ => show win0_1.index t (0 : Fin 2) * 300 + 1 * k.val = k.val; omega
    | ⟨1, _⟩ => show win0_1.index t (1 : Fin 2) * 384 + 1 * q.val = win0_3.index t (1 : Fin 2) * 384 + 1 * q.val; omega
  have h2 : ((cfg0.win 2).blk t).view.emb (ix2 (0 : Fin 1) q) = ix2 (n0 := 1) (n1 := 384) (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 384 + 1 * q.val = win0_3.index t (1 : Fin 2) * 384 + 1 * q.val; omega
  show (∑ k : Fin 300, (@id (S50000x300.Idx → Elt Ideal .f32) (V c main_arg0)) (((cfg0.win 0).blk t).view.emb (ix2 p k)) * (@id (S300x384.Idx → Elt Ideal .f32) (V c main_v3)) (((cfg0.win 1).blk t).view.emb (ix2 k q)))
      + (@id (S1x384.Idx → Elt Ideal .f32) (V c main_v9)) (((cfg0.win 2).blk t).view.emb (ix2 (0 : Fin 1) q))
    = (∑ k : Fin 300, (@id (S50000x300.Idx → Elt Ideal .f32) (V c main_arg0)) (ix2 (n0 := 50000) (n1 := 300) ((((cfg0.win 3).blk t).view.emb (ix2 p q)) 0) k) * (@id (S300x384.Idx → Elt Ideal .f32) (V c main_v3)) (ix2 (n0 := 300) (n1 := 384) k ((((cfg0.win 3).blk t).view.emb (ix2 p q)) 1)))
      + (@id (S1x384.Idx → Elt Ideal .f32) (V c main_v9)) (ix2 (n0 := 1) (n1 := 384) (0 : Fin 1) ((((cfg0.win 3).blk t).view.emb (ix2 p q)) 1))
  rw [h2]
  exact congrArg (· + _) (Finset.sum_congr rfl fun k _ => by rw [h0 k, h1 k])

/-- An index of the output array is in point `t`'s block iff each coordinate is in the block's range. -/
theorem mem_blk0 (t : Fin cfg0.N) (i : S50000x384.Idx) :
    i ∈ ((cfg0.win 3).blk t).view.set ↔ ∀ a : Fin 2, win0_3.index t a * S2000x384.size a ≤ (i a).val ∧ (i a).val < win0_3.index t a * S2000x384.size a + S2000x384.size a := by
  show i ∈ ((View.whole main_v10).slice (win0_3.rect t)).set ↔ _
  rw [View.set_slice_whole, Rect.mem_set_unit]
  exact Iff.rfl

/-- Every index of the output array is in the block of the point that owns its row: the blocks tile the array. -/
theorem cover0 (i : S50000x384.Idx) : ∃ t : Fin cfg0.N, (cfg0.win 3).flush t = true ∧ i ∈ ((cfg0.win 3).blk t).view.set := by
  have hi0 : (i 0).val < 50000 := (i 0).isLt
  have hi1 : (i 1).val < 384 := (i 1).isLt
  have hN : cfg0.N = 25 := N_0
  let t : Fin cfg0.N := ⟨(i 0).val / 2000, by rw [hN]; omega⟩
  obtain ⟨e0, e1, e2, e3, e4, e5, e6, e7⟩ := idx_facts0 t
  have e6' : win0_3.index t (0 : Fin 2) = (i 0).val / 2000 := e6
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 384 ≤ (i 1).val ∧ (i 1).val < win0_3.index t (1 : Fin 2) * 384 + 384; omega

/-- The output array after the region: the wide projection of the arrays as the region finds them. -/
theorem final0 (c : Dev nD) : (dat0 V c).arrAt 3 cfg0.N = G0 (V c main_arg0) (V c main_v3) (V c main_v9) :=
  (dat0 V c).arrAt_eq_of_cover 3 (G0 (V c main_arg0) (V c main_v3) (V c main_v9)) (fun t _ => flushed0_eq V c t) (cover0)

/-! ## Region 1 -/

/-- The wide projection: row `i 0` of the feature table against column `i 1` of the stacked weights, plus entry `i 1` of
    the stacked bias row. -/
def G1 (feat : S2000x128.Idx → Elt Ideal .f32) (W : S128x256.Idx → Elt Ideal .f32) (b : S1x256.Idx → Elt Ideal .f32) : S2000x256.Idx → Elt Ideal .f32 :=
  fun i => (∑ k : Fin 128, feat (ix2 (n0 := 2000) (n1 := 128) (i 0) k) * W (ix2 (n0 := 128) (n1 := 256) k (i 1))) + b (ix2 (n0 := 1) (n1 := 256) (0 : Fin 1) (i 1))

/-- The index maps over the grid: the feature block and the output block move together along the rows; the weights and
    the bias row are always block (0, 0). -/
theorem idx_facts1 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point `t` writes back is block `t` of the wide projection of the arrays as the region finds them. -/
theorem flushed1_eq (c : Dev nD) (t : Fin cfg1.N) :
    (dat1 V c).flushed 3 t = ((cfg1.win 3).blk t).view.read (Elt Ideal) (G1 (V c main_arg1) (V c main_v7) (V c main_v11)) := by
  show (cfg1.win 3).cut (grid1.coords t) ((dat1 V c).after 3 t) = _
  rw [after1_3]
  unfold out1_3
  rw [View.canon_unit_zero hz2]
  simp only [View.ld_unit_zero (S := S2000x128) hz2, View.ld_unit_zero (S := S128x256) hz2, View.ld_unit_zero (S := S1x256) hz2]
  obtain ⟨e0, e1, e2, e3, e4, e5, e6, e7⟩ := idx_facts1 t
  funext j
  obtain ⟨p, q, rfl⟩ : ∃ (p : Fin 2000) (q : Fin 256), j = ix2 p q := ⟨j 0, j 1, eq_ix2 j⟩
  refine (Cert.KernelIdeal.Spec.k1_pay1_apply _ _ _ p q).trans ?_
  have h0 : ∀ k : Fin 128, ((cfg1.win 0).blk t).view.emb (ix2 p k) = ix2 (n0 := 2000) (n1 := 128) ((((cfg1.win 3).blk t).view.emb (ix2 p q)) 0) k := fun k => by
    funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * k.val = k.val; omega
  have h1 : ∀ k : Fin 128, ((cfg1.win 1).blk t).view.emb (ix2 k q) = ix2 (n0 := 128) (n1 := 256) k ((((cfg1.win 3).blk t).view.emb (ix2 p q)) 1) := fun k => by
    funext a; apply Fin.ext
    match a with
    | ⟨0, _⟩ => show win1_1.index t (0 : Fin 2) * 128 + 1 * k.val = k.val; omega
    | ⟨1, _⟩ => show win1_1.index t (1 : Fin 2) * 256 + 1 * q.val = win1_3.index t (1 : Fin 2) * 256 + 1 * q.val; omega
  have h2 : ((cfg1.win 2).blk t).view.emb (ix2 (0 : Fin 1) q) = ix2 (n0 := 1) (n1 := 256) (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 256 + 1 * q.val = win1_3.index t (1 : Fin 2) * 256 + 1 * q.val; omega
  show (∑ k : Fin 128, (@id (S2000x128.Idx → Elt Ideal .f32) (V c main_arg1)) (((cfg1.win 0).blk t).view.emb (ix2 p k)) * (@id (S128x256.Idx → Elt Ideal .f32) (V c main_v7)) (((cfg1.win 1).blk t).view.emb (ix2 k q)))
      + (@id (S1x256.Idx → Elt Ideal .f32) (V c main_v11)) (((cfg1.win 2).blk t).view.emb (ix2 (0 : Fin 1) q))
    = (∑ k : Fin 128, (@id (S2000x128.Idx → Elt Ideal .f32) (V c main_arg1)) (ix2 (n0 := 2000) (n1 := 128) ((((cfg1.win 3).blk t).view.emb (ix2 p q)) 0) k) * (@id (S128x256.Idx → Elt Ideal .f32) (V c main_v7)) (ix2 (n0 := 128) (n1 := 256) k ((((cfg1.win 3).blk t).view.emb (ix2 p q)) 1)))
      + (@id (S1x256.Idx → Elt Ideal .f32) (V c main_v11)) (ix2 (n0 := 1) (n1 := 256) (0 : Fin 1) ((((cfg1.win 3).blk t).view.emb (ix2 p q)) 1))
  rw [h2]
  exact congrArg (· + _) (Finset.sum_congr rfl fun k _ => by rw [h0 k, h1 k])

/-- An index of the output array is in point `t`'s block iff each coordinate is in the block's range. -/
theorem mem_blk1 (t : Fin cfg1.N) (i : S2000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v12).slice (win1_3.rect t)).set ↔ _
  rw [View.set_slice_whole, Rect.mem_set_unit]
  exact Iff.rfl

/-- Every index of the output array is in the block of the point that owns its row: the blocks tile the array. -/
theorem cover1 (i : S2000x256.Idx) : ∃ t : Fin cfg1.N, (cfg1.win 3).flush t = true ∧ i ∈ ((cfg1.win 3).blk t).view.set := by
  have hi0 : (i 0).val < 2000 := (i 0).isLt
  have hi1 : (i 1).val < 256 := (i 1).isLt
  have hN : cfg1.N = 1 := N_1
  let t : Fin cfg1.N := ⟨(i 0).val / 2000, by rw [hN]; omega⟩
  obtain ⟨e0, e1, e2, e3, e4, e5, e6, e7⟩ := idx_facts1 t
  have e6' : win1_3.index t (0 : Fin 2) = (i 0).val / 2000 := e6
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-- The output array after the region: the wide projection of the arrays as the region finds them. -/
theorem final1 (c : Dev nD) : (dat1 V c).arrAt 3 cfg1.N = G1 (V c main_arg1) (V c main_v7) (V c main_v11) :=
  (dat1 V c).arrAt_eq_of_cover 3 (G1 (V c main_arg1) (V c main_v7) (V c main_v11)) (fun t _ => flushed1_eq V c t) (cover1)

end Cert.KernelIdeal.Hand

end
-- ==== Proof.SpecGlue.lean ====
/-
  The host's layout operations around the two calls, read at an index.

  Before the calls the weights of the edge types that share a source table are transposed and laid side by side along
  the columns, and their biases end to end, the bias then viewed as one row. After the calls the wide product is cut
  into bands of 128 columns. Each lemma here says which element of which operand an element of the result is: column
  `o + q` of the stacked weights is column `q` of the piece that starts at column `o`, entry `o + q` of the stacked bias
  is entry `q` of that piece, and column `q` of the band that starts at column `o` is column `o + q` of the product.
-/
import proofs.«168681_j51058571214897_1_alg».proof.KernelIdeal
import Idealize.ShloMosaic.Lib.Pipeline.Value
import Idealize.ShloMosaic.Lib.ValueIdx
import Idealize.ShloMosaic.Lib.ValueLayout

noncomputable section

namespace Cert.KernelIdeal.Spec

open Idealize.ShloMosaic Idealize.ShloMosaic.ValueIdx

variable {α : Type}

/-! ## Pieces laid side by side along the columns -/

/-- Three [K, W] pieces along the columns: a column inside the first piece. -/
theorem concat3_cols_apply0 {K W T : Nat} (A B C : (⟨2, ![K, W]⟩ : Shape).Idx → α)
    (h : Shape.Concatenates [⟨2, ![K, W]⟩, ⟨2, ![K, W]⟩, ⟨2, ![K, W]⟩] ⟨2, ![K, T]⟩ 1)
    (k : Fin K) (q : Fin W) (j : Fin T) (hj : j.val = q.val) :
    concatenate ⟨2, ![K, T]⟩ 1 [⟨⟨2, ![K, W]⟩, A⟩, ⟨⟨2, ![K, W]⟩, B⟩, ⟨⟨2, ![K, W]⟩, C⟩] h (ix2 k j) = A (ix2 k q) :=
  concatenate_apply_piece (t := ⟨2, ![K, T]⟩) (1 : Fin 2) [⟨⟨2, ![K, W]⟩, A⟩, ⟨⟨2, ![K, W]⟩, B⟩, ⟨⟨2, ![K, W]⟩, C⟩] h (ix2 k j) 0 (by simp) ⟨2, ![K, W]⟩ A rfl rfl (0) (by simp) (ix2 k q)
    (fun b => match b with
      | ⟨0, _⟩ => fun _ => rfl
      | ⟨1, _⟩ => fun hb => absurd rfl hb)
    (by show 0 + q.val = j.val; omega)

/-- Three [K, W] pieces along the columns: a column inside the second piece. -/
theorem concat3_cols_apply1 {K W T : Nat} (A B C : (⟨2, ![K, W]⟩ : Shape).Idx → α)
    (h : Shape.Concatenates [⟨2, ![K, W]⟩, ⟨2, ![K, W]⟩, ⟨2, ![K, W]⟩] ⟨2, ![K, T]⟩ 1)
    (k : Fin K) (q : Fin W) (j : Fin T) (hj : j.val = W + q.val) :
    concatenate ⟨2, ![K, T]⟩ 1 [⟨⟨2, ![K, W]⟩, A⟩, ⟨⟨2, ![K, W]⟩, B⟩, ⟨⟨2, ![K, W]⟩, C⟩] h (ix2 k j) = B (ix2 k q) :=
  concatenate_apply_piece (t := ⟨2, ![K, T]⟩) (1 : Fin 2) [⟨⟨2, ![K, W]⟩, A⟩, ⟨⟨2, ![K, W]⟩, B⟩, ⟨⟨2, ![K, W]⟩, C⟩] h (ix2 k j) 1 (by simp) ⟨2, ![K, W]⟩ B rfl rfl (W) (by simp) (ix2 k q)
    (fun b => match b with
      | ⟨0, _⟩ => fun _ => rfl
      | ⟨1, _⟩ => fun hb => absurd rfl hb)
    (by show W + q.val = j.val; omega)

/-- Three [K, W] pieces along the columns: a column inside the third piece. -/
theorem concat3_cols_apply2 {K W T : Nat} (A B C : (⟨2, ![K, W]⟩ : Shape).Idx → α)
    (h : Shape.Concatenates [⟨2, ![K, W]⟩, ⟨2, ![K, W]⟩, ⟨2, ![K, W]⟩] ⟨2, ![K, T]⟩ 1)
    (k : Fin K) (q : Fin W) (j : Fin T) (hj : j.val = W + W + q.val) :
    concatenate ⟨2, ![K, T]⟩ 1 [⟨⟨2, ![K, W]⟩, A⟩, ⟨⟨2, ![K, W]⟩, B⟩, ⟨⟨2, ![K, W]⟩, C⟩] h (ix2 k j) = C (ix2 k q) :=
  concatenate_apply_piece (t := ⟨2, ![K, T]⟩) (1 : Fin 2) [⟨⟨2, ![K, W]⟩, A⟩, ⟨⟨2, ![K, W]⟩, B⟩, ⟨⟨2, ![K, W]⟩, C⟩] h (ix2 k j) 2 (by simp) ⟨2, ![K, W]⟩ C rfl rfl (W + W) (by simp) (ix2 k q)
    (fun b => match b with
      | ⟨0, _⟩ => fun _ => rfl
      | ⟨1, _⟩ => fun hb => absurd rfl hb)
    (by show W + W + q.val = j.val; omega)

/-- Two [K, W] pieces along the columns: a column inside the first piece. -/
theorem concat2_cols_apply0 {K W T : Nat} (A B : (⟨2, ![K, W]⟩ : Shape).Idx → α)
    (h : Shape.Concatenates [⟨2, ![K, W]⟩, ⟨2, ![K, W]⟩] ⟨2, ![K, T]⟩ 1)
    (k : Fin K) (q : Fin W) (j : Fin T) (hj : j.val = q.val) :
    concatenate ⟨2, ![K, T]⟩ 1 [⟨⟨2, ![K, W]⟩, A⟩, ⟨⟨2, ![K, W]⟩, B⟩] h (ix2 k j) = A (ix2 k q) :=
  concatenate_apply_piece (t := ⟨2, ![K, T]⟩) (1 : Fin 2) [⟨⟨2, ![K, W]⟩, A⟩, ⟨⟨2, ![K, W]⟩, B⟩] h (ix2 k j) 0 (by simp) ⟨2, ![K, W]⟩ A rfl rfl (0) (by simp) (ix2 k q)
    (fun b => match b with
      | ⟨0, _⟩ => fun _ => rfl
      | ⟨1, _⟩ => fun hb => absurd rfl hb)
    (by show 0 + q.val = j.val; omega)

/-- Two [K, W] pieces along the columns: a column inside the second piece. -/
theorem concat2_cols_apply1 {K W T : Nat} (A B : (⟨2, ![K, W]⟩ : Shape).Idx → α)
    (h : Shape.Concatenates [⟨2, ![K, W]⟩, ⟨2, ![K, W]⟩] ⟨2, ![K, T]⟩ 1)
    (k : Fin K) (q : Fin W) (j : Fin T) (hj : j.val = W + q.val) :
    concatenate ⟨2, ![K, T]⟩ 1 [⟨⟨2, ![K, W]⟩, A⟩, ⟨⟨2, ![K, W]⟩, B⟩] h (ix2 k j) = B (ix2 k q) :=
  concatenate_apply_piece (t := ⟨2, ![K, T]⟩) (1 : Fin 2) [⟨⟨2, ![K, W]⟩, A⟩, ⟨⟨2, ![K, W]⟩, B⟩] h (ix2 k j) 1 (by simp) ⟨2, ![K, W]⟩ B rfl rfl (W) (by simp) (ix2 k q)
    (fun b => match b with
      | ⟨0, _⟩ => fun _ => rfl
      | ⟨1, _⟩ => fun hb => absurd rfl hb)
    (by show W + q.val = j.val; omega)

/-! ## Vectors laid end to end -/

/-- Three [W] vectors end to end: an entry inside the first. -/
theorem concat3_vec_apply0 {W T : Nat} (a b c : (⟨1, ![W]⟩ : Shape).Idx → α)
    (h : Shape.Concatenates [⟨1, ![W]⟩, ⟨1, ![W]⟩, ⟨1, ![W]⟩] ⟨1, ![T]⟩ 0)
    (q : Fin W) (j : Fin T) (hj : j.val = q.val) :
    concatenate ⟨1, ![T]⟩ 0 [⟨⟨1, ![W]⟩, a⟩, ⟨⟨1, ![W]⟩, b⟩, ⟨⟨1, ![W]⟩, c⟩] h (ix1 j) = a (ix1 q) :=
  concatenate_apply_piece (t := ⟨1, ![T]⟩) (0 : Fin 1) [⟨⟨1, ![W]⟩, a⟩, ⟨⟨1, ![W]⟩, b⟩, ⟨⟨1, ![W]⟩, c⟩] h (ix1 j) 0 (by simp) ⟨1, ![W]⟩ a rfl rfl (0) (by simp) (ix1 q)
    (fun b => match b with
      | ⟨0, _⟩ => fun hb => absurd rfl hb)
    (by show 0 + q.val = j.val; omega)

/-- Three [W] vectors end to end: an entry inside the second. -/
theorem concat3_vec_apply1 {W T : Nat} (a b c : (⟨1, ![W]⟩ : Shape).Idx → α)
    (h : Shape.Concatenates [⟨1, ![W]⟩, ⟨1, ![W]⟩, ⟨1, ![W]⟩] ⟨1, ![T]⟩ 0)
    (q : Fin W) (j : Fin T) (hj : j.val = W + q.val) :
    concatenate ⟨1, ![T]⟩ 0 [⟨⟨1, ![W]⟩, a⟩, ⟨⟨1, ![W]⟩, b⟩, ⟨⟨1, ![W]⟩, c⟩] h (ix1 j) = b (ix1 q) :=
  concatenate_apply_piece (t := ⟨1, ![T]⟩) (0 : Fin 1) [⟨⟨1, ![W]⟩, a⟩, ⟨⟨1, ![W]⟩, b⟩, ⟨⟨1, ![W]⟩, c⟩] h (ix1 j) 1 (by simp) ⟨1, ![W]⟩ b rfl rfl (W) (by simp) (ix1 q)
    (fun b => match b with
      | ⟨0, _⟩ => fun hb => absurd rfl hb)
    (by show W + q.val = j.val; omega)

/-- Three [W] vectors end to end: an entry inside the third. -/
theorem concat3_vec_apply2 {W T : Nat} (a b c : (⟨1, ![W]⟩ : Shape).Idx → α)
    (h : Shape.Concatenates [⟨1, ![W]⟩, ⟨1, ![W]⟩, ⟨1, ![W]⟩] ⟨1, ![T]⟩ 0)
    (q : Fin W) (j : Fin T) (hj : j.val = W + W + q.val) :
    concatenate ⟨1, ![T]⟩ 0 [⟨⟨1, ![W]⟩, a⟩, ⟨⟨1, ![W]⟩, b⟩, ⟨⟨1, ![W]⟩, c⟩] h (ix1 j) = c (ix1 q) :=
  concatenate_apply_piece (t := ⟨1, ![T]⟩) (0 : Fin 1) [⟨⟨1, ![W]⟩, a⟩, ⟨⟨1, ![W]⟩, b⟩, ⟨⟨1, ![W]⟩, c⟩] h (ix1 j) 2 (by simp) ⟨1, ![W]⟩ c rfl rfl (W + W) (by simp) (ix1 q)
    (fun b => match b with
      | ⟨0, _⟩ => fun hb => absurd rfl hb)
    (by show W + W + q.val = j.val; omega)

/-- Two [W] vectors end to end: an entry inside the first. -/
theorem concat2_vec_apply0 {W T : Nat} (a b : (⟨1, ![W]⟩ : Shape).Idx → α)
    (h : Shape.Concatenates [⟨1, ![W]⟩, ⟨1, ![W]⟩] ⟨1, ![T]⟩ 0)
    (q : Fin W) (j : Fin T) (hj : j.val = q.val) :
    concatenate ⟨1, ![T]⟩ 0 [⟨⟨1, ![W]⟩, a⟩, ⟨⟨1, ![W]⟩, b⟩] h (ix1 j) = a (ix1 q) :=
  concatenate_apply_piece (t := ⟨1, ![T]⟩) (0 : Fin 1) [⟨⟨1, ![W]⟩, a⟩, ⟨⟨1, ![W]⟩, b⟩] h (ix1 j) 0 (by simp) ⟨1, ![W]⟩ a rfl rfl (0) (by simp) (ix1 q)
    (fun b => match b with
      | ⟨0, _⟩ => fun hb => absurd rfl hb)
    (by show 0 + q.val = j.val; omega)

/-- Two [W] vectors end to end: an entry inside the second. -/
theorem concat2_vec_apply1 {W T : Nat} (a b : (⟨1, ![W]⟩ : Shape).Idx → α)
    (h : Shape.Concatenates [⟨1, ![W]⟩, ⟨1, ![W]⟩] ⟨1, ![T]⟩ 0)
    (q : Fin W) (j : Fin T) (hj : j.val = W + q.val) :
    concatenate ⟨1, ![T]⟩ 0 [⟨⟨1, ![W]⟩, a⟩, ⟨⟨1, ![W]⟩, b⟩] h (ix1 j) = b (ix1 q) :=
  concatenate_apply_piece (t := ⟨1, ![T]⟩) (0 : Fin 1) [⟨⟨1, ![W]⟩, a⟩, ⟨⟨1, ![W]⟩, b⟩] h (ix1 j) 1 (by simp) ⟨1, ![W]⟩ b rfl rfl (W) (by simp) (ix1 q)
    (fun b => match b with
      | ⟨0, _⟩ => fun hb => absurd rfl hb)
    (by show W + q.val = j.val; omega)

/-! ## The two calls' operands and results, at their literal shapes -/

section Literal

open Cert.KernelIdeal

/-- Column `o + q` of a row of 384, for a band of 128 that starts at column `o`. -/
abbrev col384 (o : Nat) (q : Fin 128) (ho : o + 128 ≤ 384) : Fin 384 := ⟨o + q.val, by have := q.isLt; omega⟩
/-- Column `o + q` of a row of 256, for a band of 128 that starts at column `o`. -/
abbrev col256 (o : Nat) (q : Fin 128) (ho : o + 128 ≤ 256) : Fin 256 := ⟨o + q.val, by have := q.isLt; omega⟩

/-- The word table's stacked weights: three transposed [128, 300] matrices side by side. Column `q` of band 0 is row `q`
    of the first matrix. -/
theorem wordW_apply0 (Wa Wb Wc : S128x300.Idx → α) (ht : S128x300.Transposes [1, 0] S300x128)
    (hc : Shape.Concatenates [S300x128, S300x128, S300x128] S300x384 1) (k : Fin 300) (q : Fin 128) :
    concatenate S300x384 1 [⟨S300x128, transpose S300x128 [1, 0] Wa ht⟩, ⟨S300x128, transpose S300x128 [1, 0] Wb ht⟩,
        ⟨S300x128, transpose S300x128 [1, 0] Wc ht⟩] hc (ix2 k (col384 0 q (by decide))) = Wa (ix2 q k) :=
  (concat3_cols_apply0 (K := 300) (W := 128) (T := 384) _ _ _ hc k q _ (Nat.zero_add _)).trans
    (transpose_ix2_apply Wa ht k q)

/-- Column `q` of band 1 is row `q` of the second matrix. -/
theorem wordW_apply1 (Wa Wb Wc : S128x300.Idx → α) (ht : S128x300.Transposes [1, 0] S300x128)
    (hc : Shape.Concatenates [S300x128, S300x128, S300x128] S300x384 1) (k : Fin 300) (q : Fin 128) :
    concatenate S300x384 1 [⟨S300x128, transpose S300x128 [1, 0] Wa ht⟩, ⟨S300x128, transpose S300x128 [1, 0] Wb ht⟩,
        ⟨S300x128, transpose S300x128 [1, 0] Wc ht⟩] hc (ix2 k (col384 128 q (by decide))) = Wb (ix2 q k) :=
  (concat3_cols_apply1 (K := 300) (W := 128) (T := 384) _ _ _ hc k q _ rfl).trans
    (transpose_ix2_apply Wb ht k q)

/-- Column `q` of band 2 is row `q` of the third matrix. -/
theorem wordW_apply2 (Wa Wb Wc : S128x300.Idx → α) (ht : S128x300.Transposes [1, 0] S300x128)
    (hc : Shape.Concatenates [S300x128, S300x128, S300x128] S300x384 1) (k : Fin 300) (q : Fin 128) :
    concatenate S300x384 1 [⟨S300x128, transpose S300x128 [1, 0] Wa ht⟩, ⟨S300x128, transpose S300x128 [1, 0] Wb ht⟩,
        ⟨S300x128, transpose S300x128 [1, 0] Wc ht⟩] hc (ix2 k (col384 256 q (by decide))) = Wc (ix2 q k) :=
  (concat3_cols_apply2 (K := 300) (W := 128) (T := 384) _ _ _ hc k q _ rfl).trans
    (transpose_ix2_apply Wc ht k q)

/-- The topic table's stacked weights: two transposed [128, 128] matrices side by side. Column `q` of band 0 is row `q`
    of the first matrix. -/
theorem topicW_apply0 (Wa Wb : S128x128.Idx → α) (ht : S128x128.Transposes [1, 0] S128x128)
    (hc : Shape.Concatenates [S128x128, S128x128] S128x256 1) (k : Fin 128) (q : Fin 128) :
    concatenate S128x256 1 [⟨S128x128, transpose S128x128 [1, 0] Wa ht⟩, ⟨S128x128, transpose S128x128 [1, 0] Wb ht⟩] hc
        (ix2 k (col256 0 q (by decide))) = Wa (ix2 q k) :=
  (concat2_cols_apply0 (K := 128) (W := 128) (T := 256) _ _ hc k q _ (Nat.zero_add _)).trans
    (transpose_ix2_apply Wa ht k q)

/-- Column `q` of band 1 is row `q` of the second matrix. -/
theorem topicW_apply1 (Wa Wb : S128x128.Idx → α) (ht : S128x128.Transposes [1, 0] S128x128)
    (hc : Shape.Concatenates [S128x128, S128x128] S128x256 1) (k : Fin 128) (q : Fin 128) :
    concatenate S128x256 1 [⟨S128x128, transpose S128x128 [1, 0] Wa ht⟩, ⟨S128x128, transpose S128x128 [1, 0] Wb ht⟩] hc
        (ix2 k (col256 128 q (by decide))) = Wb (ix2 q k) :=
  (concat2_cols_apply1 (K := 128) (W := 128) (T := 256) _ _ hc k q _ rfl).trans
    (transpose_ix2_apply Wb ht k q)

/-- The word table's stacked bias, viewed as one row: entry `q` of band 0 is entry `q` of the first bias. -/
theorem wordB_apply0 (ba bb bc : S128.Idx → α) (hc : Shape.Concatenates [S128, S128, S128] S384 0)
    (hs : S384.ShapeCasts S1x384) (q : Fin 128) :
    shapeCast S1x384 (concatenate S384 0 [⟨S128, ba⟩, ⟨S128, bb⟩, ⟨S128, bc⟩] hc) hs (ix2 (0 : Fin 1) (col384 0 q (by decide)))
      = ba (ix1 q) :=
  (shapeCast_a_1a_apply _ hs 0 _).trans (concat3_vec_apply0 (W := 128) (T := 384) ba bb bc hc q _ (Nat.zero_add _))

/-- Entry `q` of band 1 is entry `q` of the second bias. -/
theorem wordB_apply1 (ba bb bc : S128.Idx → α) (hc : Shape.Concatenates [S128, S128, S128] S384 0)
    (hs : S384.ShapeCasts S1x384) (q : Fin 128) :
    shapeCast S1x384 (concatenate S384 0 [⟨S128, ba⟩, ⟨S128, bb⟩, ⟨S128, bc⟩] hc) hs (ix2 (0 : Fin 1) (col384 128 q (by decide)))
      = bb (ix1 q) :=
  (shapeCast_a_1a_apply _ hs 0 _).trans (concat3_vec_apply1 (W := 128) (T := 384) ba bb bc hc q _ rfl)

/-- Entry `q` of band 2 is entry `q` of the third bias. -/
theorem wordB_apply2 (ba bb bc : S128.Idx → α) (hc : Shape.Concatenates [S128, S128, S128] S384 0)
    (hs : S384.ShapeCasts S1x384) (q : Fin 128) :
    shapeCast S1x384 (concatenate S384 0 [⟨S128, ba⟩, ⟨S128, bb⟩, ⟨S128, bc⟩] hc) hs (ix2 (0 : Fin 1) (col384 256 q (by decide)))
      = bc (ix1 q) :=
  (shapeCast_a_1a_apply _ hs 0 _).trans (concat3_vec_apply2 (W := 128) (T := 384) ba bb bc hc q _ rfl)

/-- The topic table's stacked bias, viewed as one row: entry `q` of band 0 is entry `q` of the first bias. -/
theorem topicB_apply0 (ba bb : S128.Idx → α) (hc : Shape.Concatenates [S128, S128] S256 0)
    (hs : S256.ShapeCasts S1x256) (q : Fin 128) :
    shapeCast S1x256 (concatenate S256 0 [⟨S128, ba⟩, ⟨S128, bb⟩] hc) hs (ix2 (0 : Fin 1) (col256 0 q (by decide)))
      = ba (ix1 q) :=
  (shapeCast_a_1a_apply _ hs 0 _).trans (concat2_vec_apply0 (W := 128) (T := 256) ba bb hc q _ (Nat.zero_add _))

/-- Entry `q` of band 1 is entry `q` of the second bias. -/
theorem topicB_apply1 (ba bb : S128.Idx → α) (hc : Shape.Concatenates [S128, S128] S256 0)
    (hs : S256.ShapeCasts S1x256) (q : Fin 128) :
    shapeCast S1x256 (concatenate S256 0 [⟨S128, ba⟩, ⟨S128, bb⟩] hc) hs (ix2 (0 : Fin 1) (col256 128 q (by decide)))
      = bb (ix1 q) :=
  (shapeCast_a_1a_apply _ hs 0 _).trans (concat2_vec_apply1 (W := 128) (T := 256) ba bb hc q _ rfl)

/-- A band of 128 columns cut out of the word table's [50000, 384] product, starting at column `o`: its column `q` is
    the product's column `o + q`. -/
theorem wordSlice_apply (o : Nat) (ho : o + 128 ≤ 384) (out : S50000x384.Idx → α) (h : S50000x384.Slices ![0, o] S50000x128)
    (r : Fin 50000) (q : Fin 128) :
    extractStridedSlice S50000x128 ![0, o] out h (ix2 r q) = out (ix2 r (col384 o q ho)) :=
  slice2_axis1_apply o out h r q _ rfl

/-- A band of 128 columns cut out of the topic table's [2000, 256] product, starting at column `o`. -/
theorem topicSlice_apply (o : Nat) (ho : o + 128 ≤ 256) (out : S2000x256.Idx → α) (h : S2000x256.Slices ![0, o] S2000x128)
    (r : Fin 2000) (q : Fin 128) :
    extractStridedSlice S2000x128 ![0, o] out h (ix2 r q) = out (ix2 r (col256 o q ho)) :=
  slice2_axis1_apply o out h r q _ rfl

end Literal

end Cert.KernelIdeal.Spec

end
-- ==== Proof.KIBand.lean ====
/-
  The wide projections, band by band.  The stacked weight matrix is the transposed per-edge-type matrices side by side and
  the stacked bias row the per-edge-type biases end to end, so columns 128·j … 128·j + 127 of the wide projection are
  Σ_k feat(r, k) · W_j(q, k) + b_j(q): the projection by the j-th edge type's weights alone.
-/
import proofs.«168681_j51058571214897_1_alg».proof.Proof.KIValue
import proofs.«168681_j51058571214897_1_alg».proof.Proof.SpecGlue

set_option maxRecDepth 16384

noncomputable section

namespace Cert.KernelIdeal.Hand

open Idealize.ShloMosaic Idealize.ShloMosaic.ValueIdx
open Cert.KernelIdeal
open scoped BigOperators

/-- Columns 0 … 127 of the wide word projection are the projection by the first weight matrix and bias. -/
theorem G0_band0 (feat : S50000x300.Idx → Elt Ideal .f32) (Wa Wb Wc : S128x300.Idx → Elt Ideal .f32) (ba bb bc : S128.Idx → Elt Ideal .f32)
    (ht : S128x300.Transposes [1, 0] S300x128) (hc : Shape.Concatenates [S300x128, S300x128, S300x128] S300x384 1)
    (hcb : Shape.Concatenates [S128, S128, S128] S384 0) (hs : S384.ShapeCasts S1x384) (r : Fin 50000) (q : Fin 128) :
    G0 feat (concatenate S300x384 1 [⟨S300x128, transpose S300x128 [1, 0] Wa ht⟩, ⟨S300x128, transpose S300x128 [1, 0] Wb ht⟩, ⟨S300x128, transpose S300x128 [1, 0] Wc ht⟩] hc) (shapeCast S1x384 (concatenate S384 0 [⟨S128, ba⟩, ⟨S128, bb⟩, ⟨S128, bc⟩] hcb) hs) (ix2 r (Spec.col384 0 q (by decide)))
      = (∑ k : Fin 300, feat (ix2 r k) * Wa (ix2 q k)) + ba (ix1 q) := by
  show (∑ k : Fin 300, feat (ix2 r k) * (concatenate S300x384 1 [⟨S300x128, transpose S300x128 [1, 0] Wa ht⟩, ⟨S300x128, transpose S300x128 [1, 0] Wb ht⟩, ⟨S300x128, transpose S300x128 [1, 0] Wc ht⟩] hc) (ix2 k (Spec.col384 0 q (by decide))))
      + (shapeCast S1x384 (concatenate S384 0 [⟨S128, ba⟩, ⟨S128, bb⟩, ⟨S128, bc⟩] hcb) hs) (ix2 (0 : Fin 1) (Spec.col384 0 q (by decide))) = _
  rw [Spec.wordB_apply0]
  exact congrArg (· + _) (Finset.sum_congr rfl fun k _ => by rw [Spec.wordW_apply0])

/-- Columns 128 … 255 of the wide word projection are the projection by the second weight matrix and bias. -/
theorem G0_band1 (feat : S50000x300.Idx → Elt Ideal .f32) (Wa Wb Wc : S128x300.Idx → Elt Ideal .f32) (ba bb bc : S128.Idx → Elt Ideal .f32)
    (ht : S128x300.Transposes [1, 0] S300x128) (hc : Shape.Concatenates [S300x128, S300x128, S300x128] S300x384 1)
    (hcb : Shape.Concatenates [S128, S128, S128] S384 0) (hs : S384.ShapeCasts S1x384) (r : Fin 50000) (q : Fin 128) :
    G0 feat (concatenate S300x384 1 [⟨S300x128, transpose S300x128 [1, 0] Wa ht⟩, ⟨S300x128, transpose S300x128 [1, 0] Wb ht⟩, ⟨S300x128, transpose S300x128 [1, 0] Wc ht⟩] hc) (shapeCast S1x384 (concatenate S384 0 [⟨S128, ba⟩, ⟨S128, bb⟩, ⟨S128, bc⟩] hcb) hs) (ix2 r (Spec.col384 128 q (by decide)))
      = (∑ k : Fin 300, feat (ix2 r k) * Wb (ix2 q k)) + bb (ix1 q) := by
  show (∑ k : Fin 300, feat (ix2 r k) * (concatenate S300x384 1 [⟨S300x128, transpose S300x128 [1, 0] Wa ht⟩, ⟨S300x128, transpose S300x128 [1, 0] Wb ht⟩, ⟨S300x128, transpose S300x128 [1, 0] Wc ht⟩] hc) (ix2 k (Spec.col384 128 q (by decide))))
      + (shapeCast S1x384 (concatenate S384 0 [⟨S128, ba⟩, ⟨S128, bb⟩, ⟨S128, bc⟩] hcb) hs) (ix2 (0 : Fin 1) (Spec.col384 128 q (by decide))) = _
  rw [Spec.wordB_apply1]
  exact congrArg (· + _) (Finset.sum_congr rfl fun k _ => by rw [Spec.wordW_apply1])

/-- Columns 256 … 383 of the wide word projection are the projection by the third weight matrix and bias. -/
theorem G0_band2 (feat : S50000x300.Idx → Elt Ideal .f32) (Wa Wb Wc : S128x300.Idx → Elt Ideal .f32) (ba bb bc : S128.Idx → Elt Ideal .f32)
    (ht : S128x300.Transposes [1, 0] S300x128) (hc : Shape.Concatenates [S300x128, S300x128, S300x128] S300x384 1)
    (hcb : Shape.Concatenates [S128, S128, S128] S384 0) (hs : S384.ShapeCasts S1x384) (r : Fin 50000) (q : Fin 128) :
    G0 feat (concatenate S300x384 1 [⟨S300x128, transpose S300x128 [1, 0] Wa ht⟩, ⟨S300x128, transpose S300x128 [1, 0] Wb ht⟩, ⟨S300x128, transpose S300x128 [1, 0] Wc ht⟩] hc) (shapeCast S1x384 (concatenate S384 0 [⟨S128, ba⟩, ⟨S128, bb⟩, ⟨S128, bc⟩] hcb) hs) (ix2 r (Spec.col384 256 q (by decide)))
      = (∑ k : Fin 300, feat (ix2 r k) * Wc (ix2 q k)) + bc (ix1 q) := by
  show (∑ k : Fin 300, feat (ix2 r k) * (concatenate S300x384 1 [⟨S300x128, transpose S300x128 [1, 0] Wa ht⟩, ⟨S300x128, transpose S300x128 [1, 0] Wb ht⟩, ⟨S300x128, transpose S300x128 [1, 0] Wc ht⟩] hc) (ix2 k (Spec.col384 256 q (by decide))))
      + (shapeCast S1x384 (concatenate S384 0 [⟨S128, ba⟩, ⟨S128, bb⟩, ⟨S128, bc⟩] hcb) hs) (ix2 (0 : Fin 1) (Spec.col384 256 q (by decide))) = _
  rw [Spec.wordB_apply2]
  exact congrArg (· + _) (Finset.sum_congr rfl fun k _ => by rw [Spec.wordW_apply2])

/-- Columns 0 … 127 of the wide topic projection are the projection by the first weight matrix and bias. -/
theorem G1_band0 (feat : S2000x128.Idx → Elt Ideal .f32) (Wa Wb : S128x128.Idx → Elt Ideal .f32) (ba bb : S128.Idx → Elt Ideal .f32)
    (ht : S128x128.Transposes [1, 0] S128x128) (hc : Shape.Concatenates [S128x128, S128x128] S128x256 1)
    (hcb : Shape.Concatenates [S128, S128] S256 0) (hs : S256.ShapeCasts S1x256) (r : Fin 2000) (q : Fin 128) :
    G1 feat (concatenate S128x256 1 [⟨S128x128, transpose S128x128 [1, 0] Wa ht⟩, ⟨S128x128, transpose S128x128 [1, 0] Wb ht⟩] hc) (shapeCast S1x256 (concatenate S256 0 [⟨S128, ba⟩, ⟨S128, bb⟩] hcb) hs) (ix2 r (Spec.col256 0 q (by decide)))
      = (∑ k : Fin 128, feat (ix2 r k) * Wa (ix2 q k)) + ba (ix1 q) := by
  show (∑ k : Fin 128, feat (ix2 r k) * (concatenate S128x256 1 [⟨S128x128, transpose S128x128 [1, 0] Wa ht⟩, ⟨S128x128, transpose S128x128 [1, 0] Wb ht⟩] hc) (ix2 k (Spec.col256 0 q (by decide))))
      + (shapeCast S1x256 (concatenate S256 0 [⟨S128, ba⟩, ⟨S128, bb⟩] hcb) hs) (ix2 (0 : Fin 1) (Spec.col256 0 q (by decide))) = _
  rw [Spec.topicB_apply0]
  exact congrArg (· + _) (Finset.sum_congr rfl fun k _ => by rw [Spec.topicW_apply0])

/-- Columns 128 … 255 of the wide topic projection are the projection by the second weight matrix and bias. -/
theorem G1_band1 (feat : S2000x128.Idx → Elt Ideal .f32) (Wa Wb : S128x128.Idx → Elt Ideal .f32) (ba bb : S128.Idx → Elt Ideal .f32)
    (ht : S128x128.Transposes [1, 0] S128x128) (hc : Shape.Concatenates [S128x128, S128x128] S128x256 1)
    (hcb : Shape.Concatenates [S128, S128] S256 0) (hs : S256.ShapeCasts S1x256) (r : Fin 2000) (q : Fin 128) :
    G1 feat (concatenate S128x256 1 [⟨S128x128, transpose S128x128 [1, 0] Wa ht⟩, ⟨S128x128, transpose S128x128 [1, 0] Wb ht⟩] hc) (shapeCast S1x256 (concatenate S256 0 [⟨S128, ba⟩, ⟨S128, bb⟩] hcb) hs) (ix2 r (Spec.col256 128 q (by decide)))
      = (∑ k : Fin 128, feat (ix2 r k) * Wb (ix2 q k)) + bb (ix1 q) := by
  show (∑ k : Fin 128, feat (ix2 r k) * (concatenate S128x256 1 [⟨S128x128, transpose S128x128 [1, 0] Wa ht⟩, ⟨S128x128, transpose S128x128 [1, 0] Wb ht⟩] hc) (ix2 k (Spec.col256 128 q (by decide))))
      + (shapeCast S1x256 (concatenate S256 0 [⟨S128, ba⟩, ⟨S128, bb⟩] hcb) hs) (ix2 (0 : Fin 1) (Spec.col256 128 q (by decide))) = _
  rw [Spec.topicB_apply1]
  exact congrArg (· + _) (Finset.sum_congr rfl fun k _ => by rw [Spec.topicW_apply1])

end Cert.KernelIdeal.Hand

end
-- ==== Proof.RefTail.lean ====
/-
  The part of the computation both programs share, named once.  After the dense projections `Wh = feat · Wᵀ + b`, each
  result is an edge aggregation of projected rows: gather the projected row of every edge's source, scale it by the edge
  weight, sum the scaled rows into the edge's destination, and divide each destination row by its in-degree (at least
  one); the topic and the document results are sums of two such aggregations.  `res0`, `res1`, `res2` are the three
  results as functions of the projections and of the edge lists and weights; `projWord` and `projTopic` are the
  reference's projections of the word and of the topic table.
-/
import proofs.«168681_j51058571214897_1_alg».proof.Proof.Gen.ReferenceIdeal

noncomputable section

namespace Cert.ReferenceIdeal.Tail

open Cert.ReferenceIdeal Cert.ReferenceIdeal.Gen Idealize.ShloMosaic Idealize.SL.Sem

variable {F : FTy → Type} [FloatOps F]

/-- The projection of the word table by one edge type's weights: `feat · Wᵀ + b`, 50000 rows of 128. -/
def projWord (feat : (⟨S50000x300, .f32⟩ : BufTy).Contents (Elt F)) (W : (⟨S128x300, .f32⟩ : BufTy).Contents (Elt F)) (b : (⟨S128, .f32⟩ : BufTy).Contents (Elt F)) : (⟨S50000x128, .f32⟩ : BufTy).Contents (Elt F) :=
  addf (Host.dotGeneral dot_S50000x300_S300x128_S50000x128_1_0_0_1_n_n none feat (transpose S300x128 [1, 0] W transposes_S128x300_S300x128_1_0)) (broadcastInDim S50000x128 ![0, 1] bcast_S1x128_S50000x128_0_1 (broadcastInDim S1x128 ![1] bcast_S128_S1x128_1 b))

/-- The projection of the topic table by one edge type's weights: `feat · Wᵀ + b`, 2000 rows of 128. -/
def projTopic (feat : (⟨S2000x128, .f32⟩ : BufTy).Contents (Elt F)) (W : (⟨S128x128, .f32⟩ : BufTy).Contents (Elt F)) (b : (⟨S128, .f32⟩ : BufTy).Contents (Elt F)) : (⟨S2000x128, .f32⟩ : BufTy).Contents (Elt F) :=
  addf (Host.dotGeneral dot_S2000x128_S128x128_S2000x128_1_0_0_1_n_n none feat (transpose S128x128 [1, 0] W transposes_S128x128_S128x128_1_0)) (broadcastInDim S2000x128 ![0, 1] bcast_S1x128_S2000x128_0_1 (broadcastInDim S1x128 ![1] bcast_S128_S1x128_1 b))

/-- The word result: the word-to-word aggregation of the projected word rows `wh0`. -/
def res0 (a3 : (⟨S1000000, .i32⟩ : BufTy).Contents (Elt F)) (wh0 : (⟨S50000x128, .f32⟩ : BufTy).Contents (Elt F)) (a2 : (⟨S1000000, .i32⟩ : BufTy).Contents (Elt F)) (a12 : (⟨S1000000, .f32⟩ : BufTy).Contents (Elt F)) : (⟨S50000x128, .f32⟩ : BufTy).Contents (Elt F) :=
  Host.divf (Host.scatterAdd scatter_S50000x128_S1000000x1_S1000000x128_1_0_0_1 (broadcastInDim S50000x128 ![] bcast_S_S50000x128 (constant S_ .f32 0x00000000#32)) (broadcastInDim S1000000x1 ![0] bcast_S1000000_S1000000x1_0 a3) (mulf (Host.gather gather_S50000x128_S1000000x1_S1000000x128_1_0_n_n_0_1_1128 wh0 (broadcastInDim S1000000x1 ![0] bcast_S1000000_S1000000x1_0 (select (cmpi .slt a2 (broadcastInDim S1000000 ![] bcast_S_S1000000 (constantI S_ 32 0#32))) (addi a2 (broadcastInDim S1000000 ![] bcast_S_S1000000 (constantI S_ 32 50000#32))) a2))) (broadcastInDim S1000000x128 ![0, 1] bcast_S1000000x1_S1000000x128_0_1 (broadcastInDim S1000000x1 ![0] bcast_S1000000_S1000000x1_0 a12)))) (broadcastInDim S50000x128 ![0, 1] bcast_S50000x1_S50000x128_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 a3) (broadcastInDim S1000000 ![] bcast_S_S1000000 (constant S_ .f32 0x3F800000#32))) (broadcastInDim S50000 ![] bcast_S_S50000 (constant S_ .f32 0x3F800000#32)))))

/-- The topic result: the word-to-topic aggregation of `wh1` plus the topic-to-topic aggregation of `wh2`. -/
def res1 (a5 : (⟨S500000, .i32⟩ : BufTy).Contents (Elt F)) (wh1 : (⟨S50000x128, .f32⟩ : BufTy).Contents (Elt F)) (a4 : (⟨S500000, .i32⟩ : BufTy).Contents (Elt F)) (a13 : (⟨S500000, .f32⟩ : BufTy).Contents (Elt F)) (a11 : (⟨S100000, .i32⟩ : BufTy).Contents (Elt F)) (wh2 : (⟨S2000x128, .f32⟩ : BufTy).Contents (Elt F)) (a10 : (⟨S100000, .i32⟩ : BufTy).Contents (Elt F)) (a16 : (⟨S100000, .f32⟩ : BufTy).Contents (Elt F)) : (⟨S2000x128, .f32⟩ : BufTy).Contents (Elt F) :=
  addf (Host.divf (Host.scatterAdd scatter_S2000x128_S500000x1_S500000x128_1_0_0_1 (broadcastInDim S2000x128 ![] bcast_S_S2000x128 (constant S_ .f32 0x00000000#32)) (broadcastInDim S500000x1 ![0] bcast_S500000_S500000x1_0 a5) (mulf (Host.gather gather_S50000x128_S500000x1_S500000x128_1_0_n_n_0_1_1128 wh1 (broadcastInDim S500000x1 ![0] bcast_S500000_S500000x1_0 (select (cmpi .slt a4 (broadcastInDim S500000 ![] bcast_S_S500000 (constantI S_ 32 0#32))) (addi a4 (broadcastInDim S500000 ![] bcast_S_S500000 (constantI S_ 32 50000#32))) a4))) (broadcastInDim S500000x128 ![0, 1] bcast_S500000x1_S500000x128_0_1 (broadcastInDim S500000x1 ![0] bcast_S500000_S500000x1_0 a13)))) (broadcastInDim S2000x128 ![0, 1] bcast_S2000x1_S2000x128_0_1 (broadcastInDim S2000x1 ![0] bcast_S2000_S2000x1_0 (maximumf (Host.scatterAdd scatter_S2000_S500000x1_S500000_n_0_0_1 (broadcastInDim S2000 ![] bcast_S_S2000 (constant S_ .f32 0x00000000#32)) (broadcastInDim S500000x1 ![0] bcast_S500000_S500000x1_0 a5) (broadcastInDim S500000 ![] bcast_S_S500000 (constant S_ .f32 0x3F800000#32))) (broadcastInDim S2000 ![] bcast_S_S2000 (constant S_ .f32 0x3F800000#32)))))) (Host.divf (Host.scatterAdd scatter_S2000x128_S100000x1_S100000x128_1_0_0_1 (broadcastInDim S2000x128 ![] bcast_S_S2000x128 (constant S_ .f32 0x00000000#32)) (broadcastInDim S100000x1 ![0] bcast_S100000_S100000x1_0 a11) (mulf (Host.gather gather_S2000x128_S100000x1_S100000x128_1_0_n_n_0_1_1128 wh2 (broadcastInDim S100000x1 ![0] bcast_S100000_S100000x1_0 (select (cmpi .slt a10 (broadcastInDim S100000 ![] bcast_S_S100000 (constantI S_ 32 0#32))) (addi a10 (broadcastInDim S100000 ![] bcast_S_S100000 (constantI S_ 32 2000#32))) a10))) (broadcastInDim S100000x128 ![0, 1] bcast_S100000x1_S100000x128_0_1 (broadcastInDim S100000x1 ![0] bcast_S100000_S100000x1_0 a16)))) (broadcastInDim S2000x128 ![0, 1] bcast_S2000x1_S2000x128_0_1 (broadcastInDim S2000x1 ![0] bcast_S2000_S2000x1_0 (maximumf (Host.scatterAdd scatter_S2000_S100000x1_S100000_n_0_0_1 (broadcastInDim S2000 ![] bcast_S_S2000 (constant S_ .f32 0x00000000#32)) (broadcastInDim S100000x1 ![0] bcast_S100000_S100000x1_0 a11) (broadcastInDim S100000 ![] bcast_S_S100000 (constant S_ .f32 0x3F800000#32))) (broadcastInDim S2000 ![] bcast_S_S2000 (constant S_ .f32 0x3F800000#32))))))

/-- The document result: the word-to-document aggregation of `wh3` plus the topic-to-document aggregation of `wh4`. -/
def res2 (a7 : (⟨S600000, .i32⟩ : BufTy).Contents (Elt F)) (wh3 : (⟨S50000x128, .f32⟩ : BufTy).Contents (Elt F)) (a6 : (⟨S600000, .i32⟩ : BufTy).Contents (Elt F)) (a14 : (⟨S600000, .f32⟩ : BufTy).Contents (Elt F)) (a9 : (⟨S150000, .i32⟩ : BufTy).Contents (Elt F)) (wh4 : (⟨S2000x128, .f32⟩ : BufTy).Contents (Elt F)) (a8 : (⟨S150000, .i32⟩ : BufTy).Contents (Elt F)) (a15 : (⟨S150000, .f32⟩ : BufTy).Contents (Elt F)) : (⟨S20000x128, .f32⟩ : BufTy).Contents (Elt F) :=
  addf (Host.divf (Host.scatterAdd scatter_S20000x128_S600000x1_S600000x128_1_0_0_1 (broadcastInDim S20000x128 ![] bcast_S_S20000x128 (constant S_ .f32 0x00000000#32)) (broadcastInDim S600000x1 ![0] bcast_S600000_S600000x1_0 a7) (mulf (Host.gather gather_S50000x128_S600000x1_S600000x128_1_0_n_n_0_1_1128 wh3 (broadcastInDim S600000x1 ![0] bcast_S600000_S600000x1_0 (select (cmpi .slt a6 (broadcastInDim S600000 ![] bcast_S_S600000 (constantI S_ 32 0#32))) (addi a6 (broadcastInDim S600000 ![] bcast_S_S600000 (constantI S_ 32 50000#32))) a6))) (broadcastInDim S600000x128 ![0, 1] bcast_S600000x1_S600000x128_0_1 (broadcastInDim S600000x1 ![0] bcast_S600000_S600000x1_0 a14)))) (broadcastInDim S20000x128 ![0, 1] bcast_S20000x1_S20000x128_0_1 (broadcastInDim S20000x1 ![0] bcast_S20000_S20000x1_0 (maximumf (Host.scatterAdd scatter_S20000_S600000x1_S600000_n_0_0_1 (broadcastInDim S20000 ![] bcast_S_S20000 (constant S_ .f32 0x00000000#32)) (broadcastInDim S600000x1 ![0] bcast_S600000_S600000x1_0 a7) (broadcastInDim S600000 ![] bcast_S_S600000 (constant S_ .f32 0x3F800000#32))) (broadcastInDim S20000 ![] bcast_S_S20000 (constant S_ .f32 0x3F800000#32)))))) (Host.divf (Host.scatterAdd scatter_S20000x128_S150000x1_S150000x128_1_0_0_1 (broadcastInDim S20000x128 ![] bcast_S_S20000x128 (constant S_ .f32 0x00000000#32)) (broadcastInDim S150000x1 ![0] bcast_S150000_S150000x1_0 a9) (mulf (Host.gather gather_S2000x128_S150000x1_S150000x128_1_0_n_n_0_1_1128 wh4 (broadcastInDim S150000x1 ![0] bcast_S150000_S150000x1_0 (select (cmpi .slt a8 (broadcastInDim S150000 ![] bcast_S_S150000 (constantI S_ 32 0#32))) (addi a8 (broadcastInDim S150000 ![] bcast_S_S150000 (constantI S_ 32 2000#32))) a8))) (broadcastInDim S150000x128 ![0, 1] bcast_S150000x1_S150000x128_0_1 (broadcastInDim S150000x1 ![0] bcast_S150000_S150000x1_0 a15)))) (broadcastInDim S20000x128 ![0, 1] bcast_S20000x1_S20000x128_0_1 (broadcastInDim S20000x1 ![0] bcast_S20000_S20000x1_0 (maximumf (Host.scatterAdd scatter_S20000_S150000x1_S150000_n_0_0_1 (broadcastInDim S20000 ![] bcast_S_S20000 (constant S_ .f32 0x00000000#32)) (broadcastInDim S150000x1 ![0] bcast_S150000_S150000x1_0 a9) (broadcastInDim S150000 ![] bcast_S_S150000 (constant S_ .f32 0x3F800000#32))) (broadcastInDim S20000 ![] bcast_S_S20000 (constant S_ .f32 0x3F800000#32))))))

end Cert.ReferenceIdeal.Tail

end
-- ==== Proof.SpecRef.lean ====
/-
  The reference's projections read at an index, at the ideal values.

  For each edge type the reference transposes the weights, multiplies the source table by them (one contracted axis),
  broadcasts the bias over the rows and adds. At row `r` and column `q` that is the sum over the shared axis of the
  table's row `r` against the weights' row `q`, plus the bias at `q`: on the extended reals, with no rounding and no
  order of summation left in it.
-/
import proofs.«168681_j51058571214897_1_alg».proof.Proof.RefTail
import proofs.«168681_j51058571214897_1_alg».proof.Proof.LibMatmulSum
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Spec

open Cert.ReferenceIdeal Idealize.ShloMosaic Idealize.ShloMosaic.ValueIdx

variable [Cert.ReferenceIdeal.Facts₀]

/-- The projection of the word table, 50000 rows of 300, by one edge type's [128, 300] weights and [128] bias. -/
theorem projWord_apply (feat : (⟨S50000x300, .f32⟩ : BufTy).Contents (Elt Ideal)) (W : (⟨S128x300, .f32⟩ : BufTy).Contents (Elt Ideal))
    (b : (⟨S128, .f32⟩ : BufTy).Contents (Elt Ideal)) (r : Fin 50000) (q : Fin 128) :
    Cert.ReferenceIdeal.Tail.projWord (F := Ideal) feat W b (ix2 r q) = (∑ k : Fin 300, feat (ix2 r k) * W (ix2 q k)) + b (ix1 q) := by
  unfold Cert.ReferenceIdeal.Tail.projWord
  refine (addf_apply _ _ _).trans ?_
  refine congrArg₂ (· + ·) ?_ ?_
  · refine (MatmulSum.dotGeneral_apply dot_S50000x300_S300x128_S50000x128_1_0_0_1_n_n rfl rfl rfl rfl rfl rfl none .single
      feat _ (ix2 r q)).trans ?_
    exact Finset.sum_congr rfl fun k _ => congrArg (feat (ix2 r k) * ·) (transpose_ix2_apply W _ k q)
  · refine (broadcastInDim_apply _ _ _ (ix2 r q) (ix2 (0 : Fin 1) q) fun a => ?_).trans ?_
    · match a with
      | ⟨0, _⟩ => exact (if_pos rfl).symm
      | ⟨1, _⟩ => show q.val = if (128 : Nat) = 1 then 0 else q.val; rw [if_neg (by decide)]
    · exact broadcastInDim_apply _ _ b (ix2 (0 : Fin 1) q) (ix1 q) fun a => by
        match a with
        | ⟨0, _⟩ => show q.val = if (128 : Nat) = 1 then 0 else q.val; rw [if_neg (by decide)]

/-- The projection of the topic table, 2000 rows of 128, by one edge type's [128, 128] weights and [128] bias. -/
theorem projTopic_apply (feat : (⟨S2000x128, .f32⟩ : BufTy).Contents (Elt Ideal)) (W : (⟨S128x128, .f32⟩ : BufTy).Contents (Elt Ideal))
    (b : (⟨S128, .f32⟩ : BufTy).Contents (Elt Ideal)) (r : Fin 2000) (q : Fin 128) :
    Cert.ReferenceIdeal.Tail.projTopic (F := Ideal) feat W b (ix2 r q) = (∑ k : Fin 128, feat (ix2 r k) * W (ix2 q k)) + b (ix1 q) := by
  unfold Cert.ReferenceIdeal.Tail.projTopic
  refine (addf_apply _ _ _).trans ?_
  refine congrArg₂ (· + ·) ?_ ?_
  · refine (MatmulSum.dotGeneral_apply dot_S2000x128_S128x128_S2000x128_1_0_0_1_n_n rfl rfl rfl rfl rfl rfl none .single
      feat _ (ix2 r q)).trans ?_
    exact Finset.sum_congr rfl fun k _ => congrArg (feat (ix2 r k) * ·) (transpose_ix2_apply W _ k q)
  · refine (broadcastInDim_apply _ _ _ (ix2 r q) (ix2 (0 : Fin 1) q) fun a => ?_).trans ?_
    · match a with
      | ⟨0, _⟩ => exact (if_pos rfl).symm
      | ⟨1, _⟩ => show q.val = if (128 : Nat) = 1 then 0 else q.val; rw [if_neg (by decide)]
    · exact broadcastInDim_apply _ _ b (ix2 (0 : Fin 1) q) (ix1 q) fun a => by
        match a with
        | ⟨0, _⟩ => show q.val = if (128 : Nat) = 1 then 0 else q.val; rw [if_neg (by decide)]

end Cert.ReferenceIdeal.Spec

end
-- ==== Proof.KIFinal.lean ====
/-
  The kernel's three results at the exact instance.  The ten host operations before the first kernel stack the transposed
  weight matrices and the biases; each kernel leaves the wide projection of its table (the fold's region steps); the
  slices of the wide projections are the per-edge-type projections the reference computes (band by band); and the last
  147 host operations are the reference's own edge aggregations applied to those slices.  So each result buffer ends at
  the reference's composed term of the launch contents of the arguments.
-/
import proofs.«168681_j51058571214897_1_alg».proof.Proof.KIRun
import proofs.«168681_j51058571214897_1_alg».proof.Proof.KIBand
import proofs.«168681_j51058571214897_1_alg».proof.Proof.SpecRef
import Idealize.ShloMosaic.Lib.StableHlo.Run

set_option maxRecDepth 16384

noncomputable section

namespace Cert.KernelIdeal.Hand

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen
open scoped BigOperators

variable (m : (ℓ : Loc nD τ sig) → Buf (Elt Ideal) ℓ) (ρ : Dev nD → PrngReg)

/-! ## The stacked weights and biases, after the first ten host operations -/

theorem W1_arg0 (c : Dev nD) : W1 m ρ c (Proc.devRef .tc main_arg0) = (m ((c : Thread nD τ).loc main_arg0)) :=
  (StableHlo.after_of_writes_sub hostOps0 _ hostOps0_writes (by decide)).trans rfl
theorem W1_v3 (c : Dev nD) : W1 m ρ c (Proc.devRef .tc main_v3) = (concatenate S300x384 1 [⟨S300x128, transpose S300x128 [1, 0] (m ((c : Thread nD τ).loc main_arg17)) transposes_S128x300_S300x128_1_0⟩, ⟨S300x128, transpose S300x128 [1, 0] (m ((c : Thread nD τ).loc main_arg19)) transposes_S128x300_S300x128_1_0⟩, ⟨S300x128, transpose S300x128 [1, 0] (m ((c : Thread nD τ).loc main_arg21)) transposes_S128x300_S300x128_1_0⟩] concatenates_S300x128_S300x128_S300x128_S300x384_d1) := by
  after_results <;> rfl
theorem W1_v9 (c : Dev nD) : W1 m ρ c (Proc.devRef .tc main_v9) = (shapeCast S1x384 (concatenate S384 0 [⟨S128, (m ((c : Thread nD τ).loc main_arg18))⟩, ⟨S128, (m ((c : Thread nD τ).loc main_arg20))⟩, ⟨S128, (m ((c : Thread nD τ).loc main_arg22))⟩] concatenates_S128_S128_S128_S384_d0) shapeCasts_S384_S1x384) := by
  after_results <;> rfl
theorem W1_v7 (c : Dev nD) : W1 m ρ c (Proc.devRef .tc main_v7) = (concatenate S128x256 1 [⟨S128x128, transpose S128x128 [1, 0] (m ((c : Thread nD τ).loc main_arg25)) transposes_S128x128_S128x128_1_0⟩, ⟨S128x128, transpose S128x128 [1, 0] (m ((c : Thread nD τ).loc main_arg23)) transposes_S128x128_S128x128_1_0⟩] concatenates_S128x128_S128x128_S128x256_d1) := by
  after_results <;> rfl
theorem W1_v8 (c : Dev nD) : W1 m ρ c (Proc.devRef .tc main_v8) = (concatenate S256 0 [⟨S128, (m ((c : Thread nD τ).loc main_arg26))⟩, ⟨S128, (m ((c : Thread nD τ).loc main_arg24))⟩] concatenates_S128_S128_S256_d0) := by
  after_results <;> rfl

/-! ## The same buffers where region 1 reads them -/

theorem W3_arg1 (c : Dev nD) : W3 m ρ c (Proc.devRef .tc main_arg1) = (m ((c : Thread nD τ).loc main_arg1)) :=
  calc W3 m ρ c (Proc.devRef .tc main_arg1)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = (m ((c : Thread nD τ).loc main_arg1)) := rfl
theorem W3_v7 (c : Dev nD) : W3 m ρ c (Proc.devRef .tc main_v7) = (concatenate S128x256 1 [⟨S128x128, transpose S128x128 [1, 0] (m ((c : Thread nD τ).loc main_arg25)) transposes_S128x128_S128x128_1_0⟩, ⟨S128x128, transpose S128x128 [1, 0] (m ((c : Thread nD τ).loc main_arg23)) transposes_S128x128_S128x128_1_0⟩] concatenates_S128x128_S128x128_S128x256_d1) :=
  calc W3 m ρ c (Proc.devRef .tc main_v7)
    _ = W2 m ρ c (Proc.devRef .tc main_v7) := StableHlo.after_of_writes_sub hostOps1 _ hostOps1_writes (by decide)
    _ = W1 m ρ c (Proc.devRef .tc main_v7) := W2_of_ne m ρ c main_v7 (by decide)
    _ = _ := W1_v7 m ρ c
theorem W3_v11 (c : Dev nD) : W3 m ρ c (Proc.devRef .tc main_v11) = (shapeCast S1x256 (concatenate S256 0 [⟨S128, (m ((c : Thread nD τ).loc main_arg26))⟩, ⟨S128, (m ((c : Thread nD τ).loc main_arg24))⟩] concatenates_S128_S128_S256_d0) shapeCasts_S256_S1x256) := by
  have h : W3 m ρ c (Proc.devRef .tc main_v11) = shapeCast S1x256 (W2 m ρ c (Proc.devRef .tc main_v8)) shapeCasts_S256_S1x256 := by
    after_results <;> rfl
  rw [h, W2_of_ne m ρ c main_v8 (by decide), W1_v8]

/-! ## The wide projections where the last host operations read them -/

theorem W4_v10 (c : Dev nD) : W4 m ρ c (Proc.devRef .tc main_v10) = G0 (m ((c : Thread nD τ).loc main_arg0)) (concatenate S300x384 1 [⟨S300x128, transpose S300x128 [1, 0] (m ((c : Thread nD τ).loc main_arg17)) transposes_S128x300_S300x128_1_0⟩, ⟨S300x128, transpose S300x128 [1, 0] (m ((c : Thread nD τ).loc main_arg19)) transposes_S128x300_S300x128_1_0⟩, ⟨S300x128, transpose S300x128 [1, 0] (m ((c : Thread nD τ).loc main_arg21)) transposes_S128x300_S300x128_1_0⟩] concatenates_S300x128_S300x128_S300x128_S300x384_d1) (shapeCast S1x384 (concatenate S384 0 [⟨S128, (m ((c : Thread nD τ).loc main_arg18))⟩, ⟨S128, (m ((c : Thread nD τ).loc main_arg20))⟩, ⟨S128, (m ((c : Thread nD τ).loc main_arg22))⟩] concatenates_S128_S128_S128_S384_d0) shapeCasts_S384_S1x384) :=
  calc W4 m ρ c (Proc.devRef .tc main_v10)
    _ = W3 m ρ c (Proc.devRef .tc main_v10) := W4_of_ne m ρ c main_v10 (by decide)
    _ = W2 m ρ c (Proc.devRef .tc main_v10) := StableHlo.after_of_writes_sub hostOps1 _ hostOps1_writes (by decide)
    _ = (dat0 (V1 m ρ) c).arrAt 3 cfg0.N := W2_arr m ρ c 3
    _ = G0 (W1 m ρ c (Proc.devRef .tc main_arg0)) (W1 m ρ c (Proc.devRef .tc main_v3)) (W1 m ρ c (Proc.devRef .tc main_v9)) := final0 (V1 m ρ) c
    _ = _ := by rw [W1_arg0, W1_v3, W1_v9]
theorem W4_v12 (c : Dev nD) : W4 m ρ c (Proc.devRef .tc main_v12) = G1 (m ((c : Thread nD τ).loc main_arg1)) (concatenate S128x256 1 [⟨S128x128, transpose S128x128 [1, 0] (m ((c : Thread nD τ).loc main_arg25)) transposes_S128x128_S128x128_1_0⟩, ⟨S128x128, transpose S128x128 [1, 0] (m ((c : Thread nD τ).loc main_arg23)) transposes_S128x128_S128x128_1_0⟩] concatenates_S128x128_S128x128_S128x256_d1) (shapeCast S1x256 (concatenate S256 0 [⟨S128, (m ((c : Thread nD τ).loc main_arg26))⟩, ⟨S128, (m ((c : Thread nD τ).loc main_arg24))⟩] concatenates_S128_S128_S256_d0) shapeCasts_S256_S1x256) :=
  calc W4 m ρ c (Proc.devRef .tc main_v12)
    _ = (dat1 (V3 m ρ) c).arrAt 3 cfg1.N := W4_arr m ρ c 3
    _ = G1 (W3 m ρ c (Proc.devRef .tc main_arg1)) (W3 m ρ c (Proc.devRef .tc main_v7)) (W3 m ρ c (Proc.devRef .tc main_v11)) := final1 (V3 m ρ) c
    _ = _ := by rw [W3_arg1, W3_v7, W3_v11]

/-! ## Each 128-column slice is the reference's projection -/

theorem slice_ww (c : Dev nD) : (extractStridedSlice S50000x128 ![0, 0] (W4 m ρ c (Proc.devRef .tc main_v10)) slices_S50000x384_S50000x128_0_0)
    = (Cert.ReferenceIdeal.Tail.projWord (F := Ideal) (m ((c : Thread nD τ).loc main_arg0)) (m ((c : Thread nD τ).loc main_arg17)) (m ((c : Thread nD τ).loc main_arg18))) := by
  funext i
  obtain ⟨r, q, rfl⟩ : ∃ (r : Fin 50000) (q : Fin 128), i = ix2 r q := ⟨i 0, i 1, eq_ix2 i⟩
  refine ((Cert.KernelIdeal.Spec.wordSlice_apply 0 (by decide) _ _ r q).trans ?_).trans (Cert.ReferenceIdeal.Spec.projWord_apply _ _ _ r q).symm
  rw [W4_v10]
  exact G0_band0 _ _ _ _ _ _ _ _ _ _ _ r q

theorem slice_wt (c : Dev nD) : (extractStridedSlice S50000x128 ![0, 128] (W4 m ρ c (Proc.devRef .tc main_v10)) slices_S50000x384_S50000x128_0_128)
    = (Cert.ReferenceIdeal.Tail.projWord (F := Ideal) (m ((c : Thread nD τ).loc main_arg0)) (m ((c : Thread nD τ).loc main_arg19)) (m ((c : Thread nD τ).loc main_arg20))) := by
  funext i
  obtain ⟨r, q, rfl⟩ : ∃ (r : Fin 50000) (q : Fin 128), i = ix2 r q := ⟨i 0, i 1, eq_ix2 i⟩
  refine ((Cert.KernelIdeal.Spec.wordSlice_apply 128 (by decide) _ _ r q).trans ?_).trans (Cert.ReferenceIdeal.Spec.projWord_apply _ _ _ r q).symm
  rw [W4_v10]
  exact G0_band1 _ _ _ _ _ _ _ _ _ _ _ r q

theorem slice_wd (c : Dev nD) : (extractStridedSlice S50000x128 ![0, 256] (W4 m ρ c (Proc.devRef .tc main_v10)) slices_S50000x384_S50000x128_0_256)
    = (Cert.ReferenceIdeal.Tail.projWord (F := Ideal) (m ((c : Thread nD τ).loc main_arg0)) (m ((c : Thread nD τ).loc main_arg21)) (m ((c : Thread nD τ).loc main_arg22))) := by
  funext i
  obtain ⟨r, q, rfl⟩ : ∃ (r : Fin 50000) (q : Fin 128), i = ix2 r q := ⟨i 0, i 1, eq_ix2 i⟩
  refine ((Cert.KernelIdeal.Spec.wordSlice_apply 256 (by decide) _ _ r q).trans ?_).trans (Cert.ReferenceIdeal.Spec.projWord_apply _ _ _ r q).symm
  rw [W4_v10]
  exact G0_band2 _ _ _ _ _ _ _ _ _ _ _ r q

theorem slice_tt (c : Dev nD) : (extractStridedSlice S2000x128 ![0, 0] (W4 m ρ c (Proc.devRef .tc main_v12)) slices_S2000x256_S2000x128_0_0)
    = (Cert.ReferenceIdeal.Tail.projTopic (F := Ideal) (m ((c : Thread nD τ).loc main_arg1)) (m ((c : Thread nD τ).loc main_arg25)) (m ((c : Thread nD τ).loc main_arg26))) := by
  funext i
  obtain ⟨r, q, rfl⟩ : ∃ (r : Fin 2000) (q : Fin 128), i = ix2 r q := ⟨i 0, i 1, eq_ix2 i⟩
  refine ((Cert.KernelIdeal.Spec.topicSlice_apply 0 (by decide) _ _ r q).trans ?_).trans (Cert.ReferenceIdeal.Spec.projTopic_apply _ _ _ r q).symm
  rw [W4_v12]
  exact G1_band0 _ _ _ _ _ _ _ _ _ r q

theorem slice_td (c : Dev nD) : (extractStridedSlice S2000x128 ![0, 128] (W4 m ρ c (Proc.devRef .tc main_v12)) slices_S2000x256_S2000x128_0_128)
    = (Cert.ReferenceIdeal.Tail.projTopic (F := Ideal) (m ((c : Thread nD τ).loc main_arg1)) (m ((c : Thread nD τ).loc main_arg23)) (m ((c : Thread nD τ).loc main_arg24))) := by
  funext i
  obtain ⟨r, q, rfl⟩ : ∃ (r : Fin 2000) (q : Fin 128), i = ix2 r q := ⟨i 0, i 1, eq_ix2 i⟩
  refine ((Cert.KernelIdeal.Spec.topicSlice_apply 128 (by decide) _ _ r q).trans ?_).trans (Cert.ReferenceIdeal.Spec.projTopic_apply _ _ _ r q).symm
  rw [W4_v12]
  exact G1_band1 _ _ _ _ _ _ _ _ _ r q

/-! ## The three results -/

set_option maxHeartbeats 20000000 in
/-- Result 0 after the last host operations: the shared aggregation of the slices of the two wide projections. -/
theorem W5_res0_raw (c : Dev nD) : W5 m ρ c (Proc.devRef .tc main_v39) = Cert.ReferenceIdeal.Tail.res0 (F := Ideal) (W4 m ρ c (Proc.devRef .tc main_arg3)) (extractStridedSlice S50000x128 ![0, 0] (W4 m ρ c (Proc.devRef .tc main_v10)) slices_S50000x384_S50000x128_0_0) (W4 m ρ c (Proc.devRef .tc main_arg2)) (W4 m ρ c (Proc.devRef .tc main_arg12)) := by
  after_results_simp <;> rfl

/-- Result 0 as the reference states it: the shared aggregation of the reference's own projections. -/
theorem W5_res0 (c : Dev nD) : W5 m ρ c (Proc.devRef .tc main_v39) = Cert.ReferenceIdeal.Tail.res0 (F := Ideal) (m ((c : Thread nD τ).loc main_arg3)) (Cert.ReferenceIdeal.Tail.projWord (F := Ideal) (m ((c : Thread nD τ).loc main_arg0)) (m ((c : Thread nD τ).loc main_arg17)) (m ((c : Thread nD τ).loc main_arg18))) (m ((c : Thread nD τ).loc main_arg2)) (m ((c : Thread nD τ).loc main_arg12)) := by
  rw [W5_res0_raw, W4_main_arg3 m ρ c, slice_ww m ρ c, W4_main_arg2 m ρ c, W4_main_arg12 m ρ c]

set_option maxHeartbeats 20000000 in
/-- Result 1 after the last host operations: the shared aggregation of the slices of the two wide projections. -/
theorem W5_res1_raw (c : Dev nD) : W5 m ρ c (Proc.devRef .tc main_v84) = Cert.ReferenceIdeal.Tail.res1 (F := Ideal) (W4 m ρ c (Proc.devRef .tc main_arg5)) (extractStridedSlice S50000x128 ![0, 128] (W4 m ρ c (Proc.devRef .tc main_v10)) slices_S50000x384_S50000x128_0_128) (W4 m ρ c (Proc.devRef .tc main_arg4)) (W4 m ρ c (Proc.devRef .tc main_arg13)) (W4 m ρ c (Proc.devRef .tc main_arg11)) (extractStridedSlice S2000x128 ![0, 0] (W4 m ρ c (Proc.devRef .tc main_v12)) slices_S2000x256_S2000x128_0_0) (W4 m ρ c (Proc.devRef .tc main_arg10)) (W4 m ρ c (Proc.devRef .tc main_arg16)) := by
  after_results_simp <;> rfl

/-- Result 1 as the reference states it: the shared aggregation of the reference's own projections. -/
theorem W5_res1 (c : Dev nD) : W5 m ρ c (Proc.devRef .tc main_v84) = Cert.ReferenceIdeal.Tail.res1 (F := Ideal) (m ((c : Thread nD τ).loc main_arg5)) (Cert.ReferenceIdeal.Tail.projWord (F := Ideal) (m ((c : Thread nD τ).loc main_arg0)) (m ((c : Thread nD τ).loc main_arg19)) (m ((c : Thread nD τ).loc main_arg20))) (m ((c : Thread nD τ).loc main_arg4)) (m ((c : Thread nD τ).loc main_arg13)) (m ((c : Thread nD τ).loc main_arg11)) (Cert.ReferenceIdeal.Tail.projTopic (F := Ideal) (m ((c : Thread nD τ).loc main_arg1)) (m ((c : Thread nD τ).loc main_arg25)) (m ((c : Thread nD τ).loc main_arg26))) (m ((c : Thread nD τ).loc main_arg10)) (m ((c : Thread nD τ).loc main_arg16)) := by
  rw [W5_res1_raw, W4_main_arg5 m ρ c, slice_wt m ρ c, W4_main_arg4 m ρ c, W4_main_arg13 m ρ c, W4_main_arg11 m ρ c, slice_tt m ρ c, W4_main_arg10 m ρ c, W4_main_arg16 m ρ c]

set_option maxHeartbeats 20000000 in
/-- Result 2 after the last host operations: the shared aggregation of the slices of the two wide projections. -/
theorem W5_res2_raw (c : Dev nD) : W5 m ρ c (Proc.devRef .tc main_v129) = Cert.ReferenceIdeal.Tail.res2 (F := Ideal) (W4 m ρ c (Proc.devRef .tc main_arg7)) (extractStridedSlice S50000x128 ![0, 256] (W4 m ρ c (Proc.devRef .tc main_v10)) slices_S50000x384_S50000x128_0_256) (W4 m ρ c (Proc.devRef .tc main_arg6)) (W4 m ρ c (Proc.devRef .tc main_arg14)) (W4 m ρ c (Proc.devRef .tc main_arg9)) (extractStridedSlice S2000x128 ![0, 128] (W4 m ρ c (Proc.devRef .tc main_v12)) slices_S2000x256_S2000x128_0_128) (W4 m ρ c (Proc.devRef .tc main_arg8)) (W4 m ρ c (Proc.devRef .tc main_arg15)) := by
  after_results_simp <;> rfl

/-- Result 2 as the reference states it: the shared aggregation of the reference's own projections. -/
theorem W5_res2 (c : Dev nD) : W5 m ρ c (Proc.devRef .tc main_v129) = Cert.ReferenceIdeal.Tail.res2 (F := Ideal) (m ((c : Thread nD τ).loc main_arg7)) (Cert.ReferenceIdeal.Tail.projWord (F := Ideal) (m ((c : Thread nD τ).loc main_arg0)) (m ((c : Thread nD τ).loc main_arg21)) (m ((c : Thread nD τ).loc main_arg22))) (m ((c : Thread nD τ).loc main_arg6)) (m ((c : Thread nD τ).loc main_arg14)) (m ((c : Thread nD τ).loc main_arg9)) (Cert.ReferenceIdeal.Tail.projTopic (F := Ideal) (m ((c : Thread nD τ).loc main_arg1)) (m ((c : Thread nD τ).loc main_arg23)) (m ((c : Thread nD τ).loc main_arg24))) (m ((c : Thread nD τ).loc main_arg8)) (m ((c : Thread nD τ).loc main_arg15)) := by
  rw [W5_res2_raw, W4_main_arg7 m ρ c, slice_wd m ρ c, W4_main_arg6 m ρ c, W4_main_arg14 m ρ c, W4_main_arg9 m ρ c, slice_td m ρ c, W4_main_arg8 m ρ c, W4_main_arg15 m ρ c]

end Cert.KernelIdeal.Hand

end
-- ==== Proof.lean ====
/-
  The certificate's five claims.

  Both programs compute, for each of five edge types, a dense projection Wh = feat · Wᵀ + b of the source table and then
  the mean, over the edges into each destination node, of the edge-weighted projected source rows.  The reference
  computes the five projections one by one.  The kernel stacks the transposed weight matrices of the edge types that
  share a source table side by side (three for the word table, two for the topic table), computes one wide projection
  per table in a pipelined kernel over blocks of 2000 rows, and slices the result into its 128-column bands.  Over the
  extended reals band j of feat · [W₀ᵀ | W₁ᵀ | W₂ᵀ] + [b₀ | b₁ | b₂] is feat · W_jᵀ + b_j entry by entry, each entry being
  the same finite sum of the same products, so no finiteness of the inputs is used; the edge aggregation that follows is
  the same sequence of operations in both programs and is applied to equal projections.

  The frames of the two kernel programs are the run of @main through its five segments (host operations, the word-table
  kernel on 25 grid points, a host operation, the topic-table kernel on one grid point, host operations): every weakly
  fair execution terminates without fault and no argument buffer is ever written.  The reference's frame is its run
  with the results dropped.  The idealization rewrote no operation, so there is nothing to preserve.
-/
import proofs.«168681_j51058571214897_1_alg».proof.Defs
import proofs.«168681_j51058571214897_1_alg».proof.Proof.Gen.Kernel
import proofs.«168681_j51058571214897_1_alg».proof.Proof.Gen.Kernel.Skeleton
import proofs.«168681_j51058571214897_1_alg».proof.Proof.Gen.Kernel.Launch
import proofs.«168681_j51058571214897_1_alg».proof.Proof.Gen.Kernel.Regions
import proofs.«168681_j51058571214897_1_alg».proof.Proof.Gen.Kernel.Points
import proofs.«168681_j51058571214897_1_alg».proof.Proof.Gen.KernelIdeal
import proofs.«168681_j51058571214897_1_alg».proof.Proof.Gen.KernelIdeal.Skeleton
import proofs.«168681_j51058571214897_1_alg».proof.Proof.Gen.KernelIdeal.Launch
import proofs.«168681_j51058571214897_1_alg».proof.Proof.Gen.KernelIdeal.Regions
import proofs.«168681_j51058571214897_1_alg».proof.Proof.Gen.KernelIdeal.Points
import proofs.«168681_j51058571214897_1_alg».proof.Proof.Gen.ReferenceIdeal
import proofs.«168681_j51058571214897_1_alg».proof.Proof.Gen.ReferenceIdeal.Run
import proofs.«168681_j51058571214897_1_alg».proof.Proof.Gen.Pre_finite_inputs
import proofs.«168681_j51058571214897_1_alg».proof.Proof.KRun
import proofs.«168681_j51058571214897_1_alg».proof.Proof.KIFinal
import Idealize.ShloMosaic.Adequacy
import Idealize.ShloMosaic.Init

set_option maxRecDepth 16384

noncomputable section

namespace Cert.Proof

open Idealize.ShloMosaic Idealize.SL.Sem

/-- The word-level kernel program runs to the end and leaves its arguments as launched. -/
theorem frame_kernel : Cert.frame_Kernel := fun m ρ _ => Cert.Kernel.Hand.frame m ρ

/-- So does its idealization, read at the extended reals. -/
theorem frame_kernelIdeal : Cert.frame_KernelIdeal := fun m ρ _ => Cert.KernelIdeal.Hand.frame m ρ

/-- The reference's frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

set_option maxHeartbeats 4000000 in
/-- From memories that agree on the arguments both programs end with each result at the shared edge aggregation of the
    reference's projections of the launch contents. -/
theorem algebraic : Cert.algebraic_KernelIdeal_ReferenceIdeal := by
  intro m ρ m' ρ' _ hagree
  refine ⟨fun c => Cert.ReferenceIdeal.Tail.res0 (F := Ideal) (m ((c.tc : Thread Cert.KernelIdeal.nD Cert.KernelIdeal.τ).loc Cert.KernelIdeal.main_arg3)) (Cert.ReferenceIdeal.Tail.projWord (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) (m ((c.tc : Thread Cert.KernelIdeal.nD Cert.KernelIdeal.τ).loc Cert.KernelIdeal.main_arg2)) (m ((c.tc : Thread Cert.KernelIdeal.nD Cert.KernelIdeal.τ).loc Cert.KernelIdeal.main_arg12)),
    fun c => Cert.ReferenceIdeal.Tail.res1 (F := Ideal) (m ((c.tc : Thread Cert.KernelIdeal.nD Cert.KernelIdeal.τ).loc Cert.KernelIdeal.main_arg5)) (Cert.ReferenceIdeal.Tail.projWord (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) (m ((c.tc : Thread Cert.KernelIdeal.nD Cert.KernelIdeal.τ).loc Cert.KernelIdeal.main_arg4)) (m ((c.tc : Thread Cert.KernelIdeal.nD Cert.KernelIdeal.τ).loc Cert.KernelIdeal.main_arg13)) (m ((c.tc : Thread Cert.KernelIdeal.nD Cert.KernelIdeal.τ).loc Cert.KernelIdeal.main_arg11)) (Cert.ReferenceIdeal.Tail.projTopic (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) (m ((c.tc : Thread Cert.KernelIdeal.nD Cert.KernelIdeal.τ).loc Cert.KernelIdeal.main_arg10)) (m ((c.tc : Thread Cert.KernelIdeal.nD Cert.KernelIdeal.τ).loc Cert.KernelIdeal.main_arg16)),
    fun c => Cert.ReferenceIdeal.Tail.res2 (F := Ideal) (m ((c.tc : Thread Cert.KernelIdeal.nD Cert.KernelIdeal.τ).loc Cert.KernelIdeal.main_arg7)) (Cert.ReferenceIdeal.Tail.projWord (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) (m ((c.tc : Thread Cert.KernelIdeal.nD Cert.KernelIdeal.τ).loc Cert.KernelIdeal.main_arg6)) (m ((c.tc : Thread Cert.KernelIdeal.nD Cert.KernelIdeal.τ).loc Cert.KernelIdeal.main_arg14)) (m ((c.tc : Thread Cert.KernelIdeal.nD Cert.KernelIdeal.τ).loc Cert.KernelIdeal.main_arg9)) (Cert.ReferenceIdeal.Tail.projTopic (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) (m ((c.tc : Thread Cert.KernelIdeal.nD Cert.KernelIdeal.τ).loc Cert.KernelIdeal.main_arg8)) (m ((c.tc : Thread Cert.KernelIdeal.nD Cert.KernelIdeal.τ).loc Cert.KernelIdeal.main_arg15)), ?_, ?_⟩
  · exact (θ_run Cert.KernelIdeal.defs _ _).mono (fun r h c =>
      ⟨(h c _ (Cert.KernelIdeal.Hand.mem_uc Cert.KernelIdeal.main_v39 (by decide))).trans (Cert.KernelIdeal.Hand.W5_res0 m ρ c),
       (h c _ (Cert.KernelIdeal.Hand.mem_uc Cert.KernelIdeal.main_v84 (by decide))).trans (Cert.KernelIdeal.Hand.W5_res1 m ρ c),
       (h c _ (Cert.KernelIdeal.Hand.mem_uc Cert.KernelIdeal.main_v129 (by decide))).trans (Cert.KernelIdeal.Hand.W5_res2 m ρ c),
       (h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c),
       (h c _ (Cert.KernelIdeal.Hand.mem_uc Cert.KernelIdeal.main_arg2 (by decide))).trans (Cert.KernelIdeal.Hand.W5_main_arg2 m ρ c),
       (h c _ (Cert.KernelIdeal.Hand.mem_uc Cert.KernelIdeal.main_arg3 (by decide))).trans (Cert.KernelIdeal.Hand.W5_main_arg3 m ρ c),
       (h c _ (Cert.KernelIdeal.Hand.mem_uc Cert.KernelIdeal.main_arg4 (by decide))).trans (Cert.KernelIdeal.Hand.W5_main_arg4 m ρ c),
       (h c _ (Cert.KernelIdeal.Hand.mem_uc Cert.KernelIdeal.main_arg5 (by decide))).trans (Cert.KernelIdeal.Hand.W5_main_arg5 m ρ c),
       (h c _ (Cert.KernelIdeal.Hand.mem_uc Cert.KernelIdeal.main_arg6 (by decide))).trans (Cert.KernelIdeal.Hand.W5_main_arg6 m ρ c),
       (h c _ (Cert.KernelIdeal.Hand.mem_uc Cert.KernelIdeal.main_arg7 (by decide))).trans (Cert.KernelIdeal.Hand.W5_main_arg7 m ρ c),
       (h c _ (Cert.KernelIdeal.Hand.mem_uc Cert.KernelIdeal.main_arg8 (by decide))).trans (Cert.KernelIdeal.Hand.W5_main_arg8 m ρ c),
       (h c _ (Cert.KernelIdeal.Hand.mem_uc Cert.KernelIdeal.main_arg9 (by decide))).trans (Cert.KernelIdeal.Hand.W5_main_arg9 m ρ c),
       (h c _ (Cert.KernelIdeal.Hand.mem_uc Cert.KernelIdeal.main_arg10 (by decide))).trans (Cert.KernelIdeal.Hand.W5_main_arg10 m ρ c),
       (h c _ (Cert.KernelIdeal.Hand.mem_uc Cert.KernelIdeal.main_arg11 (by decide))).trans (Cert.KernelIdeal.Hand.W5_main_arg11 m ρ c),
       (h c _ (Cert.KernelIdeal.Hand.mem_uc Cert.KernelIdeal.main_arg12 (by decide))).trans (Cert.KernelIdeal.Hand.W5_main_arg12 m ρ c),
       (h c _ (Cert.KernelIdeal.Hand.mem_uc Cert.KernelIdeal.main_arg13 (by decide))).trans (Cert.KernelIdeal.Hand.W5_main_arg13 m ρ c),
       (h c _ (Cert.KernelIdeal.Hand.mem_uc Cert.KernelIdeal.main_arg14 (by decide))).trans (Cert.KernelIdeal.Hand.W5_main_arg14 m ρ c),
       (h c _ (Cert.KernelIdeal.Hand.mem_uc Cert.KernelIdeal.main_arg15 (by decide))).trans (Cert.KernelIdeal.Hand.W5_main_arg15 m ρ c),
       (h c _ (Cert.KernelIdeal.Hand.mem_uc Cert.KernelIdeal.main_arg16 (by decide))).trans (Cert.KernelIdeal.Hand.W5_main_arg16 m ρ c),
       (h c _ (Cert.KernelIdeal.Hand.mem_uc Cert.KernelIdeal.main_arg17 (by decide))).trans (Cert.KernelIdeal.Hand.W5_main_arg17 m ρ c),
       (h c _ (Cert.KernelIdeal.Hand.mem_uc Cert.KernelIdeal.main_arg18 (by decide))).trans (Cert.KernelIdeal.Hand.W5_main_arg18 m ρ c),
       (h c _ (Cert.KernelIdeal.Hand.mem_uc Cert.KernelIdeal.main_arg19 (by decide))).trans (Cert.KernelIdeal.Hand.W5_main_arg19 m ρ c),
       (h c _ (Cert.KernelIdeal.Hand.mem_uc Cert.KernelIdeal.main_arg20 (by decide))).trans (Cert.KernelIdeal.Hand.W5_main_arg20 m ρ c),
       (h c _ (Cert.KernelIdeal.Hand.mem_uc Cert.KernelIdeal.main_arg21 (by decide))).trans (Cert.KernelIdeal.Hand.W5_main_arg21 m ρ c),
       (h c _ (Cert.KernelIdeal.Hand.mem_uc Cert.KernelIdeal.main_arg22 (by decide))).trans (Cert.KernelIdeal.Hand.W5_main_arg22 m ρ c),
       (h c _ (Cert.KernelIdeal.Hand.mem_uc Cert.KernelIdeal.main_arg23 (by decide))).trans (Cert.KernelIdeal.Hand.W5_main_arg23 m ρ c),
       (h c _ (Cert.KernelIdeal.Hand.mem_uc Cert.KernelIdeal.main_arg24 (by decide))).trans (Cert.KernelIdeal.Hand.W5_main_arg24 m ρ c),
       (h c _ (Cert.KernelIdeal.Hand.mem_uc Cert.KernelIdeal.main_arg25 (by decide))).trans (Cert.KernelIdeal.Hand.W5_main_arg25 m ρ c),
       (h c _ (Cert.KernelIdeal.Hand.mem_uc Cert.KernelIdeal.main_arg26 (by decide))).trans (Cert.KernelIdeal.Hand.W5_main_arg26 m ρ c)⟩)
      (Cert.KernelIdeal.Hand.run_main m ρ)
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')
    · rw [(hagree c).1, (hagree c).2.2.1, (hagree c).2.2.2.1, (hagree c).2.2.2.2.2.2.2.2.2.2.2.2.1, (hagree c).2.2.2.2.2.2.2.2.2.2.2.2.2.2.2.2.2.1, (hagree c).2.2.2.2.2.2.2.2.2.2.2.2.2.2.2.2.2.2.1]; rfl
    · rw [(hagree c).1, (hagree c).2.1, (hagree c).2.2.2.2.1, (hagree c).2.2.2.2.2.1, (hagree c).2.2.2.2.2.2.2.2.2.2.1, (hagree c).2.2.2.2.2.2.2.2.2.2.2.1, (hagree c).2.2.2.2.2.2.2.2.2.2.2.2.2.1, (hagree c).2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2]; rfl
    · rw [(hagree c).1, (hagree c).2.1, (hagree c).2.2.2.2.2.2.1, (hagree c).2.2.2.2.2.2.2.1, (hagree c).2.2.2.2.2.2.2.2.1, (hagree c).2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1]; rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
